-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x11264 : Shape := ⟨3, ![8, 2048, 11264]⟩
abbrev S8x5632x2048 : Shape := ⟨3, ![8, 5632, 2048]⟩
abbrev S8 : Shape := ⟨1, ![8]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x11264 : S_.BroadcastsInDim S8x2048x11264 (![] : Fin 0 → Fin S8x2048x11264.rank)
  reducesTo_S8x2048x11264_S_d0_1_2 : S8x2048x11264.ReducesTo [0, 1, 2] S_
  bcast_S_S8x5632x2048 : S_.BroadcastsInDim S8x5632x2048 (![] : Fin 0 → Fin S8x5632x2048.rank)
  reducesTo_S8x5632x2048_S_d0_1_2 : S8x5632x2048.ReducesTo [0, 1, 2] S_

variable [Facts]

def fn {F : FTy → Type} [FloatOps F] (main_arg0 : FVec F S8192x2048 .f32) (main_arg1 : FVec F S8x2048x11264 .f32) (main_arg2 : FVec F S8x5632x2048 .f32) (main_arg3 : IVec S8 32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x11264 .f32 := Host.absf main_arg1
  let main_cst_0 : FVec F S_ .f32 := constant S_ .f32 0x7F800000#32
  let main_v5 : FVec F S8x2048x11264 .f32 := broadcastInDim S8x2048x11264 ![] bcast_S_S8x2048x11264 main_cst_0
  let main_v6 : IVec S8x2048x11264 1 := cmpf .olt main_v4 main_v5
  let main_c_1 : IVec S_ 1 := constantI S_ 1 1#1
  let main_v7 : IVec S_ 1 := (fun x v => Host.reduce IntOp.andi x v reducesTo_S8x2048x11264_S_d0_1_2 h_S_) main_v6 main_c_1
  let main_v8 : IVec S_ 1 := andi main_v3 main_v7
  let main_v9 : FVec F S8x5632x2048 .f32 := Host.absf main_arg2
  let main_cst_2 : FVec F S_ .f32 := constant S_ .f32 0x7F800000#32
  let main_v10 : FVec F S8x5632x2048 .f32 := broadcastInDim S8x5632x2048 ![] bcast_S_S8x5632x2048 main_cst_2
  let main_v11 : IVec S8x5632x2048 1 := cmpf .olt main_v9 main_v10
  let main_c_3 : IVec S_ 1 := constantI S_ 1 1#1
  let main_v12 : IVec S_ 1 := (fun x v => Host.reduce IntOp.andi x v reducesTo_S8x5632x2048_S_d0_1_2 h_S_) main_v11 main_c_3
  let main_v13 : IVec S_ 1 := andi main_v8 main_v12
  main_v13
-- ==== Kernel.lean ====
abbrev S8192x2048 : Shape := ⟨2, ![8192, 2048]⟩
abbrev S8x2048x11264 : Shape := ⟨3, ![8, 2048, 11264]⟩
abbrev S8x5632x2048 : Shape := ⟨3, ![8, 5632, 2048]⟩
abbrev S8 : Shape := ⟨1, ![8]⟩
abbrev S8x1024x2048 : Shape := ⟨3, ![8, 1024, 2048]⟩
abbrev S8x1024x5632 : Shape := ⟨3, ![8, 1024, 5632]⟩
abbrev S1x1024x512 : Shape := ⟨3, ![1, 1024, 512]⟩
abbrev S1x512x1408 : Shape := ⟨3, ![1, 512, 1408]⟩
abbrev S1x1024x1408 : Shape := ⟨3, ![1, 1024, 1408]⟩
abbrev S1024x1408 : Shape := ⟨2, ![1024, 1408]⟩
abbrev S1024x512 : Shape := ⟨2, ![1024, 512]⟩
abbrev S512x1408 : Shape := ⟨2, ![512, 1408]⟩
abbrev S1x1408x1024 : Shape := ⟨3, ![1, 1408, 1024]⟩
abbrev S1x512x1024 : Shape := ⟨3, ![1, 512, 1024]⟩
abbrev S512x1024 : Shape := ⟨2, ![512, 1024]⟩
abbrev S1408x1024 : Shape := ⟨2, ![1408, 1024]⟩

abbrev nBuf : Space → Nat
  | .hbm => 8
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8x2048x11264, .f32⟩
  | .hbm, ⟨2, _⟩ => ⟨S8x5632x2048, .f32⟩
  | .hbm, ⟨3, _⟩ => ⟨S8, .i32⟩
  | .hbm, ⟨4, _⟩ => ⟨S8x1024x2048, .f32⟩
  | .hbm, ⟨5, _⟩ => ⟨S8x1024x5632, .bf16⟩
  | .hbm, ⟨6, _⟩ => ⟨S8x1024x2048, .f32⟩
  | .hbm, ⟨7, _⟩ => ⟨S8192x2048, .f32⟩
  | .local _ .vmem, ⟨0, _⟩ => ⟨S1x1024x512, .f32⟩
  | .local _ .vmem, ⟨1, _⟩ => ⟨S1x1024x512, .f32⟩
  | .local _ .vmem, ⟨2, _⟩ => ⟨S1x512x1408, .f32⟩
  | .local _ .vmem, ⟨3, _⟩ => ⟨S1x512x1408, .f32⟩
  | .local _ .vmem, ⟨4, _⟩ => ⟨S1x512x1408, .f32⟩
  | .local _ .vmem, ⟨5, _⟩ => ⟨S1x512x1408, .f32⟩
  | .local _ .vmem, ⟨6, _⟩ => ⟨S1x1024x1408, .bf16⟩
  | .local _ .vmem, ⟨7, _⟩ => ⟨S1x1024x1408, .bf16⟩
  | .local _ .vmem, ⟨8, _⟩ => ⟨S1024x1408, .f32⟩
  | .local _ .vmem, ⟨9, _⟩ => ⟨S1024x1408, .f32⟩
  | .local _ .vmem, ⟨10, _⟩ => ⟨S1x512x1408, .bf16⟩
  | .local _ .vmem, ⟨11, _⟩ => ⟨S1x512x1408, .bf16⟩
  | .local _ .vmem, ⟨12, _⟩ => ⟨S1x1408x1024, .f32⟩
  | .local _ .vmem, ⟨13, _⟩ => ⟨S1x1408x1024, .f32⟩
  | .local _ .vmem, ⟨14, _⟩ => ⟨S1x512x1024, .f32⟩
  | .local _ .vmem, ⟨15, _⟩ => ⟨S1x512x1024, .f32⟩
  | .local _ .vmem, ⟨16, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_18 : BitVec 32 := 0#32
  let v26 : BitVec 1 := Scalar.cmpi .ne v25 c0_i32_18
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨4, ![8, 2, 2, 4], ![false, false, false, false]⟩

def k1_cond2 (i : grid1.Coords) : BitVec 1 :=
  let arg3 : BitVec 32 := BitVec.ofNat 32 (i 3).val
  let c3_i32 : BitVec 32 := 3#32
  let v14 : BitVec 1 := Scalar.cmpi .eq arg3 c3_i32
  let v15 : BitVec 32 := Scalar.extui v14
  let c0_i32_10 : BitVec 32 := 0#32
  let v16 : BitVec 1 := Scalar.cmpi .ne v15 c0_i32_10
  v16

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage1_0 : Fin 2 → Memref sig .tc .vmem S1x512x1408 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false, true]

abbrev stage1_1 : Fin 2 → Memref sig .tc .vmem S1x1408x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true, true]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true, false]

class Facts₀ : Prop where
  shapeCasts_S8192x2048_S8x1024x2048 : S8192x2048.ShapeCasts S8x1024x2048
  inb_S1024x1408_S1024x1408_0_0 : ∀ a, (![0, 0] : Fin 2 → Nat) a + S1024x1408.size a ≤ S1024x1408.size a
  h_S1024x1408 : 0 < S1024x1408.numel
  shapeCasts_S1024x1408_S1024x1408 : S1024x1408.ShapeCasts S1024x1408
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S1x512x1408_S1x512x1408_0_0_0 : ∀ a, (![0, 0, 0] : Fin 3 → Nat) a + S1x512x1408.size a ≤ S1x512x1408.size a
  h_S1x512x1408 : 0 < S1x512x1408.numel
  shapeCasts_S1x512x1408_S512x1408 : S1x512x1408.ShapeCasts S512x1408
  inb_S1x1024x1408_S1x1024x1408_0_0_0 : ∀ a, (![0, 0, 0] : Fin 3 → Nat) a + S1x1024x1408.size a ≤ S1x1024x1408.size a
  h_S1x1024x1408 : 0 < S1x1024x1408.numel
  shapeCasts_S1x1024x1408_S1024x1408 : S1x1024x1408.ShapeCasts S1024x1408
  shapeCasts_S1024x1408_S1x1024x1408 : S1024x1408.ShapeCasts S1x1024x1408
  packedbf16_S1x1024x1408_S1x1024x1408_0_0_0 : (Rect.unit (s := S1x1024x1408) ![0, 0, 0] S1x1024x1408.size inb_S1x1024x1408_S1x1024x1408_0_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1408x1024_S1x1408x1024_0_0_0 : ∀ a, (![0, 0, 0] : Fin 3 → Nat) a + S1x1408x1024.size a ≤ S1x1408x1024.size a
  h_S1x1408x1024 : 0 < S1x1408x1024.numel
  shapeCasts_S1x1408x1024_S1408x1024 : S1x1408x1024.ShapeCasts S1408x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  shapeCasts_S8x1024x2048_S8192x2048 : S8x1024x2048.ShapeCasts S8192x2048
  dot_S1024x512_S512x1408_S1024x1408_1_0_0_1_n_n_wf : DotDims.WF S1024x512 S512x1408 S1024x1408 [1] [0] [0] [1] [] []
  dot_S512x1408_S1408x1024_S512x1024_1_0_0_1_n_n_wf : DotDims.WF S512x1408 S1408x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x1024x2048.size a
  hwx0_0 : ∀ i : grid0.Coords, EltTy.bits .f32 = 32 ∨ (Rect.block (s := S8x1024x2048) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1408.size a ≤ S8x2048x11264.size a
  hwx0_1 : ∀ i : grid0.Coords, EltTy.bits .f32 = 32 ∨ (Rect.block (s := S8x2048x11264) S1x512x1408.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1408.size a ≤ S8x2048x11264.size a
  hwx0_2 : ∀ i : grid0.Coords, EltTy.bits .f32 = 32 ∨ (Rect.block (s := S8x2048x11264) S1x512x1408.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1408.size a ≤ S8x1024x5632.size a
  hwx0_3 : ∀ i : grid0.Coords, EltTy.bits .bf16 = 32 ∨ (Rect.block (s := S8x1024x5632) S1x1024x1408.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1408.size a ≤ S8x1024x5632.size a
  hwx1_0 : ∀ i : grid1.Coords, EltTy.bits .bf16 = 32 ∨ (Rect.block (s := S8x1024x5632) S1x512x1408.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1408x1024.size a ≤ S8x5632x2048.size a
  hwx1_1 : ∀ i : grid1.Coords, EltTy.bits .f32 = 32 ∨ (Rect.block (s := S8x5632x2048) S1x1408x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S8x1024x2048.size a
  hwx1_2 : ∀ i : grid1.Coords, EltTy.bits .f32 = 32 ∨ (Rect.block (s := S8x1024x2048) S1x512x1024.size (cc1_transform_2 i) (hinb1_2 i)).WholeWords (EltTy.packing .f32)

variable [Facts₀]

def dot_S1024x512_S512x1408_S1024x1408_1_0_0_1_n_n : DotDims S1024x512 S512x1408 S1024x1408 where
  lhsContracting := [1]
  rhsContracting := [0]
  lhsNonContracting := [0]
  rhsNonContracting := [1]
  lhsBatch := []
  rhsBatch := []
  wf := dot_S1024x512_S512x1408_S1024x1408_1_0_0_1_n_n_wf
def dot_S512x1408_S1408x1024_S512x1024_1_0_0_1_n_n : DotDims S512x1408 S1408x1024 S512x1024 where
  lhsContracting := [1]
  rhsContracting := [0]
  lhsNonContracting := [0]
  rhsNonContracting := [1]
  lhsBatch := []
  rhsBatch := []
  wf := dot_S512x1408_S1408x1024_S512x1024_1_0_0_1_n_n_wf

abbrev win0_0 : Pipeline.Window sig grid0 :=
  Pipeline.Window.ofSpec (Memref.whole main_v0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1408.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x1408.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x1408.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S1x512x1408.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x1408x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8x2048x11264 : Shape := ⟨3, ![8, 2048, 11264]⟩
abbrev S8x5632x2048 : Shape := ⟨3, ![8, 5632, 2048]⟩
abbrev S8 : Shape := ⟨1, ![8]⟩
abbrev S8x1024x2048 : Shape := ⟨3, ![8, 1024, 2048]⟩
abbrev S8x1024x11264 : Shape := ⟨3, ![8, 1024, 11264]⟩
abbrev S8x1024x5632 : Shape := ⟨3, ![8, 1024, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048x11264, .f32⟩
  | .hbm, ⟨2, _⟩ => ⟨S8x5632x2048, .f32⟩
  | .hbm, ⟨3, _⟩ => ⟨S8, .i32⟩
  | .hbm, ⟨4, _⟩ => ⟨S8x1024x2048, .f32⟩
  | .hbm, ⟨5, _⟩ => ⟨S8x1024x11264, .f32⟩
  | .hbm, ⟨6, _⟩ => ⟨S8x1024x5632, .f32⟩
  | .hbm, ⟨7, _⟩ => ⟨S8x1024x5632, .f32⟩
  | .hbm, ⟨8, _⟩ => ⟨S8x1024x5632, .f32⟩
  | .hbm, ⟨9, _⟩ => ⟨S8x1024x5632, .f32⟩
  | .hbm, ⟨10, _⟩ => ⟨S_, .f32⟩
  | .hbm, ⟨11, _⟩ => ⟨S8x1024x5632, .f32⟩
  | .hbm, ⟨12, _⟩ => ⟨S8x1024x5632, .f32⟩
  | .hbm, ⟨13, _⟩ => ⟨S_, .f32⟩
  | .hbm, ⟨14, _⟩ => ⟨S8x1024x5632, .f32⟩
  | .hbm, ⟨15, _⟩ => ⟨S8x1024x5632, .f32⟩
  | .hbm, ⟨16, _⟩ => ⟨S8x1024x5632, .f32⟩
  | .hbm, ⟨17, _⟩ => ⟨S8x1024x5632, .f32⟩
  | .hbm, ⟨18, _⟩ => ⟨S8x1024x2048, .f32⟩
  | .hbm, ⟨19, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]

class Facts₀ : Prop where
  shapeCasts_S8192x2048_S8x1024x2048 : S8192x2048.ShapeCasts S8x1024x2048
  slices_S8x1024x11264_S8x1024x5632_0_0_0 : S8x1024x11264.Slices ![0, 0, 0] S8x1024x5632
  slices_S8x1024x11264_S8x1024x5632_0_0_5632 : S8x1024x11264.Slices ![0, 0, 5632] S8x1024x5632
  bcast_S_S8x1024x5632 : S_.BroadcastsInDim S8x1024x5632 (![] : Fin 0 → Fin S8x1024x5632.rank)
  shapeCasts_S8x1024x2048_S8192x2048 : S8x1024x2048.ShapeCasts S8192x2048
  dot_S8x1024x2048_S8x2048x11264_S8x1024x11264_2_1_1_2_0_0_wf : DotDims.WF S8x1024x2048 S8x2048x11264 S8x1024x11264 [2] [1] [1] [2] [0] [0]
  dot_S8x1024x5632_S8x5632x2048_S8x1024x2048_2_1_1_2_0_0_wf : DotDims.WF S8x1024x5632 S8x5632x2048 S8x1024x2048 [2] [1] [1] [2] [0] [0]

variable [Facts₀]

def dot_S8x1024x2048_S8x2048x11264_S8x1024x11264_2_1_1_2_0_0 : DotDims S8x1024x2048 S8x2048x11264 S8x1024x11264 where
  lhsContracting := [2]
  rhsContracting := [1]
  lhsNonContracting := [1]
  rhsNonContracting := [2]
  lhsBatch := [0]
  rhsBatch := [0]
  wf := dot_S8x1024x2048_S8x2048x11264_S8x1024x11264_2_1_1_2_0_0_wf
def dot_S8x1024x5632_S8x5632x2048_S8x1024x2048_2_1_1_2_0_0 : DotDims S8x1024x5632 S8x5632x2048 S8x1024x2048 where
  lhsContracting := [2]
  rhsContracting := [1]
  lhsNonContracting := [1]
  rhsNonContracting := [2]
  lhsBatch := [0]
  rhsBatch := [0]
  wf := dot_S8x1024x5632_S8x5632x2048_S8x1024x2048_2_1_1_2_0_0_wf

class Facts : Prop extends Facts₀ where

variable [Facts]
-- ==== Proof.K.R0Defs.lean ====
/-
  Region 0 (the first matrix product and the gated activation): what the body reads and what it leaves, as plain
  functions of the buffer contents `V` the region is entered with.

  A grid point t = (e, ti, hk) reads the block (e, 0, hk) of the activations x : [8,1024,2048] and the blocks
  (e, hk, ti) and (e, hk, ti+4) of the first weight array [8,2048,11264] — the two halves of its last axis. The two
  accumulators a, b : [1024,1408] are zeroed at hk = 0 and each point adds its block product:
      a ← a + x_blk · wa_blk,   b ← b + x_blk · wb_blk.
  At hk = 3 the output block (e, 0, ti) of [8,1024,5632] is (a · logistic a) · b.
-/
import proofs.«103436_j9328668967830_1_alg».proof.Proof.Gen.Kernel.Skeleton
import proofs.«103436_j9328668967830_1_alg».proof.Proof.Gen.Kernel.Launch
import proofs.«103436_j9328668967830_1_alg».proof.Proof.Gen.Kernel.Points

noncomputable section

namespace Cert.Kernel.Hand

open Idealize.ShloMosaic Idealize.ShloMosaic.TcCoe
open Idealize.SL Idealize.SL.Sem
open Cert.Kernel Cert.Kernel.Gen

variable {F : FTy → Type} [FloatOps F]

variable (V : (c : Dev nD) → (b : Ref sig .tc) → Buf (Elt F) ((c : Thread nD τ).loc b))

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two accumulators after the body at position `n`: restarted from zero where `n % 4 = 0`, else the previous
    position's plus this position's block products. -/
def accs0 (c : Dev nD) : (n : ℕ) → n < cfg0.N → Vec F S1024x1408 .f32 × Vec F S1024x1408 .f32
  | 0, hn => (k0_pay4 (iblk0 V c 0 ⟨0, hn⟩) (iblk0 V c 1 ⟨0, hn⟩) k0_pay1, k0_pay5 (iblk0 V c 0 ⟨0, hn⟩) (iblk0 V c 2 ⟨0, hn⟩) k0_pay2)
  | n + 1, hn =>
    if (n + 1) % 4 = 0 then
      (k0_pay4 (iblk0 V c 0 ⟨n + 1, hn⟩) (iblk0 V c 1 ⟨n + 1, hn⟩) k0_pay1, k0_pay5 (iblk0 V c 0 ⟨n + 1, hn⟩) (iblk0 V c 2 ⟨n + 1, hn⟩) k0_pay2)
    else
      (k0_pay4 (iblk0 V c 0 ⟨n + 1, hn⟩) (iblk0 V c 1 ⟨n + 1, hn⟩) (accs0 c n (Nat.lt_of_succ_lt hn)).1,
       k0_pay5 (iblk0 V c 0 ⟨n + 1, hn⟩) (iblk0 V c 2 ⟨n + 1, hn⟩) (accs0 c n (Nat.lt_of_succ_lt hn)).2)

/-- What the body leaves in the output window's staging buffer at a point that stores it (hk = 3): the gated
    product of the two accumulators as they stand after that point. -/
def outv0 (c : Dev nD) (t : Fin cfg0.N) : Vec F S1x1024x1408 .bf16 :=
  k0_pay6 (accs0 V c t.val t.isLt).1 (accs0 V c t.val t.isLt).2

theorem accs0_first (c : Dev nD) (t : Fin cfg0.N) (h : t.val % 4 = 0) :
    accs0 V c t.val t.isLt = (k0_pay4 (iblk0 V c 0 t) (iblk0 V c 1 t) k0_pay1, k0_pay5 (iblk0 V c 0 t) (iblk0 V c 2 t) k0_pay2) := by
  obtain ⟨n, hn⟩ := t
  cases n with
  | zero => rfl
  | succ n => exact (if_pos h).trans rfl

theorem accs0_step (c : Dev nD) (t : Fin cfg0.N) (h : ¬ t.val % 4 = 0) :
    accs0 V c t.val t.isLt
      = (k0_pay4 (iblk0 V c 0 t) (iblk0 V c 1 t) (accs0 V c (t.val - 1) (Nat.lt_of_le_of_lt (Nat.sub_le _ _) t.isLt)).1,
         k0_pay5 (iblk0 V c 0 t) (iblk0 V c 2 t) (accs0 V c (t.val - 1) (Nat.lt_of_le_of_lt (Nat.sub_le _ _) t.isLt)).2) := by
  obtain ⟨n, hn⟩ := t
  cases n with
  | zero => exact absurd (Nat.zero_mod _) h
  | succ n => exact (if_neg h).trans rfl

end Cert.Kernel.Hand

end
-- ==== Proof.K.R0Runs.lean ====
/- Region 0: what the three case runs of the body and the frame share — the branch conditions in closed form over
   the grid, where the output window is idle, the staging and scratch memrefs, and the scoped rest enumerated. -/
import proofs.«103436_j9328668967830_1_alg».proof.Proof.K.R0Defs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The first conditional's condition (the accumulators are restarted), from the grid coordinates. -/
abbrev cond0_0 (i : grid0.Coords) : Prop := (Scalar.cmpi .ne (Scalar.extui (Scalar.cmpi .eq (BitVec.ofNat 32 (i 2).val) 0#32)) 0#32) = 1#1
/-- It holds exactly at the points whose position is 0 modulo 4 (the innermost coordinate is 0). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition (the output block is stored), from the grid coordinates. -/
abbrev cond0_1 (i : grid0.Coords) : Prop := k0_cond2 i = 1#1
/-- It holds exactly at the points whose position is 3 modulo 4 (the innermost coordinate is 3). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the output block is not stored the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is stored the window is live. -/
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S1x1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1408 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1408 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1408 .bf16 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0_0 : Memref sig .tc .vmem S1024x1408 .f32 := Memref.whole cc0_scratch0
abbrev scM0_1 : Memref sig .tc .vmem S1024x1408 .f32 := Memref.whole cc0_scratch1

/-! ## The scoped rest -/

/-- The scoped buffers that are neither a staging buffer of this region nor one of its accumulators (the other region's
    staging buffers and accumulator), each whole at some contents: they ride along untouched. -/
def Rest0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_scratch0), ((c : Thread nD τ).loc cc1_scratch0) ↦{fullShare} f))

/-- What the region is handed: the two accumulators at some contents, the other scoped buffers, the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 c) ∗ (∃ r, prngReg c r)) := by
  unfold Pipeline.ΦA Rest0; rw [scopedRest0_eq]; simp only [scM0_0, scM0_1, owns_whole]; try rfl

variable (V : (c : Dev nD) → (b : Ref sig .tc) → Buf (Elt F) ((c : Thread nD τ).loc b))

/-! ## The input windows' staging buffers before the body -/

/-- Input window 0's current staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, for any proof data whose array is `V`'s and
    whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, for any proof data whose array is `V`'s and
    whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Cert.Kernel.Hand

end
-- ==== Proof.K.R0RunA.lean ====
/- Region 0, the body's run at a point where the first conditional is taken and the second is not: both accumulators are
   zeroed and then added to, the output block is left alone. -/
import proofs.«103436_j9328668967830_1_alg».proof.Proof.K.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the two accumulators at a point that restarts them, with the body's triple:
    from the inputs' staging buffers at their blocks, the output's at anything (handed back untouched) and the
    accumulators at anything, to the same with the accumulators' pieces written. -/
noncomputable def kernelRun0_A (c : Dev nD) (i : grid0.Coords) (arg3 : Memref sig .tc .vmem S1x1024x512 .f32) (harg3 : arg3.IsWhole) (arg4 : Memref sig .tc .vmem S1x512x1408 .f32) (harg4 : arg4.IsWhole) (arg5 : Memref sig .tc .vmem S1x512x1408 .f32) (harg5 : arg5.IsWhole) (arg6 : Memref sig .tc .vmem S1x1024x1408 .bf16) (harg6 : arg6.IsWhole) (arg7 : Memref sig .tc .vmem S1024x1408 .f32) (harg7 : arg7.IsWhole) (arg8 : Memref sig .tc .vmem S1024x1408 .f32) (harg8 : arg8.IsWhole) (hc0 : cond0_0 i) (hc1 : ¬cond0_1 i)
    (x0 : Vec F S1x1024x512 .f32) (x1 x2 : Vec F S1x512x1408 .f32) :
    Σ' (LS0 : List (View.Piece (Elt F) S1024x1408 .f32)), { LS1 : List (View.Piece (Elt F) S1024x1408 .f32) //
      ∀ (xi3 : Vec F S1x1024x1408 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__fc1_glu_kernel i arg3 harg3 arg4 harg4 arg5 harg5 arg6 harg6 arg7 harg7 arg8 harg8) K } := by
  refine ⟨?_, ?_, fun xi3 E K => ?run⟩
  case run =>
    rw [cc0__fc1_glu_kernel_eq_skeleton]; delta cc0__fc1_glu_kernel_skel; beta_reduce
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    iexists _; iexact HS1

end Cert.Kernel.Hand

end
-- ==== Proof.K.R0RunB.lean ====
/- Region 0, the body's run at a point where neither conditional is taken: both accumulators are added to, the output
   block is left alone. The pieces each accumulator ends with are found by the run. -/
import proofs.«103436_j9328668967830_1_alg».proof.Proof.K.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the two accumulators at a point where neither conditional is taken, with the
    body's triple: from the inputs' staging buffers at their blocks, the output's at anything (handed back untouched) and
    the accumulators at what the point before left, to the same with the accumulators' pieces written. -/
noncomputable def kernelRun0_B (c : Dev nD) (i : grid0.Coords) (arg3 : Memref sig .tc .vmem S1x1024x512 .f32) (harg3 : arg3.IsWhole) (arg4 : Memref sig .tc .vmem S1x512x1408 .f32) (harg4 : arg4.IsWhole) (arg5 : Memref sig .tc .vmem S1x512x1408 .f32) (harg5 : arg5.IsWhole) (arg6 : Memref sig .tc .vmem S1x1024x1408 .bf16) (harg6 : arg6.IsWhole) (arg7 : Memref sig .tc .vmem S1024x1408 .f32) (harg7 : arg7.IsWhole) (arg8 : Memref sig .tc .vmem S1024x1408 .f32) (harg8 : arg8.IsWhole) (hc0 : ¬cond0_0 i) (hc1 : ¬cond0_1 i)
    (x0 : Vec F S1x1024x512 .f32) (x1 x2 : Vec F S1x512x1408 .f32) (xs0 xs1 : Vec F S1024x1408 .f32) :
    Σ' (LS0 : List (View.Piece (Elt F) S1024x1408 .f32)), { LS1 : List (View.Piece (Elt F) S1024x1408 .f32) //
      ∀ (xi3 : Vec F S1x1024x1408 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__fc1_glu_kernel i arg3 harg3 arg4 harg4 arg5 harg5 arg6 harg6 arg7 harg7 arg8 harg8) K } := by
  refine ⟨?_, ?_, fun xi3 E K => ?run⟩
  case run =>
    rw [cc0__fc1_glu_kernel_eq_skeleton]; delta cc0__fc1_glu_kernel_skel; beta_reduce
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    iexists _; iexact HS1

end Cert.Kernel.Hand

end
-- ==== Proof.K.R0RunC.lean ====
/- Region 0, the body's run at a point where the second conditional is taken and the first is not: both accumulators are
   added to, and the output block is stored from them. -/
import proofs.«103436_j9328668967830_1_alg».proof.Proof.K.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the output's staging buffer and in the two accumulators at a point that stores
    the output, with the body's triple: from the inputs' staging buffers at their blocks, the output's at anything and the
    accumulators at what the point before left, to the inputs' as they were and the three others with their pieces written. -/
noncomputable def kernelRun0_C (c : Dev nD) (i : grid0.Coords) (arg3 : Memref sig .tc .vmem S1x1024x512 .f32) (harg3 : arg3.IsWhole) (arg4 : Memref sig .tc .vmem S1x512x1408 .f32) (harg4 : arg4.IsWhole) (arg5 : Memref sig .tc .vmem S1x512x1408 .f32) (harg5 : arg5.IsWhole) (arg6 : Memref sig .tc .vmem S1x1024x1408 .bf16) (harg6 : arg6.IsWhole) (arg7 : Memref sig .tc .vmem S1024x1408 .f32) (harg7 : arg7.IsWhole) (arg8 : Memref sig .tc .vmem S1024x1408 .f32) (harg8 : arg8.IsWhole) (hc0 : ¬cond0_0 i) (hc1 : cond0_1 i)
    (x0 : Vec F S1x1024x512 .f32) (x1 x2 : Vec F S1x512x1408 .f32) (xs0 xs1 : Vec F S1024x1408 .f32) :
    Σ' (L3 : List (View.Piece (Elt F) S1x1024x1408 .bf16)) (LS0 : List (View.Piece (Elt F) S1024x1408 .f32)), { LS1 : List (View.Piece (Elt F) S1024x1408 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__fc1_glu_kernel i arg3 harg3 arg4 harg4 arg5 harg5 arg6 harg6 arg7 harg7 arg8 harg8) K } := by
  refine ⟨?_, ?_, ?_, fun E K => ?run⟩
  case run =>
    rw [cc0__fc1_glu_kernel_eq_skeleton]; delta cc0__fc1_glu_kernel_skel; beta_reduce
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]
    · iexists _; iexact HS0
    iexists _; iexact HS1

end Cert.Kernel.Hand

end
-- ==== Proof.K.R0Back.lean ====
/- Region 0: what each case's run leaves in the accumulators and in the output's staging buffer, read back as the
   payload functions. Every store of the body is of a whole buffer, so a read over the pieces is the last piece's payload,
   and a load of a whole buffer reads its contents. -/
import proofs.«103436_j9328668967830_1_alg».proof.Proof.K.R0RunA
import proofs.«103436_j9328668967830_1_alg».proof.Proof.K.R0RunB
import proofs.«103436_j9328668967830_1_alg».proof.Proof.K.R0RunC
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Whole-buffer loads and stores -/

section whole

variable {Val : EltTy → Type} [∀ e, Nonempty (Val e)] {sg : RefSig} {κ : Kind} {sp : Space} {S : Shape} {e : EltTy}

/-- Pieces whose last store is of the whole shape read back as that store's payload, whatever came before. -/
theorem r0_read_writes_whole_last (v : View sg κ sp S e) (f : v.ty.Contents Val) {off : Fin S.rank → ℕ} (hz : off = fun _ => 0)
    (inb : ∀ a, off a + S.size a ≤ S.size a) (w : S.Idx → Val e) (L : List (View.Piece Val S e)) :
    v.read Val (v.writes Val f (⟨Rect.unit off S.size inb, w⟩ :: L)) = w := by
  rw [View.read_writes_eq_canon _ _ _ (fun y => ⟨_, List.mem_cons_self, View.mem_set_unit_zero hz inb y⟩),
    View.canon_cons_unit_zero hz]

/-- A load of the whole of a whole buffer held at contents `X` reads `X`. -/
theorem r0_readAt_whole_unread {m : Memref sg κ sp S e} (h : m.IsWhole) {off : Fin S.rank → ℕ} (hz : off = fun _ => 0)
    (inb : ∀ a, off a + S.size a ≤ S.size a) (X : S.Idx → Val e) :
    m.view.readAt Val (Rect.unit off S.size inb).toLoadRect (h.unread X) = X := by
  rw [View.readAt_eq_ld, h.read_unread, View.ld_unit_zero hz]

end whole

theorem r0_hz2 : (![0, 0] : Fin 2 → ℕ) = fun _ => 0 := by funext a; fin_cases a <;> rfl
theorem r0_hz3 : (![0, 0, 0] : Fin 3 → ℕ) = fun _ => 0 := by funext a; fin_cases a <;> rfl

/-! ## Case B: neither conditional taken -/

section B
variable (c : Dev nD) (i : grid0.Coords) (arg3 : Memref sig .tc .vmem S1x1024x512 .f32) (harg3 : arg3.IsWhole) (arg4 : Memref sig .tc .vmem S1x512x1408 .f32) (harg4 : arg4.IsWhole) (arg5 : Memref sig .tc .vmem S1x512x1408 .f32) (harg5 : arg5.IsWhole) (arg6 : Memref sig .tc .vmem S1x1024x1408 .bf16) (harg6 : arg6.IsWhole) (arg7 : Memref sig .tc .vmem S1024x1408 .f32) (harg7 : arg7.IsWhole) (arg8 : Memref sig .tc .vmem S1024x1408 .f32) (harg8 : arg8.IsWhole) (hc0 : ¬cond0_0 i) (hc1 : ¬cond0_1 i)
    (x0 : Vec F S1x1024x512 .f32) (x1 x2 : Vec F S1x512x1408 .f32) (xs0 xs1 : Vec F S1024x1408 .f32)

theorem read0B_0 (v : View sig .tc .vmem S1024x1408 .f32) (f : v.ty.Contents (Elt F)) :
    v.read (Elt F) (v.writes (Elt F) f (kernelRun0_B c i arg3 harg3 arg4 harg4 arg5 harg5 arg6 harg6 arg7 harg7 arg8 harg8 hc0 hc1 x0 x1 x2 xs0 xs1).1) = k0_pay4 x0 x1 xs0 := by
  unfold kernelRun0_B; dsimp only
  exact (r0_read_writes_whole_last (S := S1024x1408) v f r0_hz2 inb_S1024x1408_S1024x1408_0_0 _ _).trans
    (congr (congr (congrArg (k0_pay4 (F := F)) (r0_readAt_whole_unread (S := S1x1024x512) harg3 r0_hz3 inb_S1x1024x512_S1x1024x512_0_0_0 x0))
      (r0_readAt_whole_unread (S := S1x512x1408) harg4 r0_hz3 inb_S1x512x1408_S1x512x1408_0_0_0 x1))
      (r0_readAt_whole_unread (S := S1024x1408) harg7 r0_hz2 inb_S1024x1408_S1024x1408_0_0 xs0))

theorem read0B_1 (v : View sig .tc .vmem S1024x1408 .f32) (f : v.ty.Contents (Elt F)) :
    v.read (Elt F) (v.writes (Elt F) f (kernelRun0_B c i arg3 harg3 arg4 harg4 arg5 harg5 arg6 harg6 arg7 harg7 arg8 harg8 hc0 hc1 x0 x1 x2 xs0 xs1).2.1) = k0_pay5 x0 x2 xs1 := by
  unfold kernelRun0_B; dsimp only
  exact (r0_read_writes_whole_last (S := S1024x1408) v f r0_hz2 inb_S1024x1408_S1024x1408_0_0 _ _).trans
    (congr (congr (congrArg (k0_pay5 (F := F)) (r0_readAt_whole_unread (S := S1x1024x512) harg3 r0_hz3 inb_S1x1024x512_S1x1024x512_0_0_0 x0))
      (r0_readAt_whole_unread (S := S1x512x1408) harg5 r0_hz3 inb_S1x512x1408_S1x512x1408_0_0_0 x2))
      (r0_readAt_whole_unread (S := S1024x1408) harg8 r0_hz2 inb_S1024x1408_S1024x1408_0_0 xs1))
end B

/-! ## Case A: the accumulators restarted -/

section A
variable (c : Dev nD) (i : grid0.Coords) (arg3 : Memref sig .tc .vmem S1x1024x512 .f32) (harg3 : arg3.IsWhole) (arg4 : Memref sig .tc .vmem S1x512x1408 .f32) (harg4 : arg4.IsWhole) (arg5 : Memref sig .tc .vmem S1x512x1408 .f32) (harg5 : arg5.IsWhole) (arg6 : Memref sig .tc .vmem S1x1024x1408 .bf16) (harg6 : arg6.IsWhole) (arg7 : Memref sig .tc .vmem S1024x1408 .f32) (harg7 : arg7.IsWhole) (arg8 : Memref sig .tc .vmem S1024x1408 .f32) (harg8 : arg8.IsWhole) (hc0 : cond0_0 i) (hc1 : ¬cond0_1 i)
    (x0 : Vec F S1x1024x512 .f32) (x1 x2 : Vec F S1x512x1408 .f32)

theorem read0A_0 (v : View sig .tc .vmem S1024x1408 .f32) (f : v.ty.Contents (Elt F)) :
    v.read (Elt F) (v.writes (Elt F) f (kernelRun0_A c i arg3 harg3 arg4 harg4 arg5 harg5 arg6 harg6 arg7 harg7 arg8 harg8 hc0 hc1 x0 x1 x2).1) = k0_pay4 x0 x1 k0_pay1 := by
  unfold kernelRun0_A; dsimp only
  exact (r0_read_writes_whole_last (S := S1024x1408) v f r0_hz2 inb_S1024x1408_S1024x1408_0_0 _ _).trans
    (congr (congr (congrArg (k0_pay4 (F := F)) (r0_readAt_whole_unread (S := S1x1024x512) harg3 r0_hz3 inb_S1x1024x512_S1x1024x512_0_0_0 x0))
      (r0_readAt_whole_unread (S := S1x512x1408) harg4 r0_hz3 inb_S1x512x1408_S1x512x1408_0_0_0 x1))
      (View.readCov_unit_zero (S := S1024x1408) arg7.view r0_hz2 inb_S1024x1408_S1024x1408_0_0 _))

theorem read0A_1 (v : View sig .tc .vmem S1024x1408 .f32) (f : v.ty.Contents (Elt F)) :
    v.read (Elt F) (v.writes (Elt F) f (kernelRun0_A c i arg3 harg3 arg4 harg4 arg5 harg5 arg6 harg6 arg7 harg7 arg8 harg8 hc0 hc1 x0 x1 x2).2.1) = k0_pay5 x0 x2 k0_pay2 := by
  unfold kernelRun0_A; dsimp only
  exact (r0_read_writes_whole_last (S := S1024x1408) v f r0_hz2 inb_S1024x1408_S1024x1408_0_0 _ _).trans
    (congr (congr (congrArg (k0_pay5 (F := F)) (r0_readAt_whole_unread (S := S1x1024x512) harg3 r0_hz3 inb_S1x1024x512_S1x1024x512_0_0_0 x0))
      (r0_readAt_whole_unread (S := S1x512x1408) harg5 r0_hz3 inb_S1x512x1408_S1x512x1408_0_0_0 x2))
      (View.readCov_unit_zero (S := S1024x1408) arg8.view r0_hz2 inb_S1024x1408_S1024x1408_0_0 _))
end A

/-! ## Case C: the output stored -/

section C
variable (c : Dev nD) (i : grid0.Coords) (arg3 : Memref sig .tc .vmem S1x1024x512 .f32) (harg3 : arg3.IsWhole) (arg4 : Memref sig .tc .vmem S1x512x1408 .f32) (harg4 : arg4.IsWhole) (arg5 : Memref sig .tc .vmem S1x512x1408 .f32) (harg5 : arg5.IsWhole) (arg6 : Memref sig .tc .vmem S1x1024x1408 .bf16) (harg6 : arg6.IsWhole) (arg7 : Memref sig .tc .vmem S1024x1408 .f32) (harg7 : arg7.IsWhole) (arg8 : Memref sig .tc .vmem S1024x1408 .f32) (harg8 : arg8.IsWhole) (hc0 : ¬cond0_0 i) (hc1 : cond0_1 i)
    (x0 : Vec F S1x1024x512 .f32) (x1 x2 : Vec F S1x512x1408 .f32) (xs0 xs1 : Vec F S1024x1408 .f32)

theorem read0C_0 (v : View sig .tc .vmem S1024x1408 .f32) (f : v.ty.Contents (Elt F)) :
    v.read (Elt F) (v.writes (Elt F) f (kernelRun0_C c i arg3 harg3 arg4 harg4 arg5 harg5 arg6 harg6 arg7 harg7 arg8 harg8 hc0 hc1 x0 x1 x2 xs0 xs1).2.1) = k0_pay4 x0 x1 xs0 := by
  unfold kernelRun0_C; dsimp only
  exact (r0_read_writes_whole_last (S := S1024x1408) v f r0_hz2 inb_S1024x1408_S1024x1408_0_0 _ _).trans
    (congr (congr (congrArg (k0_pay4 (F := F)) (r0_readAt_whole_unread (S := S1x1024x512) harg3 r0_hz3 inb_S1x1024x512_S1x1024x512_0_0_0 x0))
      (r0_readAt_whole_unread (S := S1x512x1408) harg4 r0_hz3 inb_S1x512x1408_S1x512x1408_0_0_0 x1))
      (r0_readAt_whole_unread (S := S1024x1408) harg7 r0_hz2 inb_S1024x1408_S1024x1408_0_0 xs0))

theorem read0C_1 (v : View sig .tc .vmem S1024x1408 .f32) (f : v.ty.Contents (Elt F)) :
    v.read (Elt F) (v.writes (Elt F) f (kernelRun0_C c i arg3 harg3 arg4 harg4 arg5 harg5 arg6 harg6 arg7 harg7 arg8 harg8 hc0 hc1 x0 x1 x2 xs0 xs1).2.2.1) = k0_pay5 x0 x2 xs1 := by
  unfold kernelRun0_C; dsimp only
  exact (r0_read_writes_whole_last (S := S1024x1408) v f r0_hz2 inb_S1024x1408_S1024x1408_0_0 _ _).trans
    (congr (congr (congrArg (k0_pay5 (F := F)) (r0_readAt_whole_unread (S := S1x1024x512) harg3 r0_hz3 inb_S1x1024x512_S1x1024x512_0_0_0 x0))
      (r0_readAt_whole_unread (S := S1x512x1408) harg5 r0_hz3 inb_S1x512x1408_S1x512x1408_0_0_0 x2))
      (r0_readAt_whole_unread (S := S1024x1408) harg8 r0_hz2 inb_S1024x1408_S1024x1408_0_0 xs1))

/-- The output block the last branch stores is the gated product of the accumulators' new contents. -/
theorem read0C_3 (v : View sig .tc .vmem S1x1024x1408 .bf16) (f : v.ty.Contents (Elt F)) :
    v.read (Elt F) (v.writes (Elt F) f (kernelRun0_C c i arg3 harg3 arg4 harg4 arg5 harg5 arg6 harg6 arg7 harg7 arg8 harg8 hc0 hc1 x0 x1 x2 xs0 xs1).1) = k0_pay6 (k0_pay4 x0 x1 xs0) (k0_pay5 x0 x2 xs1) := by
  unfold kernelRun0_C; dsimp only
  exact (r0_read_writes_whole_last (S := S1x1024x1408) v f r0_hz3 inb_S1x1024x1408_S1x1024x1408_0_0_0 _ _).trans
    (congr (congrArg (k0_pay6 (F := F))
      ((View.readCov_unit_zero (S := S1024x1408) arg7.view r0_hz2 inb_S1024x1408_S1024x1408_0_0 _).trans
        (congr (congr (congrArg (k0_pay4 (F := F)) (r0_readAt_whole_unread (S := S1x1024x512) harg3 r0_hz3 inb_S1x1024x512_S1x1024x512_0_0_0 x0))
          (r0_readAt_whole_unread (S := S1x512x1408) harg4 r0_hz3 inb_S1x512x1408_S1x512x1408_0_0_0 x1))
          (r0_readAt_whole_unread (S := S1024x1408) harg7 r0_hz2 inb_S1024x1408_S1024x1408_0_0 xs0))))
      ((View.readCov_unit_zero (S := S1024x1408) arg8.view r0_hz2 inb_S1024x1408_S1024x1408_0_0 _).trans
        (congr (congr (congrArg (k0_pay5 (F := F)) (r0_readAt_whole_unread (S := S1x1024x512) harg3 r0_hz3 inb_S1x1024x512_S1x1024x512_0_0_0 x0))
          (r0_readAt_whole_unread (S := S1x512x1408) harg5 r0_hz3 inb_S1x512x1408_S1x512x1408_0_0_0 x2))
          (r0_readAt_whole_unread (S := S1024x1408) harg8 r0_hz2 inb_S1024x1408_S1024x1408_0_0 xs1))))
end C

end Cert.Kernel.Hand

end
-- ==== Proof.K.R0Frame.lean ====
/- Region 0: the proof data of its pipeline and the body obligation.

   The invariant carries the two accumulators between points: before the first point the region's scoped buffers at
   anything; before any later point the accumulators at what the point before left (`accs0`), the other scoped buffers
   at anything. At a point the body is in one of three cases, by the innermost grid coordinate: it restarts the
   accumulators (coordinate 0), only adds to them (1, 2), or adds and stores the output block (3); each case's run gives
   the accumulators' new contents as the payload functions of the blocks read and the old contents, which is the
   recursion `accs0`. -/
import proofs.«103436_j9328668967830_1_alg».proof.Proof.K.R0Back

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The invariant before position `n`: the two accumulators at what the point before left (anything before the first
    point), the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare (accs0 V c n hn).1 ∗ owns (c : Thread nD τ) scM0_1 fullShare (accs0 V c n hn).2 ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (accs0 V c n hn).1 ∗ owns (c : Thread nD τ) scM0_1 fullShare (accs0 V c n hn).2 ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (accs0 V c (n - 1) (by omega)).1 ∗ owns (c : Thread nD τ) scM0_1 fullShare (accs0 V c (n - 1) (by omega)).2 ∗ Rest0 c) ∗ (∃ r, prngReg c r)) := by
  cases n with
  | zero => exact absurd rfl hz
  | succ n => rfl

/-- The proof data of pipeline 0 on core `c`, entered at contents `V`; the two windows on the first weight array hold
    it at the shares `qa`, `qb`. -/
def dat0 (qa qb : PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outv0 V c t
  Φ t := PhiS0 V c t.val (Nat.le_of_lt_succ t.isLt)
  q w := match w with
    | ⟨0, _⟩ => fullShare
    | ⟨1, _⟩ => qa
    | ⟨2, _⟩ => qb
    | ⟨3, _⟩ => fullShare
  owed _ := 0

variable (qa qb : PosShare TreeShare)

theorem A_eq0 (c : Dev nD) (w : Fin cfg0.W) : (dat0 V qa qb c).A w = V c (Pipeline.arrRef spec0 w) := by
  dsimp only [dat0]
theorem after0_0 (c : Dev nD) (t : Fin cfg0.N) : (dat0 V qa qb c).after 0 t = iblk0 V c 0 t := by dsimp only [dat0]
theorem after0_1 (c : Dev nD) (t : Fin cfg0.N) : (dat0 V qa qb c).after 1 t = iblk0 V c 1 t := by dsimp only [dat0]
theorem after0_2 (c : Dev nD) (t : Fin cfg0.N) : (dat0 V qa qb c).after 2 t = iblk0 V c 2 t := by dsimp only [dat0]
theorem after0_3 (c : Dev nD) (t : Fin cfg0.N) : (dat0 V qa qb c).after 3 t = outv0 V c t := by dsimp only [dat0]

/-- The invariant at a point's start, restated at the point's position. -/
theorem PhiS0_castSucc (c : Dev nD) (t : Fin cfg0.N) :
    (dat0 V qa qb c).Φ t.castSucc = PhiS0 V c t.val (Nat.le_of_lt t.isLt) := by
  dsimp only [dat0]; simp only [Fin.coe_castSucc]

/-- Each input's current staging buffer holds its block at every point. -/
theorem before0_0 (c : Dev nD) (t : Fin cfg0.N) (d) : (dat0 V qa qb c).before 0 t d = iblk0 V c 0 t :=
  before0_0_of V (dat0 V qa qb c) (A_eq0 V qa qb c 0) (after0_0 V qa qb c) t d
theorem before0_1 (c : Dev nD) (t : Fin cfg0.N) (d) : (dat0 V qa qb c).before 1 t d = iblk0 V c 1 t :=
  before0_1_of V (dat0 V qa qb c) (A_eq0 V qa qb c 1) (after0_1 V qa qb c) t d
theorem before0_2 (c : Dev nD) (t : Fin cfg0.N) (d) : (dat0 V qa qb c).before 2 t d = iblk0 V c 2 t :=
  before0_2_of V (dat0 V qa qb c) (A_eq0 V qa qb c 2) (after0_2 V qa qb c) t d

/-! ## The body obligation, at a generic point -/

/-- What the body is called with at point `t`, the windows one by one, -/
def bodyPre0 (c : Dev nD) (t : Fin cfg0.N) : sProp 𝕄 :=
  iprop((dat0 V qa qb c).Φ t.castSucc ∗ (dat0 V qa qb c).owesAt () t.castSucc
    ∗ (∃ d, owns (c : Thread nD τ) (ms0_0 t) fullShare ((dat0 V qa qb c).before 0 t d))
    ∗ (∃ d, owns (c : Thread nD τ) (ms0_1 t) fullShare ((dat0 V qa qb c).before 1 t d))
    ∗ (∃ d, owns (c : Thread nD τ) (ms0_2 t) fullShare ((dat0 V qa qb c).before 2 t d))
    ∗ (∃ d, owns (c : Thread nD τ) (ms0_3 t) fullShare ((dat0 V qa qb c).before 3 t d)))

/-- and what it returns. -/
def bodyPost0 (c : Dev nD) (t : Fin cfg0.N) : sProp 𝕄 :=
  iprop((dat0 V qa qb c).Φ t.succ ∗ (dat0 V qa qb c).owesAt () t.succ
    ∗ (dat0 V qa qb c).leavesExact 0 t
    ∗ (dat0 V qa qb c).leavesExact 1 t
    ∗ (dat0 V qa qb c).leavesExact 2 t
    ∗ (dat0 V qa qb c).leavesExact 3 t)

/-- What the body's post says of each live window: its buffer at what the body leaves. -/
theorem leaves0_0 (c : Dev nD) (t : Fin cfg0.N) :
    (dat0 V qa qb c).leavesExact 0 t = owns (c : Thread nD τ) (ms0_0 t) fullShare (iblk0 V c 0 t) := by
  have h : (dat0 V qa qb c).leavesExact 0 t = owns (c : Thread nD τ) (ms0_0 t) fullShare ((dat0 V qa qb c).after 0 t) := by
    unfold Dat.leavesExact; rw [liveAt0_0 t]
  rw [h, after0_0]
theorem leaves0_1 (c : Dev nD) (t : Fin cfg0.N) :
    (dat0 V qa qb c).leavesExact 1 t = owns (c : Thread nD τ) (ms0_1 t) fullShare (iblk0 V c 1 t) := by
  have h : (dat0 V qa qb c).leavesExact 1 t = owns (c : Thread nD τ) (ms0_1 t) fullShare ((dat0 V qa qb c).after 1 t) := by
    unfold Dat.leavesExact; rw [liveAt0_1 t]
  rw [h, after0_1]
theorem leaves0_2 (c : Dev nD) (t : Fin cfg0.N) :
    (dat0 V qa qb c).leavesExact 2 t = owns (c : Thread nD τ) (ms0_2 t) fullShare (iblk0 V c 2 t) := by
  have h : (dat0 V qa qb c).leavesExact 2 t = owns (c : Thread nD τ) (ms0_2 t) fullShare ((dat0 V qa qb c).after 2 t) := by
    unfold Dat.leavesExact; rw [liveAt0_2 t]
  rw [h, after0_2]
theorem leaves0_3 (c : Dev nD) (t : Fin cfg0.N) (hc : cond0_1 (grid0.coords t)) :
    (dat0 V qa qb c).leavesExact 3 t = owns (c : Thread nD τ) (ms0_3 t) fullShare (outv0 V c t) := by
  have h : (dat0 V qa qb c).leavesExact 3 t = owns (c : Thread nD τ) (ms0_3 t) fullShare ((dat0 V qa qb c).after 3 t) := by
    unfold Dat.leavesExact; rw [liveAt0_3 t hc]
  rw [h, after0_3]

set_option maxHeartbeats 4800000 in
/-- The body at any point: the inputs' buffers hold their blocks; the position modulo 4 says which case the point is in;
    the invariant hands the body the accumulators (at anything at the first point, else at what the point before left)
    and takes them back at this point's contents, by the recursion's equations. -/
theorem sound_body0 (c : Dev nD) (t : Fin cfg0.N) :
    bodyPre0 V qa qb c t ⊢ wp frame (wpE (defs₀ (F := F)) Variants.none c none) Set.univ (bodyAt0 t) (fun _ => bodyPost0 V qa qb c t) := by
  unfold bodyPre0 bodyPost0 bodyAt0
  simp only [before0_0, before0_1, before0_2]
  rw [show (dat0 V qa qb c).owesAt () t.succ = (dat0 V qa qb c).owesAt () t.castSucc from rfl]
  rw [show (dat0 V qa qb c).Φ t.succ = PhiS0 V c (t.val + 1) t.isLt from rfl, PhiS0_succ]
  rw [leaves0_0, leaves0_1, leaves0_2]
  have hN : t.val < 128 := lt_of_lt_of_eq t.isLt (show cfg0.N = 128 from N_0)
  by_cases h0 : t.val % 4 = 0
  · have h1 : ¬t.val % 4 = 3 := by omega
    rw [Dat.leavesExact_idle (dat0 V qa qb c) 3 t (idleAt0_3 t (fun h => h1 ((hcond0_1 t).mp h))) (noFlush0_3 t (fun h => h1 ((hcond0_1 t).mp h)))]
    rw [accs0_first V c t h0]; dsimp only
    by_cases hz : t.val = 0
    · rw [PhiS0_castSucc V qa qb c t, PhiS0_zero V c _ _ hz, PhiA0_eq]
      iintro ⟨⟨⟨HS0, HS1, HR⟩, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitr [Hg]
        · isplitl [HS0]
          · unfold owns; iexists _; isplitr
            swap; · iexact HS0
            ipureintro; exact read0A_0 _ _ _ _ _ _ _ _ _ _ _ _ _ _ _ _ _ _ _ _ _
          isplitl [HS1]
          · unfold owns; iexists _; isplitr
            swap; · iexact HS1
            ipureintro; exact read0A_1 _ _ _ _ _ _ _ _ _ _ _ _ _ _ _ _ _ _ _ _ _
          iexact HR
        iexact Hg
      isplitl [Ho]; · iexact Ho
      isplitl [H0]; · iexact H0
      isplitl [H1]; · iexact H1
      isplitl [H2]; · iexact H2
      iexists _; iexact H3
    · rw [PhiS0_castSucc V qa qb c t, PhiS0_pos V c _ _ hz]
      iintro ⟨⟨⟨HS0, HS1, HR⟩, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 HR Hg]
      · isplitr [Hg]
        · isplitl [HS0]
          · unfold owns; iexists _; isplitr
            swap; · iexact HS0
            ipureintro; exact read0A_0 _ _ _ _ _ _ _ _ _ _ _ _ _ _ _ _ _ _ _ _ _
          isplitl [HS1]
          · unfold owns; iexists _; isplitr
            swap; · iexact HS1
            ipureintro; exact read0A_1 _ _ _ _ _ _ _ _ _ _ _ _ _ _ _ _ _ _ _ _ _
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [leaves0_3 V qa qb c t ((hcond0_1 t).mpr h1)]
      unfold outv0
      rw [accs0_step V c t h0]; dsimp only
      rw [PhiS0_castSucc V qa qb c t, PhiS0_pos V c _ _ hz]
      iintro ⟨⟨⟨HS0, HS1, HR⟩, Hg⟩, Ho, ⟨%d0, H0⟩, ⟨%d1, H1⟩, ⟨%d2, H2⟩, ⟨%d3, H3⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 HR Hg]
      · isplitr [Hg]
        · isplitl [HS0]
          · unfold owns; iexists _; isplitr
            swap; · iexact HS0
            ipureintro; exact read0C_0 _ _ _ _ _ _ _ _ _ _ _ _ _ _ _ _ _ _ _ _ _ _ _
          isplitl [HS1]
          · unfold owns; iexists _; isplitr
            swap; · iexact HS1
            ipureintro; exact read0C_1 _ _ _ _ _ _ _ _ _ _ _ _ _ _ _ _ _ _ _ _ _ _ _
          iexact HR
        iexact Hg
      isplitl [Ho]; · iexact Ho
      isplitl [H0]; · iexact H0
      isplitl [H1]; · iexact H1
      isplitl [H2]; · iexact H2
      unfold owns; iexists _; isplitr
      swap; · iexact H3
      ipureintro; exact read0C_3 _ _ _ _ _ _ _ _ _ _ _ _ _ _ _ _ _ _ _ _ _ _ _
    · rw [Dat.leavesExact_idle (dat0 V qa qb c) 3 t (idleAt0_3 t (fun h => h1 ((hcond0_1 t).mp h))) (noFlush0_3 t (fun h => h1 ((hcond0_1 t).mp h)))]
      rw [accs0_step V c t h0]; dsimp only
      rw [PhiS0_castSucc V qa qb c t, PhiS0_pos V c _ _ hz]
      iintro ⟨⟨⟨HS0, HS1, HR⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitr [Hg]
        · isplitl [HS0]
          · unfold owns; iexists _; isplitr
            swap; · iexact HS0
            ipureintro; exact read0B_0 _ _ _ _ _ _ _ _ _ _ _ _ _ _ _ _ _ _ _ _ _ _ _
          isplitl [HS1]
          · unfold owns; iexists _; isplitr
            swap; · iexact HS1
            ipureintro; exact read0B_1 _ _ _ _ _ _ _ _ _ _ _ _ _ _ _ _ _ _ _ _ _ _ _
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V qa qb c) (defs₀ (F := F)) Variants.none () Set.univ := fun t => by
  rw [bigSep_W0, bigSep_W0]
  exact sound_body0 V qa qb c t

/-- What the region is handed at entry is the invariant before the first point. -/
theorem hin0 (c : Dev nD) : Pipeline.ΦA spec0 c ⊢ (dat0 V qa qb c).Φ 0 := by
  rw [show (dat0 V qa qb c).Φ 0 = PhiS0 V c 0 (Nat.zero_le _) from rfl, PhiS0_zero V c 0 _ rfl]
  try exact Idealize.SL.BI.Entails.refl _

/-- After any point but the first the invariant gives the scoped rest and the generator register back: the accumulators'
    named contents are forgotten. -/
theorem Phi_out0 (c : Dev nD) (t : Fin (cfg0.N + 1)) (ht : t.val ≠ 0) : (dat0 V qa qb c).Φ t ⊢ Pipeline.ΦA spec0 c := by
  rw [show (dat0 V qa qb c).Φ t = PhiS0 V c t.val (Nat.le_of_lt_succ t.isLt) from rfl, PhiS0_pos V c _ _ ht, PhiA0_eq]
  iintro ⟨⟨HS0, HS1, HR⟩, Hg⟩
  isplitr [Hg]
  · isplitl [HS0]
    · iexists _; iexact HS0
    isplitl [HS1]
    · iexists _; iexact HS1
    iexact HR
  iexact Hg

/-- After the last point the invariant gives the scoped rest and the generator register back. -/
theorem hout0 (c : Dev nD) : (dat0 V qa qb c).Φ (Fin.last cfg0.N) ⊢ Pipeline.ΦA spec0 c :=
  Phi_out0 V qa qb c _ (by rw [Fin.val_last]; have : cfg0.N = 128 := N_0; omega)

end Cert.Kernel.Hand

end
-- ==== Proof.K.R1Defs.lean ====
/-
  Region 1 (the second matrix product): what the body reads and what it leaves, as plain functions of the buffer
  contents `V` the region is entered with.

  A grid point t = (e, tm, tn, ik) reads the block (e, tm, ik) of the gated activations [8,1024,5632] and the block
  (e, ik, tn) of the second weight array [8,5632,2048]. The accumulator [512,1024] is zeroed at ik = 0 and each point
  adds its block product; at ik = 3 the output block (e, tm, tn) of [8,1024,2048] is the accumulator.
-/
import proofs.«103436_j9328668967830_1_alg».proof.Proof.Gen.Kernel.Skeleton
import proofs.«103436_j9328668967830_1_alg».proof.Proof.Gen.Kernel.Launch
import proofs.«103436_j9328668967830_1_alg».proof.Proof.Gen.Kernel.Points

noncomputable section

namespace Cert.Kernel.Hand

open Idealize.ShloMosaic Idealize.ShloMosaic.TcCoe
open Idealize.SL Idealize.SL.Sem
open Cert.Kernel Cert.Kernel.Gen

variable {F : FTy → Type} [FloatOps F]

variable (V : (c : Dev nD) → (b : Ref sig .tc) → Buf (Elt F) ((c : Thread nD τ).loc b))

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the body at position `n`: restarted from zero where `n % 4 = 0`, else the previous
    position's plus this position's block product. -/
def acc1 (c : Dev nD) : (n : ℕ) → n < cfg1.N → Vec F S512x1024 .f32
  | 0, hn => k1_pay2 (iblk1 V c 0 ⟨0, hn⟩) (iblk1 V c 1 ⟨0, hn⟩) k1_pay1
  | n + 1, hn =>
    if (n + 1) % 4 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (acc1 c n (Nat.lt_of_succ_lt hn))

/-- What the body leaves in the output window's staging buffer at a point that stores it (ik = 3): the accumulator
    as it stands after that point, with a leading unit axis. -/
def outv1 (c : Dev nD) (t : Fin cfg1.N) : Vec F S1x512x1024 .f32 :=
  k1_pay3 (acc1 V c t.val t.isLt)

theorem acc1_first (c : Dev nD) (t : Fin cfg1.N) (h : t.val % 4 = 0) :
    acc1 V c t.val t.isLt = k1_pay2 (iblk1 V c 0 t) (iblk1 V c 1 t) k1_pay1 := by
  obtain ⟨n, hn⟩ := t
  cases n with
  | zero => rfl
  | succ n => exact (if_pos h).trans rfl

theorem acc1_step (c : Dev nD) (t : Fin cfg1.N) (h : ¬ t.val % 4 = 0) :
    acc1 V c t.val t.isLt
      = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact (if_neg h).trans rfl

end Cert.Kernel.Hand

end
-- ==== Proof.K.R1Runs.lean ====
/-
  Region 1 (the second matrix product): what the three control cases of its body share. The body branches twice on
  the innermost grid coordinate ik: it zeroes the accumulator where ik = 0 and stores the output block where ik = 3.
  Here: the two conditions in closed form over the 128 grid points, where the output window is idle, the memrefs the
  body is called with, the region's scoped buffers enumerated, and the input windows' staging contents.
-/
import proofs.«103436_j9328668967830_1_alg».proof.Proof.K.R1Defs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions -/

/-- The first branch's condition (zero the accumulator): the innermost coordinate is 0. -/
abbrev cond1_0 (i : grid1.Coords) : Prop := (Scalar.cmpi .ne (Scalar.extui (Scalar.cmpi .eq (BitVec.ofNat 32 (i 3).val) 0#32)) 0#32) = 1#1
/-- It holds exactly at the positions ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second branch's condition (store the output block): the innermost coordinate is 3. -/
abbrev cond1_1 (i : grid1.Coords) : Prop := k1_cond2 i = 1#1
/-- It holds exactly at the positions ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the body zeroes the accumulator and does not store the output, the output window is idle and not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- The same where it does neither. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- Where it stores the output the window is live. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S1x512x1024 .f32 := (Memref.whole cc1_stg2_0 : Memref sig .tc .vmem S1x512x1024 .f32).view
/-- Each window's current staging memref at position `t`, and its wholeness. -/
abbrev ms1_0 (t : Fin cfg1.N) : Memref sig .tc .vmem S1x512x1408 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1408x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S512x1024 .f32 := Memref.whole cc1_scratch0
abbrev VS1_0 : View sig .tc .vmem S512x1024 .f32 := scM1_0.view

/-! ## The region's scoped buffers -/

/-- The scoped buffers that are not the accumulator (the first region's staging buffers and accumulators), each at
    some contents: the body of this region never touches them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- What the region is handed besides its windows: those buffers, the accumulator at some contents, and the
    generator register at some state. -/
theorem PhiA1_eq (c : Dev nD) :
    (Pipeline.ΦA spec1 c : sProp 𝕄)
      = iprop(iprop(rest1 (F := F) c ∗ (∃ d, owns (c : Thread nD τ) scM1_0 fullShare d)) ∗ (∃ r, prngReg c r)) := by
  unfold Pipeline.ΦA; rw [scopedRest1_eq]; unfold rest1; simp only [scM1_0, owns_whole]
  refine BI.equiv_iff.mp ⟨?_, ?_⟩
  · show (_ : sProp 𝕄) ⊢ _
    iintro ⟨⟨H1, H2, H3, H4, H5, H6, H7, H8, H9, H10, HS⟩, Hg⟩
    isplitr [Hg]
    · isplitr [HS]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      · iexact HS
    · iexact Hg
  · show (_ : sProp 𝕄) ⊢ _
    iintro ⟨⟨⟨H1, H2, H3, H4, H5, H6, H7, H8, H9, H10⟩, HS⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact HS
    · iexact Hg

/-! ## The input windows' staging contents -/

variable (V : (c : Dev nD) → (b : Ref sig .tc) → Buf (Elt F) ((c : Thread nD τ).loc b))

/-- An input window's current staging buffer holds its block at every position: the window is fetched at every
    position, never idle, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Cert.Kernel.Hand

end
-- ==== Proof.K.R1RunA.lean ====
/-
  Region 1, case A of its body: the body's triple on any whole memrefs, with the pieces its stores leave.
-/
import proofs.«103436_j9328668967830_1_alg».proof.Proof.K.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body where it zeroes the accumulator and does not store the output (ik = 0). On whole memrefs — the two
    inputs at their contents, the output's at contents handed back untouched, the accumulator at anything — it runs
    to a continuation holding the inputs and the output as they were and the accumulator with the pieces its two
    stores wrote (the zero fill, then the fill plus the block product). The pieces are the first two components. -/
noncomputable def kernelRun1_A (c : Dev nD) (i : grid1.Coords) (arg4 : Memref sig .tc .vmem S1x512x1408 .bf16) (harg4 : arg4.IsWhole) (arg5 : Memref sig .tc .vmem S1x1408x1024 .f32) (harg5 : arg5.IsWhole) (arg6 : Memref sig .tc .vmem S1x512x1024 .f32) (harg6 : arg6.IsWhole) (arg7 : Memref sig .tc .vmem S512x1024 .f32) (harg7 : arg7.IsWhole) (hc0 : cond1_0 i) (hc1 : ¬cond1_1 i)
    (x0 : Vec F S1x512x1408 .bf16) (x1 : Vec F S1x1408x1024 .f32) :
    Σ' (L2 : List (View.Piece (Elt F) S1x512x1024 .f32)), { LS0 : List (View.Piece (Elt F) S512x1024 .f32) //
      ∀ (xi2 : Vec F S1x512x1024 .f32) (E : Set ℕ) (K : PUnit → sProp 𝕄),
        iprop(owns (c : Thread nD τ) arg4 fullShare x0 ∗ owns (c : Thread nD τ) arg5 fullShare x1 ∗ owns (c : Thread nD τ) arg6 fullShare xi2 ∗ (∃ d, owns (c : Thread nD τ) arg7 fullShare d)
            ∗ (iprop(owns (c : Thread nD τ) arg4 fullShare x0 ∗ owns (c : Thread nD τ) arg5 fullShare x1 ∗ owns (c : Thread nD τ) arg6 fullShare xi2 ∗ (∃ f, arg7.view.loc (c : Thread nD τ) ↦[arg7.view.set]{fullShare} arg7.view.writes (Elt F) f LS0)) -∗ K ⟨⟩))
          ⊢ wp frame (wpE (defs₀ (F := F)) Variants.none c none) E (cc1__fc2_kernel i arg4 harg4 arg5 harg5 arg6 harg6 arg7 harg7) K } := by
  refine ⟨[], ?_, fun xi2 E K => ?run⟩
  case run =>
    simp only [cc1__fc2_kernel_eq_skeleton]; unfold cc1__fc2_kernel_skel
    unfold owns
    iintro ⟨⟨%f0, %hf0, H0⟩, ⟨%f1, %hf1, H1⟩, ⟨%f2, %hf2, H2⟩, ⟨%ds0, %fs0, -, HS0⟩, Hk⟩
    obtain rfl := harg4.eq_unread hf0; obtain rfl := harg5.eq_unread hf1; obtain rfl := harg6.eq_unread hf2
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    iexists _; iexact HS0

end Cert.Kernel.Hand

end
-- ==== Proof.K.R1RunB.lean ====
/-
  Region 1, case B of its body: the body's triple on any whole memrefs, with the pieces its stores leave.
-/
import proofs.«103436_j9328668967830_1_alg».proof.Proof.K.R1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body where it takes neither branch (ik = 1, 2). On whole memrefs — the two inputs at their contents, the
    output's at contents handed back untouched, the accumulator at what the position before left — it runs to a
    continuation holding the inputs and the output as they were and the accumulator with the piece its one store
    wrote (the previous contents plus the block product). The piece is the second component. -/
noncomputable def kernelRun1_B (c : Dev nD) (i : grid1.Coords) (arg4 : Memref sig .tc .vmem S1x512x1408 .bf16) (harg4 : arg4.IsWhole) (arg5 : Memref sig .tc .vmem S1x1408x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond1_0 i) (hc1 : ¬cond1_1 i)
    (x0 : Vec F S1x512x1408 .bf16) (x1 : Vec F S1x1408x1024 .f32) (xs0 : Vec F S512x1024 .f32) :
    Σ' (L2 : List (View.Piece (Elt F) S1x512x1024 .f32)), { LS0 : List (View.Piece (Elt F) S512x1024 .f32) //
      ∀ (xi2 : Vec F S1x512x1024 .f32) (E : Set ℕ) (K : PUnit → sProp 𝕄),
        iprop(owns (c : Thread nD τ) arg4 fullShare x0 ∗ owns (c : Thread nD τ) arg5 fullShare x1 ∗ owns (c : Thread nD τ) arg6 fullShare xi2 ∗ owns (c : Thread nD τ) arg7 fullShare xs0
            ∗ (iprop(owns (c : Thread nD τ) arg4 fullShare x0 ∗ owns (c : Thread nD τ) arg5 fullShare x1 ∗ owns (c : Thread nD τ) arg6 fullShare xi2 ∗ (∃ f, arg7.view.loc (c : Thread nD τ) ↦[arg7.view.set]{fullShare} arg7.view.writes (Elt F) f LS0)) -∗ K ⟨⟩))
          ⊢ wp frame (wpE (defs₀ (F := F)) Variants.none c none) E (cc1__fc2_kernel i arg4 harg4 arg5 harg5 arg6 harg6 arg7 harg7) K } := by
  refine ⟨[], ?_, fun xi2 E K => ?run⟩
  case run =>
    simp only [cc1__fc2_kernel_eq_skeleton]; unfold cc1__fc2_kernel_skel
    unfold owns
    iintro ⟨⟨%f0, %hf0, H0⟩, ⟨%f1, %hf1, H1⟩, ⟨%f2, %hf2, H2⟩, ⟨%fs0, %hfs0, HS0⟩, Hk⟩
    obtain rfl := harg4.eq_unread hf0; obtain rfl := harg5.eq_unread hf1; obtain rfl := harg6.eq_unread hf2; obtain rfl := harg7.eq_unread hfs0
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    iexists _; iexact HS0

end Cert.Kernel.Hand

end
-- ==== Proof.K.R1RunC.lean ====
/-
  Region 1, case C of its body: the body's triple on any whole memrefs, with the pieces its stores leave.
-/
import proofs.«103436_j9328668967830_1_alg».proof.Proof.K.R1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body where it stores the output and does not zero the accumulator (ik = 3). On whole memrefs — the two
    inputs at their contents, the output's at anything, the accumulator at what the position before left — it runs
    to a continuation holding the inputs as they were, the accumulator with the piece its store wrote and the
    output's buffer with the piece the last branch wrote (the accumulator's new contents). The pieces are the first two
    components. -/
noncomputable def kernelRun1_C (c : Dev nD) (i : grid1.Coords) (arg4 : Memref sig .tc .vmem S1x512x1408 .bf16) (harg4 : arg4.IsWhole) (arg5 : Memref sig .tc .vmem S1x1408x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond1_0 i) (hc1 : cond1_1 i)
    (x0 : Vec F S1x512x1408 .bf16) (x1 : Vec F S1x1408x1024 .f32) (xs0 : Vec F S512x1024 .f32) :
    Σ' (L2 : List (View.Piece (Elt F) S1x512x1024 .f32)), { LS0 : List (View.Piece (Elt F) S512x1024 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d) ∗ owns (c : Thread nD τ) arg7 fullShare xs0
            ∗ (iprop(owns (c : Thread nD τ) arg4 fullShare x0 ∗ owns (c : Thread nD τ) arg5 fullShare x1 ∗ (∃ f, arg6.view.loc (c : Thread nD τ) ↦[arg6.view.set]{fullShare} arg6.view.writes (Elt F) f L2) ∗ (∃ f, arg7.view.loc (c : Thread nD τ) ↦[arg7.view.set]{fullShare} arg7.view.writes (Elt F) f LS0)) -∗ K ⟨⟩))
          ⊢ wp frame (wpE (defs₀ (F := F)) Variants.none c none) E (cc1__fc2_kernel i arg4 harg4 arg5 harg5 arg6 harg6 arg7 harg7) K } := by
  refine ⟨?_, ?_, fun E K => ?run⟩
  case run =>
    simp only [cc1__fc2_kernel_eq_skeleton]; unfold cc1__fc2_kernel_skel
    unfold owns
    iintro ⟨⟨%f0, %hf0, H0⟩, ⟨%f1, %hf1, H1⟩, ⟨%d2, %f2, -, H2⟩, ⟨%fs0, %hfs0, HS0⟩, Hk⟩
    obtain rfl := harg4.eq_unread hf0; obtain rfl := harg5.eq_unread hf1; obtain rfl := harg7.eq_unread hfs0
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexists _; iexact H2
    iexists _; iexact HS0

end Cert.Kernel.Hand

end
-- ==== Proof.K.R1Read.lean ====
/-
  Region 1: what each case of the body leaves in the accumulator and in the output's staging buffer, read back as
  the payload functions. Every store of the body is of a whole buffer, so the pieces a case leaves cover the buffer
  and the contents are the last piece's payload; the loads inside that payload read whole buffers too.
-/
import proofs.«103436_j9328668967830_1_alg».proof.Proof.K.R1RunC
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Case A's pieces for the accumulator cover it. -/
theorem scover1_A (c : Dev nD) (i : grid1.Coords) (arg4 : Memref sig .tc .vmem S1x512x1408 .bf16) (harg4 : arg4.IsWhole) (arg5 : Memref sig .tc .vmem S1x1408x1024 .f32) (harg5 : arg5.IsWhole) (arg6 : Memref sig .tc .vmem S1x512x1024 .f32) (harg6 : arg6.IsWhole) (arg7 : Memref sig .tc .vmem S512x1024 .f32) (harg7 : arg7.IsWhole) (hc0 : cond1_0 i) (hc1 : ¬cond1_1 i)
    (x0 : Vec F S1x512x1408 .bf16) (x1 : Vec F S1x1408x1024 .f32) (y : S512x1024.Idx) :
    ∃ pc ∈ (kernelRun1_A c i arg4 harg4 arg5 harg5 arg6 harg6 arg7 harg7 hc0 hc1 x0 x1).2.1, y ∈ pc.1.set :=
  View.cover_of_tiledL (kernelRun1_A c i arg4 harg4 arg5 harg5 arg6 harg6 arg7 harg7 hc0 hc1 x0 x1).2.1 S512x1024.size (by sl_kernel_rfl) y

set_option maxHeartbeats 1000000 in
/-- What case A leaves in the accumulator: the block product added to the zero fill. -/
theorem scanon1_A (c : Dev nD) (i : grid1.Coords) (arg4 : Memref sig .tc .vmem S1x512x1408 .bf16) (harg4 : arg4.IsWhole) (arg5 : Memref sig .tc .vmem S1x1408x1024 .f32) (harg5 : arg5.IsWhole) (arg6 : Memref sig .tc .vmem S1x512x1024 .f32) (harg6 : arg6.IsWhole) (arg7 : Memref sig .tc .vmem S512x1024 .f32) (harg7 : arg7.IsWhole) (hc0 : cond1_0 i) (hc1 : ¬cond1_1 i)
    (x0 : Vec F S1x512x1408 .bf16) (x1 : Vec F S1x1408x1024 .f32) :
    View.canon (kernelRun1_A c i arg4 harg4 arg5 harg5 arg6 harg6 arg7 harg7 hc0 hc1 x0 x1).2.1 = k1_pay2 x0 x1 (k1_pay1 (F := F)) := by
  unfold kernelRun1_A; dsimp only; sl_unfold_words
  have hz2 : (![0, 0] : Fin S512x1024.rank → ℕ) = fun _ => 0 := by funext a; fin_cases a <;> rfl
  have hz3a : (![0, 0, 0] : Fin S1x512x1408.rank → ℕ) = fun _ => 0 := by funext a; fin_cases a <;> rfl
  have hz3b : (![0, 0, 0] : Fin S1x1408x1024.rank → ℕ) = fun _ => 0 := by funext a; fin_cases a <;> rfl
  rw [View.canon_cons_unit_zero hz2, View.readCov_unit_zero _ hz2]
  simp only [View.readAt_eq_ld, harg4.read_unread, harg5.read_unread, harg7.read_unread, View.ld_unit_zero (S := S1x512x1408) hz3a, View.ld_unit_zero (S := S1x1408x1024) hz3b, View.ld_unit_zero (S := S512x1024) hz2]

/-- Case B's pieces for the accumulator cover it. -/
theorem scover1_B (c : Dev nD) (i : grid1.Coords) (arg4 : Memref sig .tc .vmem S1x512x1408 .bf16) (harg4 : arg4.IsWhole) (arg5 : Memref sig .tc .vmem S1x1408x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond1_0 i) (hc1 : ¬cond1_1 i)
    (x0 : Vec F S1x512x1408 .bf16) (x1 : Vec F S1x1408x1024 .f32) (xs0 : Vec F S512x1024 .f32) (y : S512x1024.Idx) :
    ∃ pc ∈ (kernelRun1_B c i arg4 harg4 arg5 harg5 arg6 harg6 arg7 harg7 hc0 hc1 x0 x1 xs0).2.1, y ∈ pc.1.set :=
  View.cover_of_tiledL (kernelRun1_B c i arg4 harg4 arg5 harg5 arg6 harg6 arg7 harg7 hc0 hc1 x0 x1 xs0).2.1 S512x1024.size (by sl_kernel_rfl) y

set_option maxHeartbeats 1000000 in
/-- What case B leaves in the accumulator: the block product added to what it held. -/
theorem scanon1_B (c : Dev nD) (i : grid1.Coords) (arg4 : Memref sig .tc .vmem S1x512x1408 .bf16) (harg4 : arg4.IsWhole) (arg5 : Memref sig .tc .vmem S1x1408x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond1_0 i) (hc1 : ¬cond1_1 i)
    (x0 : Vec F S1x512x1408 .bf16) (x1 : Vec F S1x1408x1024 .f32) (xs0 : Vec F S512x1024 .f32) :
    View.canon (kernelRun1_B c i arg4 harg4 arg5 harg5 arg6 harg6 arg7 harg7 hc0 hc1 x0 x1 xs0).2.1 = k1_pay2 x0 x1 xs0 := by
  unfold kernelRun1_B; dsimp only; sl_unfold_words
  have hz2 : (![0, 0] : Fin S512x1024.rank → ℕ) = fun _ => 0 := by funext a; fin_cases a <;> rfl
  have hz3a : (![0, 0, 0] : Fin S1x512x1408.rank → ℕ) = fun _ => 0 := by funext a; fin_cases a <;> rfl
  have hz3b : (![0, 0, 0] : Fin S1x1408x1024.rank → ℕ) = fun _ => 0 := by funext a; fin_cases a <;> rfl
  rw [View.canon_unit_zero hz2]
  simp only [View.readAt_eq_ld, harg4.read_unread, harg5.read_unread, harg7.read_unread, View.ld_unit_zero (S := S1x512x1408) hz3a, View.ld_unit_zero (S := S1x1408x1024) hz3b, View.ld_unit_zero (S := S512x1024) hz2]

/-- Case C's pieces for the accumulator cover it. -/
theorem scover1_C (c : Dev nD) (i : grid1.Coords) (arg4 : Memref sig .tc .vmem S1x512x1408 .bf16) (harg4 : arg4.IsWhole) (arg5 : Memref sig .tc .vmem S1x1408x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond1_0 i) (hc1 : cond1_1 i)
    (x0 : Vec F S1x512x1408 .bf16) (x1 : Vec F S1x1408x1024 .f32) (xs0 : Vec F S512x1024 .f32) (y : S512x1024.Idx) :
    ∃ pc ∈ (kernelRun1_C c i arg4 harg4 arg5 harg5 arg6 harg6 arg7 harg7 hc0 hc1 x0 x1 xs0).2.1, y ∈ pc.1.set :=
  View.cover_of_tiledL (kernelRun1_C c i arg4 harg4 arg5 harg5 arg6 harg6 arg7 harg7 hc0 hc1 x0 x1 xs0).2.1 S512x1024.size (by sl_kernel_rfl) y

set_option maxHeartbeats 1000000 in
/-- What case C leaves in the accumulator: the block product added to what it held. -/
theorem scanon1_C (c : Dev nD) (i : grid1.Coords) (arg4 : Memref sig .tc .vmem S1x512x1408 .bf16) (harg4 : arg4.IsWhole) (arg5 : Memref sig .tc .vmem S1x1408x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond1_0 i) (hc1 : cond1_1 i)
    (x0 : Vec F S1x512x1408 .bf16) (x1 : Vec F S1x1408x1024 .f32) (xs0 : Vec F S512x1024 .f32) :
    View.canon (kernelRun1_C c i arg4 harg4 arg5 harg5 arg6 harg6 arg7 harg7 hc0 hc1 x0 x1 xs0).2.1 = k1_pay2 x0 x1 xs0 := by
  unfold kernelRun1_C; dsimp only; sl_unfold_words
  have hz2 : (![0, 0] : Fin S512x1024.rank → ℕ) = fun _ => 0 := by funext a; fin_cases a <;> rfl
  have hz3a : (![0, 0, 0] : Fin S1x512x1408.rank → ℕ) = fun _ => 0 := by funext a; fin_cases a <;> rfl
  have hz3b : (![0, 0, 0] : Fin S1x1408x1024.rank → ℕ) = fun _ => 0 := by funext a; fin_cases a <;> rfl
  rw [View.canon_unit_zero hz2]
  simp only [View.readAt_eq_ld, harg4.read_unread, harg5.read_unread, harg7.read_unread, View.ld_unit_zero (S := S1x512x1408) hz3a, View.ld_unit_zero (S := S1x1408x1024) hz3b, View.ld_unit_zero (S := S512x1024) hz2]

/-- Case C's piece for the output's staging buffer covers it. -/
theorem cover1_C (c : Dev nD) (i : grid1.Coords) (arg4 : Memref sig .tc .vmem S1x512x1408 .bf16) (harg4 : arg4.IsWhole) (arg5 : Memref sig .tc .vmem S1x1408x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond1_0 i) (hc1 : cond1_1 i)
    (x0 : Vec F S1x512x1408 .bf16) (x1 : Vec F S1x1408x1024 .f32) (xs0 : Vec F S512x1024 .f32) (y : S1x512x1024.Idx) :
    ∃ pc ∈ (kernelRun1_C c i arg4 harg4 arg5 harg5 arg6 harg6 arg7 harg7 hc0 hc1 x0 x1 xs0).1, y ∈ pc.1.set :=
  View.cover_of_tiledL (kernelRun1_C c i arg4 harg4 arg5 harg5 arg6 harg6 arg7 harg7 hc0 hc1 x0 x1 xs0).1 S1x512x1024.size (by sl_kernel_rfl) y

set_option maxHeartbeats 1000000 in
/-- What case C leaves in the output's staging buffer: the accumulator's new contents under a leading unit axis. -/
theorem canon1_C (c : Dev nD) (i : grid1.Coords) (arg4 : Memref sig .tc .vmem S1x512x1408 .bf16) (harg4 : arg4.IsWhole) (arg5 : Memref sig .tc .vmem S1x1408x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond1_0 i) (hc1 : cond1_1 i)
    (x0 : Vec F S1x512x1408 .bf16) (x1 : Vec F S1x1408x1024 .f32) (xs0 : Vec F S512x1024 .f32) :
    View.canon (kernelRun1_C c i arg4 harg4 arg5 harg5 arg6 harg6 arg7 harg7 hc0 hc1 x0 x1 xs0).1 = k1_pay3 (k1_pay2 x0 x1 xs0) := by
  unfold kernelRun1_C; dsimp only; sl_unfold_words
  have hz2 : (![0, 0] : Fin S512x1024.rank → ℕ) = fun _ => 0 := by funext a; fin_cases a <;> rfl
  have hz3a : (![0, 0, 0] : Fin S1x512x1408.rank → ℕ) = fun _ => 0 := by funext a; fin_cases a <;> rfl
  have hz3b : (![0, 0, 0] : Fin S1x1408x1024.rank → ℕ) = fun _ => 0 := by funext a; fin_cases a <;> rfl
  have hz3c : (![0, 0, 0] : Fin S1x512x1024.rank → ℕ) = fun _ => 0 := by funext a; fin_cases a <;> rfl
  rw [View.canon_unit_zero hz3c, View.readCov_unit_zero _ hz2]
  simp only [View.readAt_eq_ld, harg4.read_unread, harg5.read_unread, harg7.read_unread, View.ld_unit_zero (S := S1x512x1408) hz3a, View.ld_unit_zero (S := S1x1408x1024) hz3b, View.ld_unit_zero (S := S512x1024) hz2]

end Cert.Kernel.Hand

end
-- ==== Proof.K.R1Frame.lean ====
/- Region 1: the proof data of its pipeline and the body obligation. -/
import proofs.«103436_j9328668967830_1_alg».proof.Proof.K.R1Read

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The invariant before position `n`: before the first position what the region is handed; afterwards the
    accumulator at what the position before left, the other scoped buffers at anything, the generator register at
    some state. -/
def PhiS1 (c : Dev nD) : (n : ℕ) → n ≤ cfg1.N → sProp 𝕄
  | 0, _ => Pipeline.ΦA spec1 c
  | n + 1, hn => iprop(iprop(rest1 (F := F) c ∗ owns (c : Thread nD τ) scM1_0 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rest1 (F := F) c ∗ owns (c : Thread nD τ) scM1_0 fullShare (acc1 V c n hn)) ∗ (∃ r, prngReg c r)) := rfl

theorem PhiS1_pos (c : Dev nD) (n : ℕ) (h : n ≤ cfg1.N) (hz : n ≠ 0) :
    PhiS1 V c n h = iprop(iprop(rest1 (F := F) c ∗ owns (c : Thread nD τ) scM1_0 fullShare (acc1 V c (n - 1) (by omega))) ∗ (∃ r, prngReg c r)) := by
  cases n with
  | zero => exact absurd rfl hz
  | succ n => rfl

/-- The proof data of pipeline 1 on core `c`, entered at contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outv1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outv1 V c t := by dsimp only [dat1]

/-- The invariant at a position's start, restated at its number. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every position. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at position `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any position. The inputs' memrefs hold their blocks; the position's residue mod 4 says which case
    it is in; the invariant hands the body the accumulator at what the position before left (at anything at the
    first position) and takes it back at this position's contents; where the body does not store the output its
    buffer goes back untouched, and where it does the buffer holds the accumulator's new contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [acc1_first V c t h0]
      by_cases hz : t.val = 0
      · rw [PhiS1_castSucc V c t, PhiS1_zero V c _ _ hz, PhiA1_eq]
        iintro ⟨⟨⟨HR, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HR HS0 Hg]
        · isplitl [HR HS0]
          · isplitl [HR]; · iexact HR
            unfold owns; iexists _; isplitr
            swap; · iexact HS0
            ipureintro; exact (View.read_writes_eq_canon _ _ _ (scover1_A c _ _ _ _ _ _ _ _ _ _ _ _ _)).trans (scanon1_A c _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HR, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HR HS0 Hg]
        · isplitl [HR HS0]
          · isplitl [HR]; · iexact HR
            unfold owns; iexists _; isplitr
            swap; · iexact HS0
            ipureintro; exact (View.read_writes_eq_canon _ _ _ (scover1_A c _ _ _ _ _ _ _ _ _ _ _ _ _)).trans (scanon1_A c _ _ _ _ _ _ _ _ _ _ _ _ _)
          iexact Hg
        isplitl [Ho]; · iexact Ho
        isplitl [H0]; · iexact H0
        isplitl [H1]; · iexact H1
        iexists _; iexact H2
  · have hz : t.val ≠ 0 := fun hz => h0 (by rw [hz])
    by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      unfold outv1
      rw [acc1_step V c t h0]
      · rw [PhiS1_castSucc V c t, PhiS1_pos V c _ _ hz]
        iintro ⟨⟨⟨HR, HS0⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HR HS0 Hg]
        · isplitl [HR HS0]
          · isplitl [HR]; · iexact HR
            unfold owns; iexists _; isplitr
            swap; · iexact HS0
            ipureintro; exact (View.read_writes_eq_canon _ _ _ (scover1_C c _ _ _ _ _ _ _ _ _ _ _ _ _ _)).trans (scanon1_C c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact (View.read_writes_eq_canon _ _ _ (cover1_C c _ _ _ _ _ _ _ _ _ _ _ _ _ _)).trans (canon1_C c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [acc1_step V c t h0]
      · rw [PhiS1_castSucc V c t, PhiS1_pos V c _ _ hz]
        iintro ⟨⟨⟨HR, HS0⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HR HS0 Hg]
        · isplitl [HR HS0]
          · isplitl [HR]; · iexact HR
            unfold owns; iexists _; isplitr
            swap; · iexact HS0
            ipureintro; exact (View.read_writes_eq_canon _ _ _ (scover1_B c _ _ _ _ _ _ _ _ _ _ _ _ _ _)).trans (scanon1_B c _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed at entry is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any position but the first the invariant gives back what the region was handed: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0⟩, Hg⟩
  isplitl [HR HS0]
  · isplitl [HR]; · iexact HR
    iexists _; iexact HS0
  iexact Hg

/-- After the last point the invariant gives the scoped rest and the generator register back. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.K.Regions.lean ====
/-
  The two regions assembled: the buffer contents at every boundary of @main, the proof data of both pipelines, each
  region as a segment between those boundaries, and the run of @main that ends with every unscoped buffer at the
  last boundary's contents.

  Between the items of @main a core holds every unscoped buffer at a valuation: the launch contents; after the first
  reshape; after region 0, which changes only its output array (the gated activations); after region 1, which changes
  only its output array; after the last reshape. Region 0 reads the first weight array through two windows (the two
  halves of its last axis): the array's full share is split in two at entry, one half per window, and joined again at
  exit — neither window writes it.
-/
import proofs.«103436_j9328668967830_1_alg».proof.Proof.K.R0Frame
import proofs.«103436_j9328668967830_1_alg».proof.Proof.K.R1Frame
import proofs.«103436_j9328668967830_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- The two halves of the full share: what each of region 0's two windows on the first weight array holds it at. -/
abbrev qa : PosShare TreeShare := fullShare.left
abbrev qb : PosShare TreeShare := fullShare.right

/-- Core `c`'s buffers at launch. -/
abbrev W0 : Dev nD → Valuation τ sig (Elt F) := fun c b => (s₀ m ρ).mem ((c : Dev nD), b)
/-- After the first reshape (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- What region 0 leaves in its output array. -/
def o1 (c : Dev nD) : Buf (Elt F) ((c : Thread nD τ).loc main_v1) := (dat0 (V1 m ρ) qa qb c).arrAt 3 cfg0.N
/-- After region 0: only its output array changed. -/
def W2 (c : Dev nD) : Valuation τ sig (Elt F) := Function.update (W1 m ρ c) (Proc.devRef .tc main_v1) (o1 m ρ c)
abbrev V2 : (c : Dev nD) → (b : Ref sig .tc) → Buf (Elt F) ((c : Thread nD τ).loc b) := fun c b => W2 m ρ c b
/-- What region 1 leaves in its output array. -/
def o2 (c : Dev nD) : Buf (Elt F) ((c : Thread nD τ).loc main_v2) := (dat1 (V2 m ρ) c).arrAt 2 cfg1.N
/-- After region 1: only its output array changed. -/
def W3 (c : Dev nD) : Valuation τ sig (Elt F) := Function.update (W2 m ρ c) (Proc.devRef .tc main_v2) (o2 m ρ c)
abbrev V3 : (c : Dev nD) → (b : Ref sig .tc) → Buf (Elt F) ((c : Thread nD τ).loc b) := fun c b => W3 m ρ c b
/-- After the last reshape. -/
abbrev W4 : Dev nD → Valuation τ sig (Elt F) := fun c => StableHlo.after hostOps2 (W3 m ρ c)

theorem W2_out (c : Dev nD) : W2 m ρ c (Proc.devRef .tc main_v1) = o1 m ρ c := by
  unfold W2; exact Function.update_self _ _ _
theorem W2_of_ne (c : Dev nD) (b : Ref sig .tc) (hb : b ≠ main_v1) : W2 m ρ c (Proc.devRef .tc b) = W1 m ρ c (Proc.devRef .tc b) := by
  unfold W2; exact Function.update_of_ne (StableHlo.devRef_ne_of_ne hb) _ _
theorem W3_out (c : Dev nD) : W3 m ρ c (Proc.devRef .tc main_v2) = o2 m ρ c := by
  unfold W3; exact Function.update_self _ _ _
theorem W3_of_ne (c : Dev nD) (b : Ref sig .tc) (hb : b ≠ main_v2) : W3 m ρ c (Proc.devRef .tc b) = W2 m ρ c (Proc.devRef .tc b) := by
  unfold W3; exact Function.update_of_ne (StableHlo.devRef_ne_of_ne hb) _ _

/-! ## The proof data of both pipelines -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) qa qb c
  | ⟨1, _⟩ => fun c => dat1 (V2 m ρ) c

abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## Region 0's arrays at entry and exit: one array behind two windows -/

section Shared
variable (V : (c : Dev nD) → (b : Ref sig .tc) → Buf (Elt F) ((c : Thread nD τ).loc b))

/-- The three distinct buffers behind region 0's four windows. -/
theorem arrBufs0_eq (c : Dev nD) :
    (Pipeline.arrBufs (Ix := Unit) (Name := ℕ) (U := UR sig nD τ) (Lvl := ℕ) spec0 c (V c) : sProp 𝕄)
      = iprop((((c : Thread nD τ).loc main_v0) ↦{fullShare} V c main_v0) ∗ (((c : Thread nD τ).loc main_arg1) ↦{fullShare} V c main_arg1)
          ∗ (((c : Thread nD τ).loc main_v1) ↦{fullShare} V c main_v1)) := by
  unfold Pipeline.arrBufs
  exact bigSep_eq_bigSepL_of_eq [main_v0, main_arg1, main_v1] (by decide) (by decide) _

end Shared

section Shared2
variable (V : (c : Dev nD) → (b : Ref sig .tc) → Buf (Elt F) ((c : Thread nD τ).loc b))

/-- ENTRY. The three buffers, each whole at the full share, are region 0's four arrays at its proof data's shares: the
    first weight array's full share split into the two halves its two windows hold. -/
theorem hsplit0 (c : Dev nD) :
    (Pipeline.arrBufs (Ix := Unit) (Name := ℕ) (U := UR sig nD τ) (Lvl := ℕ) spec0 c (V c) : sProp 𝕄)
      ⊢ (dat0 V qa qb c).arrays (fun w => (dat0 V qa qb c).arrAt w 0) := by
  rw [arrBufs0_eq]
  unfold Dat.arrays
  rw [bigSep_W0]
  iintro ⟨H0, H1, H3⟩
  ihave H1' := (pointsTo_share (PosShare.mem_left_op_right fullShare)).1 $$ H1
  icases H1' with ⟨H1a, H1b⟩
  isplitl [H0]
  · rw [(arr_whole0 0).set_eq_univ]; iexact H0
  isplitl [H1a]
  · rw [(arr_whole0 1).set_eq_univ]; iexact H1a
  isplitl [H1b]
  · rw [(arr_whole0 2).set_eq_univ]; iexact H1b
  rw [(arr_whole0 3).set_eq_univ]; iexact H3

end Shared2

section Shared3
variable (V : (c : Dev nD) → (b : Ref sig .tc) → Buf (Elt F) ((c : Thread nD τ).loc b))

/-- The same three buffers at any contents. -/
theorem arrBufs0_eq' (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v0) ↦{fullShare} V' main_v0) ∗ (((c : Thread nD τ).loc main_arg1) ↦{fullShare} V' main_arg1)
          ∗ (((c : Thread nD τ).loc main_v1) ↦{fullShare} V' main_v1)) := by
  unfold Pipeline.arrBufs
  exact bigSep_eq_bigSepL_of_eq [main_v0, main_arg1, main_v1] (by decide) (by decide) _

/-- EXIT. Region 0's four arrays at their final contents are the three buffers whole at the full share: the two halves
    of the first weight array's share, both at the same contents, joined. -/
theorem hjoin0 (c : Dev nD) (V' : (b : Ref sig .tc) → Buf (Elt F) ((c : Thread nD τ).loc b))
    (h0 : (dat0 V qa qb c).arrAt 0 cfg0.N = V' main_v0) (h1 : (dat0 V qa qb c).arrAt 1 cfg0.N = V' main_arg1)
    (h2 : (dat0 V qa qb c).arrAt 2 cfg0.N = V' main_arg1) (h3 : (dat0 V qa qb c).arrAt 3 cfg0.N = V' main_v1) :
    (dat0 V qa qb c).arrays (fun w => (dat0 V qa qb c).arrAt w cfg0.N)
      ⊢ (Pipeline.arrBufs (Ix := Unit) (Name := ℕ) (U := UR sig nD τ) (Lvl := ℕ) spec0 c V' : sProp 𝕄) := by
  rw [arrBufs0_eq']
  unfold Dat.arrays
  rw [bigSep_W0, (arr_whole0 0).set_eq_univ, (arr_whole0 1).set_eq_univ, (arr_whole0 3).set_eq_univ]
  dsimp only
  rw [h0, h1, h2, h3]
  iintro ⟨H0, H1a, H1b, H3⟩
  isplitl [H0]; · iexact H0
  isplitl [H1a H1b]
  · iapply (pointsTo_share (PosShare.mem_left_op_right fullShare)).2
    isplitl [H1a]; · iexact H1a
    iexact H1b
  iexact H3

end Shared3

/-! ## The arrays' final contents at each region's exit -/

theorem o1_def (c : Dev nD) : (dat0 (V1 m ρ) qa qb c).arrAt 3 cfg0.N = V2 m ρ c main_v1 := (W2_out m ρ c).symm
theorem arr0_in0 (c : Dev nD) : (dat0 (V1 m ρ) qa qb c).arrAt 0 cfg0.N = V2 m ρ c main_v0 :=
  ((dat0 (V1 m ρ) qa qb c).arrAt_in 0 rfl _).trans ((A_eq0 (V1 m ρ) qa qb c 0).trans (W2_of_ne m ρ c main_v0 (by decide)).symm)
theorem arr0_in1 (c : Dev nD) : (dat0 (V1 m ρ) qa qb c).arrAt 1 cfg0.N = V2 m ρ c main_arg1 :=
  ((dat0 (V1 m ρ) qa qb c).arrAt_in 1 rfl _).trans ((A_eq0 (V1 m ρ) qa qb c 1).trans (W2_of_ne m ρ c main_arg1 (by decide)).symm)
theorem arr0_in2 (c : Dev nD) : (dat0 (V1 m ρ) qa qb c).arrAt 2 cfg0.N = V2 m ρ c main_arg1 :=
  ((dat0 (V1 m ρ) qa qb c).arrAt_in 2 rfl _).trans ((A_eq0 (V1 m ρ) qa qb c 2).trans (W2_of_ne m ρ c main_arg1 (by decide)).symm)

/-- Off region 0's output array nothing changed. -/
theorem rest0_eq (c : Dev nD) :
    (Pipeline.unscopedRest (Ix := Unit) (Name := ℕ) (U := UR sig nD τ) (Lvl := ℕ) spec0 c (V2 m ρ c) : sProp 𝕄)
      = Pipeline.unscopedRest (Ix := Unit) (Name := ℕ) (U := UR sig nD τ) (Lvl := ℕ) spec0 c (V1 m ρ c) := by
  rw [unscopedRest0_eq, unscopedRest0_eq]
  dsimp only [V2, V1]
  rw [W2_of_ne m ρ c main_arg0 (by decide), W2_of_ne m ρ c main_arg2 (by decide), W2_of_ne m ρ c main_arg3 (by decide),
    W2_of_ne m ρ c main_v2 (by decide), W2_of_ne m ρ c main_v3 (by decide)]

theorem hF1 (c : Dev nD) (w : Fin cfg1.W) : (dat1 (V2 m ρ) c).arrAt w cfg1.N = V3 m ρ c (Pipeline.arrRef spec1 w) := by
  match w with
  | ⟨0, _⟩ => exact ((dat1 (V2 m ρ) c).arrAt_in 0 rfl _).trans ((A_eq1 (V2 m ρ) c 0).trans (W3_of_ne m ρ c main_v1 (by decide)).symm)
  | ⟨1, _⟩ => exact ((dat1 (V2 m ρ) c).arrAt_in 1 rfl _).trans ((A_eq1 (V2 m ρ) c 1).trans (W3_of_ne m ρ c main_arg2 (by decide)).symm)
  | ⟨2, _⟩ => exact (W3_out m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨2, Finset.mem_univ _, e.symm⟩)

/-! ## The regions as segments -/

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The unscoped buffers at region 0's entry: the three buffers behind its windows and the rest. -/
theorem held1_eq (c : Dev nD) :
    (StableHlo.held (c : Thread nD τ) (Pipeline.ucRefs τ sig) (W1 m ρ c) : sProp 𝕄)
      = iprop(Pipeline.arrBufs (Ix := Unit) (Name := ℕ) (U := UR sig nD τ) (Lvl := ℕ) spec0 c (V1 m ρ c)
          ∗ Pipeline.unscopedRest (Ix := Unit) (Name := ℕ) (U := UR sig nD τ) (Lvl := ℕ) spec0 c (V1 m ρ c)) := by
  rw [← Pipeline.unscopedBufs_held c (W1 m ρ c)]
  exact Pipeline.unscopedBufs_split₀ cfgs 0 winFacts₀0.arr_unscoped c (V1 m ρ c)
/-- The same at its exit, the rest as at entry. -/
theorem held2_eq (c : Dev nD) :
    (StableHlo.held (c : Thread nD τ) (Pipeline.ucRefs τ sig) (W2 m ρ c) : sProp 𝕄)
      = iprop(Pipeline.arrBufs (Ix := Unit) (Name := ℕ) (U := UR sig nD τ) (Lvl := ℕ) spec0 c (V2 m ρ c)
          ∗ Pipeline.unscopedRest (Ix := Unit) (Name := ℕ) (U := UR sig nD τ) (Lvl := ℕ) spec0 c (V1 m ρ c)) := by
  rw [← Pipeline.unscopedBufs_held c (W2 m ρ c), ← rest0_eq m ρ c]
  exact Pipeline.unscopedBufs_split₀ cfgs 0 winFacts₀0.arr_unscoped c (V2 m ρ c)

set_option backward.isDefEq.respectTransparency.types false in
/-- REGION 0 between its two boundaries: its arrays sorted out of the unscoped buffers (the shared one split) and put
    back at the exit contents (joined); the generator register into the invariant and out; nothing owed. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) qa qb c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none, held1_eq]
    iintro ⟨⟨⟨Hab, Hrest⟩, Hp, HO⟩, -, -⟩
    ihave Ha := hsplit0 (V1 m ρ) c $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) qa qb c)
    unfold Pipeline.ΦA
    iintro ⟨Hp, -, Hr⟩
    isplitl [Hr]; · iexact Hr
    iexact Hp
  hout c := by
    rw [Pipeline.ownSems0_none]
    refine BIBase.Entails.trans (hout0 (V1 m ρ) qa qb c) ?_
    unfold Pipeline.ΦA
    iintro ⟨Hr, Hp⟩
    isplitl [Hp]; · iexact Hp
    isplitr; · iempintro
    iexact Hr
  hexit c := by
    rw [held2_eq]
    iintro ⟨Ha, HO, HY, Hrest⟩
    imodintro
    isplitl [Ha Hrest]
    · isplitl [Ha]
      · iapply (hjoin0 (V1 m ρ) c (V2 m ρ c) (arr0_in0 m ρ c) (arr0_in1 m ρ c) (arr0_in2 m ρ c) (o1_def m ρ c))
        iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 1 between its two boundaries: its arrays (distinct buffers) sorted out of the unscoped buffers and put back
    at the exit contents; the generator register into the invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's four items in order: the first reshape, region 0, region 1, the last reshape. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W4 m ρ c) ∗ ∃ r, prngReg c r))
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## What the last boundary holds -/

/-- An argument array reaches the end as launched: neither reshape writes it, neither region changes it. -/
theorem W4_arg (c : Dev nD) (b : Ref sig .tc) (h0 : b ∉ hostOps0_W) (h1 : b ≠ main_v1) (h2 : b ≠ main_v2) (h3 : b ∉ hostOps2_W) :
    W4 m ρ c (Proc.devRef .tc b) = m ((c : Thread nD τ).loc b) :=
  (StableHlo.after_of_writes_sub hostOps2 _ hostOps2_writes h3).trans <| (W3_of_ne m ρ c b h2).trans <|
    (W2_of_ne m ρ c b h1).trans <| (StableHlo.after_of_writes_sub hostOps0 _ hostOps0_writes h0).trans rfl

/-- THE FRAME of the program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_arg m ρ c main_arg0 (by decide) (by decide) (by decide) (by decide)),
     (h c _ (mem_uc main_arg1 (by decide))).trans (W4_arg m ρ c main_arg1 (by decide) (by decide) (by decide) (by decide)),
     (h c _ (mem_uc main_arg2 (by decide))).trans (W4_arg m ρ c main_arg2 (by decide) (by decide) (by decide) (by decide)),
     (h c _ (mem_uc main_arg3 (by decide))).trans (W4_arg m ρ c main_arg3 (by decide) (by decide) (by decide) (by decide))⟩)
    (run_all m ρ)

end Cert.Kernel.Hand

end
-- ==== Proof.KI.R0Defs.lean ====
/-
  Region 0 (the first matrix product and the gated activation): what the body reads and what it leaves, as plain
  functions of the buffer contents `V` the region is entered with.

  A grid point t = (e, ti, hk) reads the block (e, 0, hk) of the activations x : [8,1024,2048] and the blocks
  (e, hk, ti) and (e, hk, ti+4) of the first weight array [8,2048,11264] — the two halves of its last axis. The two
  accumulators a, b : [1024,1408] are zeroed at hk = 0 and each point adds its block product:
      a ← a + x_blk · wa_blk,   b ← b + x_blk · wb_blk.
  At hk = 3 the output block (e, 0, ti) of [8,1024,5632] is (a · logistic a) · b.
-/
import proofs.«103436_j9328668967830_1_alg».proof.Proof.Gen.KernelIdeal.Skeleton
import proofs.«103436_j9328668967830_1_alg».proof.Proof.Gen.KernelIdeal.Launch
import proofs.«103436_j9328668967830_1_alg».proof.Proof.Gen.KernelIdeal.Points

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (V : (c : Dev nD) → (b : Ref sig .tc) → Buf (Elt F) ((c : Thread nD τ).loc b))

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two accumulators after the body at position `n`: restarted from zero where `n % 4 = 0`, else the previous
    position's plus this position's block products. -/
def accs0 (c : Dev nD) : (n : ℕ) → n < cfg0.N → Vec F S1024x1408 .f32 × Vec F S1024x1408 .f32
  | 0, hn => (k0_pay4 (iblk0 V c 0 ⟨0, hn⟩) (iblk0 V c 1 ⟨0, hn⟩) k0_pay1, k0_pay5 (iblk0 V c 0 ⟨0, hn⟩) (iblk0 V c 2 ⟨0, hn⟩) k0_pay2)
  | n + 1, hn =>
    if (n + 1) % 4 = 0 then
      (k0_pay4 (iblk0 V c 0 ⟨n + 1, hn⟩) (iblk0 V c 1 ⟨n + 1, hn⟩) k0_pay1, k0_pay5 (iblk0 V c 0 ⟨n + 1, hn⟩) (iblk0 V c 2 ⟨n + 1, hn⟩) k0_pay2)
    else
      (k0_pay4 (iblk0 V c 0 ⟨n + 1, hn⟩) (iblk0 V c 1 ⟨n + 1, hn⟩) (accs0 c n (Nat.lt_of_succ_lt hn)).1,
       k0_pay5 (iblk0 V c 0 ⟨n + 1, hn⟩) (iblk0 V c 2 ⟨n + 1, hn⟩) (accs0 c n (Nat.lt_of_succ_lt hn)).2)

/-- What the body leaves in the output window's staging buffer at a point that stores it (hk = 3): the gated
    product of the two accumulators as they stand after that point. -/
def outv0 (c : Dev nD) (t : Fin cfg0.N) : Vec F S1x1024x1408 .bf16 :=
  k0_pay6 (accs0 V c t.val t.isLt).1 (accs0 V c t.val t.isLt).2

theorem accs0_first (c : Dev nD) (t : Fin cfg0.N) (h : t.val % 4 = 0) :
    accs0 V c t.val t.isLt = (k0_pay4 (iblk0 V c 0 t) (iblk0 V c 1 t) k0_pay1, k0_pay5 (iblk0 V c 0 t) (iblk0 V c 2 t) k0_pay2) := by
  obtain ⟨n, hn⟩ := t
  cases n with
  | zero => rfl
  | succ n => exact (if_pos h).trans rfl

theorem accs0_step (c : Dev nD) (t : Fin cfg0.N) (h : ¬ t.val % 4 = 0) :
    accs0 V c t.val t.isLt
      = (k0_pay4 (iblk0 V c 0 t) (iblk0 V c 1 t) (accs0 V c (t.val - 1) (Nat.lt_of_le_of_lt (Nat.sub_le _ _) t.isLt)).1,
         k0_pay5 (iblk0 V c 0 t) (iblk0 V c 2 t) (accs0 V c (t.val - 1) (Nat.lt_of_le_of_lt (Nat.sub_le _ _) t.isLt)).2) := by
  obtain ⟨n, hn⟩ := t
  cases n with
  | zero => exact absurd (Nat.zero_mod _) h
  | succ n => exact (if_neg h).trans rfl

end Cert.KernelIdeal.Hand

end
-- ==== Proof.KI.R0Runs.lean ====
/- Region 0: what the three case runs of the body and the frame share — the branch conditions in closed form over
   the grid, where the output window is idle, the staging and scratch memrefs, and the scoped rest enumerated. -/
import proofs.«103436_j9328668967830_1_alg».proof.Proof.KI.R0Defs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The first conditional's condition (the accumulators are restarted), from the grid coordinates. -/
abbrev cond0_0 (i : grid0.Coords) : Prop := (Scalar.cmpi .ne (Scalar.extui (Scalar.cmpi .eq (BitVec.ofNat 32 (i 2).val) 0#32)) 0#32) = 1#1
/-- It holds exactly at the points whose position is 0 modulo 4 (the innermost coordinate is 0). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition (the output block is stored), from the grid coordinates. -/
abbrev cond0_1 (i : grid0.Coords) : Prop := k0_cond2 i = 1#1
/-- It holds exactly at the points whose position is 3 modulo 4 (the innermost coordinate is 3). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the output block is not stored the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is stored the window is live. -/
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S1x1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1408 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1408 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1408 .bf16 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0_0 : Memref sig .tc .vmem S1024x1408 .f32 := Memref.whole cc0_scratch0
abbrev scM0_1 : Memref sig .tc .vmem S1024x1408 .f32 := Memref.whole cc0_scratch1

/-! ## The scoped rest -/

/-- The scoped buffers that are neither a staging buffer of this region nor one of its accumulators (the other region's
    staging buffers and accumulator), each whole at some contents: they ride along untouched. -/
def Rest0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_scratch0), ((c : Thread nD τ).loc cc1_scratch0) ↦{fullShare} f))

/-- What the region is handed: the two accumulators at some contents, the other scoped buffers, the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 c) ∗ (∃ r, prngReg c r)) := by
  unfold Pipeline.ΦA Rest0; rw [scopedRest0_eq]; simp only [scM0_0, scM0_1, owns_whole]; try rfl

variable (V : (c : Dev nD) → (b : Ref sig .tc) → Buf (Elt F) ((c : Thread nD τ).loc b))

/-! ## The input windows' staging buffers before the body -/

/-- Input window 0's current staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, for any proof data whose array is `V`'s and
    whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, for any proof data whose array is `V`'s and
    whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Cert.KernelIdeal.Hand

end
-- ==== Proof.KI.R0RunA.lean ====
/- Region 0, the body's run at a point where the first conditional is taken and the second is not: both accumulators are
   zeroed and then added to, the output block is left alone. -/
import proofs.«103436_j9328668967830_1_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the two accumulators at a point that restarts them, with the body's triple:
    from the inputs' staging buffers at their blocks, the output's at anything (handed back untouched) and the
    accumulators at anything, to the same with the accumulators' pieces written. -/
noncomputable def kernelRun0_A (c : Dev nD) (i : grid0.Coords) (arg3 : Memref sig .tc .vmem S1x1024x512 .f32) (harg3 : arg3.IsWhole) (arg4 : Memref sig .tc .vmem S1x512x1408 .f32) (harg4 : arg4.IsWhole) (arg5 : Memref sig .tc .vmem S1x512x1408 .f32) (harg5 : arg5.IsWhole) (arg6 : Memref sig .tc .vmem S1x1024x1408 .bf16) (harg6 : arg6.IsWhole) (arg7 : Memref sig .tc .vmem S1024x1408 .f32) (harg7 : arg7.IsWhole) (arg8 : Memref sig .tc .vmem S1024x1408 .f32) (harg8 : arg8.IsWhole) (hc0 : cond0_0 i) (hc1 : ¬cond0_1 i)
    (x0 : Vec F S1x1024x512 .f32) (x1 x2 : Vec F S1x512x1408 .f32) :
    Σ' (LS0 : List (View.Piece (Elt F) S1024x1408 .f32)), { LS1 : List (View.Piece (Elt F) S1024x1408 .f32) //
      ∀ (xi3 : Vec F S1x1024x1408 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__fc1_glu_kernel i arg3 harg3 arg4 harg4 arg5 harg5 arg6 harg6 arg7 harg7 arg8 harg8) K } := by
  refine ⟨?_, ?_, fun xi3 E K => ?run⟩
  case run =>
    rw [cc0__fc1_glu_kernel_eq_skeleton]; delta cc0__fc1_glu_kernel_skel; beta_reduce
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    iexists _; iexact HS1

end Cert.KernelIdeal.Hand

end
-- ==== Proof.KI.R0RunB.lean ====
/- Region 0, the body's run at a point where neither conditional is taken: both accumulators are added to, the output
   block is left alone. The pieces each accumulator ends with are found by the run. -/
import proofs.«103436_j9328668967830_1_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the two accumulators at a point where neither conditional is taken, with the
    body's triple: from the inputs' staging buffers at their blocks, the output's at anything (handed back untouched) and
    the accumulators at what the point before left, to the same with the accumulators' pieces written. -/
noncomputable def kernelRun0_B (c : Dev nD) (i : grid0.Coords) (arg3 : Memref sig .tc .vmem S1x1024x512 .f32) (harg3 : arg3.IsWhole) (arg4 : Memref sig .tc .vmem S1x512x1408 .f32) (harg4 : arg4.IsWhole) (arg5 : Memref sig .tc .vmem S1x512x1408 .f32) (harg5 : arg5.IsWhole) (arg6 : Memref sig .tc .vmem S1x1024x1408 .bf16) (harg6 : arg6.IsWhole) (arg7 : Memref sig .tc .vmem S1024x1408 .f32) (harg7 : arg7.IsWhole) (arg8 : Memref sig .tc .vmem S1024x1408 .f32) (harg8 : arg8.IsWhole) (hc0 : ¬cond0_0 i) (hc1 : ¬cond0_1 i)
    (x0 : Vec F S1x1024x512 .f32) (x1 x2 : Vec F S1x512x1408 .f32) (xs0 xs1 : Vec F S1024x1408 .f32) :
    Σ' (LS0 : List (View.Piece (Elt F) S1024x1408 .f32)), { LS1 : List (View.Piece (Elt F) S1024x1408 .f32) //
      ∀ (xi3 : Vec F S1x1024x1408 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__fc1_glu_kernel i arg3 harg3 arg4 harg4 arg5 harg5 arg6 harg6 arg7 harg7 arg8 harg8) K } := by
  refine ⟨?_, ?_, fun xi3 E K => ?run⟩
  case run =>
    rw [cc0__fc1_glu_kernel_eq_skeleton]; delta cc0__fc1_glu_kernel_skel; beta_reduce
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    iexists _; iexact HS1

end Cert.KernelIdeal.Hand

end
-- ==== Proof.KI.R0RunC.lean ====
/- Region 0, the body's run at a point where the second conditional is taken and the first is not: both accumulators are
   added to, and the output block is stored from them. -/
import proofs.«103436_j9328668967830_1_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output's staging buffer and in the two accumulators at a point that stores
    the output, with the body's triple: from the inputs' staging buffers at their blocks, the output's at anything and the
    accumulators at what the point before left, to the inputs' as they were and the three others with their pieces written. -/
noncomputable def kernelRun0_C (c : Dev nD) (i : grid0.Coords) (arg3 : Memref sig .tc .vmem S1x1024x512 .f32) (harg3 : arg3.IsWhole) (arg4 : Memref sig .tc .vmem S1x512x1408 .f32) (harg4 : arg4.IsWhole) (arg5 : Memref sig .tc .vmem S1x512x1408 .f32) (harg5 : arg5.IsWhole) (arg6 : Memref sig .tc .vmem S1x1024x1408 .bf16) (harg6 : arg6.IsWhole) (arg7 : Memref sig .tc .vmem S1024x1408 .f32) (harg7 : arg7.IsWhole) (arg8 : Memref sig .tc .vmem S1024x1408 .f32) (harg8 : arg8.IsWhole) (hc0 : ¬cond0_0 i) (hc1 : cond0_1 i)
    (x0 : Vec F S1x1024x512 .f32) (x1 x2 : Vec F S1x512x1408 .f32) (xs0 xs1 : Vec F S1024x1408 .f32) :
    Σ' (L3 : List (View.Piece (Elt F) S1x1024x1408 .bf16)) (LS0 : List (View.Piece (Elt F) S1024x1408 .f32)), { LS1 : List (View.Piece (Elt F) S1024x1408 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__fc1_glu_kernel i arg3 harg3 arg4 harg4 arg5 harg5 arg6 harg6 arg7 harg7 arg8 harg8) K } := by
  refine ⟨?_, ?_, ?_, fun E K => ?run⟩
  case run =>
    rw [cc0__fc1_glu_kernel_eq_skeleton]; delta cc0__fc1_glu_kernel_skel; beta_reduce
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]
    · iexists _; iexact HS0
    iexists _; iexact HS1

end Cert.KernelIdeal.Hand

end
-- ==== Proof.KI.R0Back.lean ====
/- Region 0: what each case's run leaves in the accumulators and in the output's staging buffer, read back as the
   payload functions. Every store of the body is of a whole buffer, so a read over the pieces is the last piece's payload,
   and a load of a whole buffer reads its contents. -/
import proofs.«103436_j9328668967830_1_alg».proof.Proof.KI.R0RunA
import proofs.«103436_j9328668967830_1_alg».proof.Proof.KI.R0RunB
import proofs.«103436_j9328668967830_1_alg».proof.Proof.KI.R0RunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Whole-buffer loads and stores -/

section whole

variable {Val : EltTy → Type} [∀ e, Nonempty (Val e)] {sg : RefSig} {κ : Kind} {sp : Space} {S : Shape} {e : EltTy}

/-- Pieces whose last store is of the whole shape read back as that store's payload, whatever came before. -/
theorem r0_read_writes_whole_last (v : View sg κ sp S e) (f : v.ty.Contents Val) {off : Fin S.rank → ℕ} (hz : off = fun _ => 0)
    (inb : ∀ a, off a + S.size a ≤ S.size a) (w : S.Idx → Val e) (L : List (View.Piece Val S e)) :
    v.read Val (v.writes Val f (⟨Rect.unit off S.size inb, w⟩ :: L)) = w := by
  rw [View.read_writes_eq_canon _ _ _ (fun y => ⟨_, List.mem_cons_self, View.mem_set_unit_zero hz inb y⟩),
    View.canon_cons_unit_zero hz]

/-- A load of the whole of a whole buffer held at contents `X` reads `X`. -/
theorem r0_readAt_whole_unread {m : Memref sg κ sp S e} (h : m.IsWhole) {off : Fin S.rank → ℕ} (hz : off = fun _ => 0)
    (inb : ∀ a, off a + S.size a ≤ S.size a) (X : S.Idx → Val e) :
    m.view.readAt Val (Rect.unit off S.size inb).toLoadRect (h.unread X) = X := by
  rw [View.readAt_eq_ld, h.read_unread, View.ld_unit_zero hz]

end whole

theorem r0_hz2 : (![0, 0] : Fin 2 → ℕ) = fun _ => 0 := by funext a; fin_cases a <;> rfl
theorem r0_hz3 : (![0, 0, 0] : Fin 3 → ℕ) = fun _ => 0 := by funext a; fin_cases a <;> rfl

/-! ## Case B: neither conditional taken -/

section B
variable (c : Dev nD) (i : grid0.Coords) (arg3 : Memref sig .tc .vmem S1x1024x512 .f32) (harg3 : arg3.IsWhole) (arg4 : Memref sig .tc .vmem S1x512x1408 .f32) (harg4 : arg4.IsWhole) (arg5 : Memref sig .tc .vmem S1x512x1408 .f32) (harg5 : arg5.IsWhole) (arg6 : Memref sig .tc .vmem S1x1024x1408 .bf16) (harg6 : arg6.IsWhole) (arg7 : Memref sig .tc .vmem S1024x1408 .f32) (harg7 : arg7.IsWhole) (arg8 : Memref sig .tc .vmem S1024x1408 .f32) (harg8 : arg8.IsWhole) (hc0 : ¬cond0_0 i) (hc1 : ¬cond0_1 i)
    (x0 : Vec F S1x1024x512 .f32) (x1 x2 : Vec F S1x512x1408 .f32) (xs0 xs1 : Vec F S1024x1408 .f32)

theorem read0B_0 (v : View sig .tc .vmem S1024x1408 .f32) (f : v.ty.Contents (Elt F)) :
    v.read (Elt F) (v.writes (Elt F) f (kernelRun0_B c i arg3 harg3 arg4 harg4 arg5 harg5 arg6 harg6 arg7 harg7 arg8 harg8 hc0 hc1 x0 x1 x2 xs0 xs1).1) = k0_pay4 x0 x1 xs0 := by
  unfold kernelRun0_B; dsimp only
  exact (r0_read_writes_whole_last (S := S1024x1408) v f r0_hz2 inb_S1024x1408_S1024x1408_0_0 _ _).trans
    (congr (congr (congrArg (k0_pay4 (F := F)) (r0_readAt_whole_unread (S := S1x1024x512) harg3 r0_hz3 inb_S1x1024x512_S1x1024x512_0_0_0 x0))
      (r0_readAt_whole_unread (S := S1x512x1408) harg4 r0_hz3 inb_S1x512x1408_S1x512x1408_0_0_0 x1))
      (r0_readAt_whole_unread (S := S1024x1408) harg7 r0_hz2 inb_S1024x1408_S1024x1408_0_0 xs0))

theorem read0B_1 (v : View sig .tc .vmem S1024x1408 .f32) (f : v.ty.Contents (Elt F)) :
    v.read (Elt F) (v.writes (Elt F) f (kernelRun0_B c i arg3 harg3 arg4 harg4 arg5 harg5 arg6 harg6 arg7 harg7 arg8 harg8 hc0 hc1 x0 x1 x2 xs0 xs1).2.1) = k0_pay5 x0 x2 xs1 := by
  unfold kernelRun0_B; dsimp only
  exact (r0_read_writes_whole_last (S := S1024x1408) v f r0_hz2 inb_S1024x1408_S1024x1408_0_0 _ _).trans
    (congr (congr (congrArg (k0_pay5 (F := F)) (r0_readAt_whole_unread (S := S1x1024x512) harg3 r0_hz3 inb_S1x1024x512_S1x1024x512_0_0_0 x0))
      (r0_readAt_whole_unread (S := S1x512x1408) harg5 r0_hz3 inb_S1x512x1408_S1x512x1408_0_0_0 x2))
      (r0_readAt_whole_unread (S := S1024x1408) harg8 r0_hz2 inb_S1024x1408_S1024x1408_0_0 xs1))
end B

/-! ## Case A: the accumulators restarted -/

section A
variable (c : Dev nD) (i : grid0.Coords) (arg3 : Memref sig .tc .vmem S1x1024x512 .f32) (harg3 : arg3.IsWhole) (arg4 : Memref sig .tc .vmem S1x512x1408 .f32) (harg4 : arg4.IsWhole) (arg5 : Memref sig .tc .vmem S1x512x1408 .f32) (harg5 : arg5.IsWhole) (arg6 : Memref sig .tc .vmem S1x1024x1408 .bf16) (harg6 : arg6.IsWhole) (arg7 : Memref sig .tc .vmem S1024x1408 .f32) (harg7 : arg7.IsWhole) (arg8 : Memref sig .tc .vmem S1024x1408 .f32) (harg8 : arg8.IsWhole) (hc0 : cond0_0 i) (hc1 : ¬cond0_1 i)
    (x0 : Vec F S1x1024x512 .f32) (x1 x2 : Vec F S1x512x1408 .f32)

theorem read0A_0 (v : View sig .tc .vmem S1024x1408 .f32) (f : v.ty.Contents (Elt F)) :
    v.read (Elt F) (v.writes (Elt F) f (kernelRun0_A c i arg3 harg3 arg4 harg4 arg5 harg5 arg6 harg6 arg7 harg7 arg8 harg8 hc0 hc1 x0 x1 x2).1) = k0_pay4 x0 x1 k0_pay1 := by
  unfold kernelRun0_A; dsimp only
  exact (r0_read_writes_whole_last (S := S1024x1408) v f r0_hz2 inb_S1024x1408_S1024x1408_0_0 _ _).trans
    (congr (congr (congrArg (k0_pay4 (F := F)) (r0_readAt_whole_unread (S := S1x1024x512) harg3 r0_hz3 inb_S1x1024x512_S1x1024x512_0_0_0 x0))
      (r0_readAt_whole_unread (S := S1x512x1408) harg4 r0_hz3 inb_S1x512x1408_S1x512x1408_0_0_0 x1))
      (View.readCov_unit_zero (S := S1024x1408) arg7.view r0_hz2 inb_S1024x1408_S1024x1408_0_0 _))

theorem read0A_1 (v : View sig .tc .vmem S1024x1408 .f32) (f : v.ty.Contents (Elt F)) :
    v.read (Elt F) (v.writes (Elt F) f (kernelRun0_A c i arg3 harg3 arg4 harg4 arg5 harg5 arg6 harg6 arg7 harg7 arg8 harg8 hc0 hc1 x0 x1 x2).2.1) = k0_pay5 x0 x2 k0_pay2 := by
  unfold kernelRun0_A; dsimp only
  exact (r0_read_writes_whole_last (S := S1024x1408) v f r0_hz2 inb_S1024x1408_S1024x1408_0_0 _ _).trans
    (congr (congr (congrArg (k0_pay5 (F := F)) (r0_readAt_whole_unread (S := S1x1024x512) harg3 r0_hz3 inb_S1x1024x512_S1x1024x512_0_0_0 x0))
      (r0_readAt_whole_unread (S := S1x512x1408) harg5 r0_hz3 inb_S1x512x1408_S1x512x1408_0_0_0 x2))
      (View.readCov_unit_zero (S := S1024x1408) arg8.view r0_hz2 inb_S1024x1408_S1024x1408_0_0 _))
end A

/-! ## Case C: the output stored -/

section C
variable (c : Dev nD) (i : grid0.Coords) (arg3 : Memref sig .tc .vmem S1x1024x512 .f32) (harg3 : arg3.IsWhole) (arg4 : Memref sig .tc .vmem S1x512x1408 .f32) (harg4 : arg4.IsWhole) (arg5 : Memref sig .tc .vmem S1x512x1408 .f32) (harg5 : arg5.IsWhole) (arg6 : Memref sig .tc .vmem S1x1024x1408 .bf16) (harg6 : arg6.IsWhole) (arg7 : Memref sig .tc .vmem S1024x1408 .f32) (harg7 : arg7.IsWhole) (arg8 : Memref sig .tc .vmem S1024x1408 .f32) (harg8 : arg8.IsWhole) (hc0 : ¬cond0_0 i) (hc1 : cond0_1 i)
    (x0 : Vec F S1x1024x512 .f32) (x1 x2 : Vec F S1x512x1408 .f32) (xs0 xs1 : Vec F S1024x1408 .f32)

theorem read0C_0 (v : View sig .tc .vmem S1024x1408 .f32) (f : v.ty.Contents (Elt F)) :
    v.read (Elt F) (v.writes (Elt F) f (kernelRun0_C c i arg3 harg3 arg4 harg4 arg5 harg5 arg6 harg6 arg7 harg7 arg8 harg8 hc0 hc1 x0 x1 x2 xs0 xs1).2.1) = k0_pay4 x0 x1 xs0 := by
  unfold kernelRun0_C; dsimp only
  exact (r0_read_writes_whole_last (S := S1024x1408) v f r0_hz2 inb_S1024x1408_S1024x1408_0_0 _ _).trans
    (congr (congr (congrArg (k0_pay4 (F := F)) (r0_readAt_whole_unread (S := S1x1024x512) harg3 r0_hz3 inb_S1x1024x512_S1x1024x512_0_0_0 x0))
      (r0_readAt_whole_unread (S := S1x512x1408) harg4 r0_hz3 inb_S1x512x1408_S1x512x1408_0_0_0 x1))
      (r0_readAt_whole_unread (S := S1024x1408) harg7 r0_hz2 inb_S1024x1408_S1024x1408_0_0 xs0))

theorem read0C_1 (v : View sig .tc .vmem S1024x1408 .f32) (f : v.ty.Contents (Elt F)) :
    v.read (Elt F) (v.writes (Elt F) f (kernelRun0_C c i arg3 harg3 arg4 harg4 arg5 harg5 arg6 harg6 arg7 harg7 arg8 harg8 hc0 hc1 x0 x1 x2 xs0 xs1).2.2.1) = k0_pay5 x0 x2 xs1 := by
  unfold kernelRun0_C; dsimp only
  exact (r0_read_writes_whole_last (S := S1024x1408) v f r0_hz2 inb_S1024x1408_S1024x1408_0_0 _ _).trans
    (congr (congr (congrArg (k0_pay5 (F := F)) (r0_readAt_whole_unread (S := S1x1024x512) harg3 r0_hz3 inb_S1x1024x512_S1x1024x512_0_0_0 x0))
      (r0_readAt_whole_unread (S := S1x512x1408) harg5 r0_hz3 inb_S1x512x1408_S1x512x1408_0_0_0 x2))
      (r0_readAt_whole_unread (S := S1024x1408) harg8 r0_hz2 inb_S1024x1408_S1024x1408_0_0 xs1))

/-- The output block the last branch stores is the gated product of the accumulators' new contents. -/
theorem read0C_3 (v : View sig .tc .vmem S1x1024x1408 .bf16) (f : v.ty.Contents (Elt F)) :
    v.read (Elt F) (v.writes (Elt F) f (kernelRun0_C c i arg3 harg3 arg4 harg4 arg5 harg5 arg6 harg6 arg7 harg7 arg8 harg8 hc0 hc1 x0 x1 x2 xs0 xs1).1) = k0_pay6 (k0_pay4 x0 x1 xs0) (k0_pay5 x0 x2 xs1) := by
  unfold kernelRun0_C; dsimp only
  exact (r0_read_writes_whole_last (S := S1x1024x1408) v f r0_hz3 inb_S1x1024x1408_S1x1024x1408_0_0_0 _ _).trans
    (congr (congrArg (k0_pay6 (F := F))
      ((View.readCov_unit_zero (S := S1024x1408) arg7.view r0_hz2 inb_S1024x1408_S1024x1408_0_0 _).trans
        (congr (congr (congrArg (k0_pay4 (F := F)) (r0_readAt_whole_unread (S := S1x1024x512) harg3 r0_hz3 inb_S1x1024x512_S1x1024x512_0_0_0 x0))
          (r0_readAt_whole_unread (S := S1x512x1408) harg4 r0_hz3 inb_S1x512x1408_S1x512x1408_0_0_0 x1))
          (r0_readAt_whole_unread (S := S1024x1408) harg7 r0_hz2 inb_S1024x1408_S1024x1408_0_0 xs0))))
      ((View.readCov_unit_zero (S := S1024x1408) arg8.view r0_hz2 inb_S1024x1408_S1024x1408_0_0 _).trans
        (congr (congr (congrArg (k0_pay5 (F := F)) (r0_readAt_whole_unread (S := S1x1024x512) harg3 r0_hz3 inb_S1x1024x512_S1x1024x512_0_0_0 x0))
          (r0_readAt_whole_unread (S := S1x512x1408) harg5 r0_hz3 inb_S1x512x1408_S1x512x1408_0_0_0 x2))
          (r0_readAt_whole_unread (S := S1024x1408) harg8 r0_hz2 inb_S1024x1408_S1024x1408_0_0 xs1))))
end C

end Cert.KernelIdeal.Hand

end
-- ==== Proof.KI.R0Frame.lean ====
/- Region 0: the proof data of its pipeline and the body obligation.

   The invariant carries the two accumulators between points: before the first point the region's scoped buffers at
   anything; before any later point the accumulators at what the point before left (`accs0`), the other scoped buffers
   at anything. At a point the body is in one of three cases, by the innermost grid coordinate: it restarts the
   accumulators (coordinate 0), only adds to them (1, 2), or adds and stores the output block (3); each case's run gives
   the accumulators' new contents as the payload functions of the blocks read and the old contents, which is the
   recursion `accs0`. -/
import proofs.«103436_j9328668967830_1_alg».proof.Proof.KI.R0Back

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The invariant before position `n`: the two accumulators at what the point before left (anything before the first
    point), the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare (accs0 V c n hn).1 ∗ owns (c : Thread nD τ) scM0_1 fullShare (accs0 V c n hn).2 ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (accs0 V c n hn).1 ∗ owns (c : Thread nD τ) scM0_1 fullShare (accs0 V c n hn).2 ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (accs0 V c (n - 1) (by omega)).1 ∗ owns (c : Thread nD τ) scM0_1 fullShare (accs0 V c (n - 1) (by omega)).2 ∗ Rest0 c) ∗ (∃ r, prngReg c r)) := by
  cases n with
  | zero => exact absurd rfl hz
  | succ n => rfl

/-- The proof data of pipeline 0 on core `c`, entered at contents `V`; the two windows on the first weight array hold
    it at the shares `qa`, `qb`. -/
def dat0 (qa qb : PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outv0 V c t
  Φ t := PhiS0 V c t.val (Nat.le_of_lt_succ t.isLt)
  q w := match w with
    | ⟨0, _⟩ => fullShare
    | ⟨1, _⟩ => qa
    | ⟨2, _⟩ => qb
    | ⟨3, _⟩ => fullShare
  owed _ := 0

variable (qa qb : PosShare TreeShare)

theorem A_eq0 (c : Dev nD) (w : Fin cfg0.W) : (dat0 V qa qb c).A w = V c (Pipeline.arrRef spec0 w) := by
  dsimp only [dat0]
theorem after0_0 (c : Dev nD) (t : Fin cfg0.N) : (dat0 V qa qb c).after 0 t = iblk0 V c 0 t := by dsimp only [dat0]
theorem after0_1 (c : Dev nD) (t : Fin cfg0.N) : (dat0 V qa qb c).after 1 t = iblk0 V c 1 t := by dsimp only [dat0]
theorem after0_2 (c : Dev nD) (t : Fin cfg0.N) : (dat0 V qa qb c).after 2 t = iblk0 V c 2 t := by dsimp only [dat0]
theorem after0_3 (c : Dev nD) (t : Fin cfg0.N) : (dat0 V qa qb c).after 3 t = outv0 V c t := by dsimp only [dat0]

/-- The invariant at a point's start, restated at the point's position. -/
theorem PhiS0_castSucc (c : Dev nD) (t : Fin cfg0.N) :
    (dat0 V qa qb c).Φ t.castSucc = PhiS0 V c t.val (Nat.le_of_lt t.isLt) := by
  dsimp only [dat0]; simp only [Fin.coe_castSucc]

/-- Each input's current staging buffer holds its block at every point. -/
theorem before0_0 (c : Dev nD) (t : Fin cfg0.N) (d) : (dat0 V qa qb c).before 0 t d = iblk0 V c 0 t :=
  before0_0_of V (dat0 V qa qb c) (A_eq0 V qa qb c 0) (after0_0 V qa qb c) t d
theorem before0_1 (c : Dev nD) (t : Fin cfg0.N) (d) : (dat0 V qa qb c).before 1 t d = iblk0 V c 1 t :=
  before0_1_of V (dat0 V qa qb c) (A_eq0 V qa qb c 1) (after0_1 V qa qb c) t d
theorem before0_2 (c : Dev nD) (t : Fin cfg0.N) (d) : (dat0 V qa qb c).before 2 t d = iblk0 V c 2 t :=
  before0_2_of V (dat0 V qa qb c) (A_eq0 V qa qb c 2) (after0_2 V qa qb c) t d

/-! ## The body obligation, at a generic point -/

/-- What the body is called with at point `t`, the windows one by one, -/
def bodyPre0 (c : Dev nD) (t : Fin cfg0.N) : sProp 𝕄 :=
  iprop((dat0 V qa qb c).Φ t.castSucc ∗ (dat0 V qa qb c).owesAt () t.castSucc
    ∗ (∃ d, owns (c : Thread nD τ) (ms0_0 t) fullShare ((dat0 V qa qb c).before 0 t d))
    ∗ (∃ d, owns (c : Thread nD τ) (ms0_1 t) fullShare ((dat0 V qa qb c).before 1 t d))
    ∗ (∃ d, owns (c : Thread nD τ) (ms0_2 t) fullShare ((dat0 V qa qb c).before 2 t d))
    ∗ (∃ d, owns (c : Thread nD τ) (ms0_3 t) fullShare ((dat0 V qa qb c).before 3 t d)))

/-- and what it returns. -/
def bodyPost0 (c : Dev nD) (t : Fin cfg0.N) : sProp 𝕄 :=
  iprop((dat0 V qa qb c).Φ t.succ ∗ (dat0 V qa qb c).owesAt () t.succ
    ∗ (dat0 V qa qb c).leavesExact 0 t
    ∗ (dat0 V qa qb c).leavesExact 1 t
    ∗ (dat0 V qa qb c).leavesExact 2 t
    ∗ (dat0 V qa qb c).leavesExact 3 t)

/-- What the body's post says of each live window: its buffer at what the body leaves. -/
theorem leaves0_0 (c : Dev nD) (t : Fin cfg0.N) :
    (dat0 V qa qb c).leavesExact 0 t = owns (c : Thread nD τ) (ms0_0 t) fullShare (iblk0 V c 0 t) := by
  have h : (dat0 V qa qb c).leavesExact 0 t = owns (c : Thread nD τ) (ms0_0 t) fullShare ((dat0 V qa qb c).after 0 t) := by
    unfold Dat.leavesExact; rw [liveAt0_0 t]
  rw [h, after0_0]
theorem leaves0_1 (c : Dev nD) (t : Fin cfg0.N) :
    (dat0 V qa qb c).leavesExact 1 t = owns (c : Thread nD τ) (ms0_1 t) fullShare (iblk0 V c 1 t) := by
  have h : (dat0 V qa qb c).leavesExact 1 t = owns (c : Thread nD τ) (ms0_1 t) fullShare ((dat0 V qa qb c).after 1 t) := by
    unfold Dat.leavesExact; rw [liveAt0_1 t]
  rw [h, after0_1]
theorem leaves0_2 (c : Dev nD) (t : Fin cfg0.N) :
    (dat0 V qa qb c).leavesExact 2 t = owns (c : Thread nD τ) (ms0_2 t) fullShare (iblk0 V c 2 t) := by
  have h : (dat0 V qa qb c).leavesExact 2 t = owns (c : Thread nD τ) (ms0_2 t) fullShare ((dat0 V qa qb c).after 2 t) := by
    unfold Dat.leavesExact; rw [liveAt0_2 t]
  rw [h, after0_2]
theorem leaves0_3 (c : Dev nD) (t : Fin cfg0.N) (hc : cond0_1 (grid0.coords t)) :
    (dat0 V qa qb c).leavesExact 3 t = owns (c : Thread nD τ) (ms0_3 t) fullShare (outv0 V c t) := by
  have h : (dat0 V qa qb c).leavesExact 3 t = owns (c : Thread nD τ) (ms0_3 t) fullShare ((dat0 V qa qb c).after 3 t) := by
    unfold Dat.leavesExact; rw [liveAt0_3 t hc]
  rw [h, after0_3]

set_option maxHeartbeats 4800000 in
/-- The body at any point: the inputs' buffers hold their blocks; the position modulo 4 says which case the point is in;
    the invariant hands the body the accumulators (at anything at the first point, else at what the point before left)
    and takes them back at this point's contents, by the recursion's equations. -/
theorem sound_body0 (c : Dev nD) (t : Fin cfg0.N) :
    bodyPre0 V qa qb c t ⊢ wp frame (wpE (defs₀ (F := F)) Variants.none c none) Set.univ (bodyAt0 t) (fun _ => bodyPost0 V qa qb c t) := by
  unfold bodyPre0 bodyPost0 bodyAt0
  simp only [before0_0, before0_1, before0_2]
  rw [show (dat0 V qa qb c).owesAt () t.succ = (dat0 V qa qb c).owesAt () t.castSucc from rfl]
  rw [show (dat0 V qa qb c).Φ t.succ = PhiS0 V c (t.val + 1) t.isLt from rfl, PhiS0_succ]
  rw [leaves0_0, leaves0_1, leaves0_2]
  have hN : t.val < 128 := lt_of_lt_of_eq t.isLt (show cfg0.N = 128 from N_0)
  by_cases h0 : t.val % 4 = 0
  · have h1 : ¬t.val % 4 = 3 := by omega
    rw [Dat.leavesExact_idle (dat0 V qa qb c) 3 t (idleAt0_3 t (fun h => h1 ((hcond0_1 t).mp h))) (noFlush0_3 t (fun h => h1 ((hcond0_1 t).mp h)))]
    rw [accs0_first V c t h0]; dsimp only
    by_cases hz : t.val = 0
    · rw [PhiS0_castSucc V qa qb c t, PhiS0_zero V c _ _ hz, PhiA0_eq]
      iintro ⟨⟨⟨HS0, HS1, HR⟩, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitr [Hg]
        · isplitl [HS0]
          · unfold owns; iexists _; isplitr
            swap; · iexact HS0
            ipureintro; exact read0A_0 _ _ _ _ _ _ _ _ _ _ _ _ _ _ _ _ _ _ _ _ _
          isplitl [HS1]
          · unfold owns; iexists _; isplitr
            swap; · iexact HS1
            ipureintro; exact read0A_1 _ _ _ _ _ _ _ _ _ _ _ _ _ _ _ _ _ _ _ _ _
          iexact HR
        iexact Hg
      isplitl [Ho]; · iexact Ho
      isplitl [H0]; · iexact H0
      isplitl [H1]; · iexact H1
      isplitl [H2]; · iexact H2
      iexists _; iexact H3
    · rw [PhiS0_castSucc V qa qb c t, PhiS0_pos V c _ _ hz]
      iintro ⟨⟨⟨HS0, HS1, HR⟩, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 HR Hg]
      · isplitr [Hg]
        · isplitl [HS0]
          · unfold owns; iexists _; isplitr
            swap; · iexact HS0
            ipureintro; exact read0A_0 _ _ _ _ _ _ _ _ _ _ _ _ _ _ _ _ _ _ _ _ _
          isplitl [HS1]
          · unfold owns; iexists _; isplitr
            swap; · iexact HS1
            ipureintro; exact read0A_1 _ _ _ _ _ _ _ _ _ _ _ _ _ _ _ _ _ _ _ _ _
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [leaves0_3 V qa qb c t ((hcond0_1 t).mpr h1)]
      unfold outv0
      rw [accs0_step V c t h0]; dsimp only
      rw [PhiS0_castSucc V qa qb c t, PhiS0_pos V c _ _ hz]
      iintro ⟨⟨⟨HS0, HS1, HR⟩, Hg⟩, Ho, ⟨%d0, H0⟩, ⟨%d1, H1⟩, ⟨%d2, H2⟩, ⟨%d3, H3⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 HR Hg]
      · isplitr [Hg]
        · isplitl [HS0]
          · unfold owns; iexists _; isplitr
            swap; · iexact HS0
            ipureintro; exact read0C_0 _ _ _ _ _ _ _ _ _ _ _ _ _ _ _ _ _ _ _ _ _ _ _
          isplitl [HS1]
          · unfold owns; iexists _; isplitr
            swap; · iexact HS1
            ipureintro; exact read0C_1 _ _ _ _ _ _ _ _ _ _ _ _ _ _ _ _ _ _ _ _ _ _ _
          iexact HR
        iexact Hg
      isplitl [Ho]; · iexact Ho
      isplitl [H0]; · iexact H0
      isplitl [H1]; · iexact H1
      isplitl [H2]; · iexact H2
      unfold owns; iexists _; isplitr
      swap; · iexact H3
      ipureintro; exact read0C_3 _ _ _ _ _ _ _ _ _ _ _ _ _ _ _ _ _ _ _ _ _ _ _
    · rw [Dat.leavesExact_idle (dat0 V qa qb c) 3 t (idleAt0_3 t (fun h => h1 ((hcond0_1 t).mp h))) (noFlush0_3 t (fun h => h1 ((hcond0_1 t).mp h)))]
      rw [accs0_step V c t h0]; dsimp only
      rw [PhiS0_castSucc V qa qb c t, PhiS0_pos V c _ _ hz]
      iintro ⟨⟨⟨HS0, HS1, HR⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitr [Hg]
        · isplitl [HS0]
          · unfold owns; iexists _; isplitr
            swap; · iexact HS0
            ipureintro; exact read0B_0 _ _ _ _ _ _ _ _ _ _ _ _ _ _ _ _ _ _ _ _ _ _ _
          isplitl [HS1]
          · unfold owns; iexists _; isplitr
            swap; · iexact HS1
            ipureintro; exact read0B_1 _ _ _ _ _ _ _ _ _ _ _ _ _ _ _ _ _ _ _ _ _ _ _
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V qa qb c) (defs₀ (F := F)) Variants.none () Set.univ := fun t => by
  rw [bigSep_W0, bigSep_W0]
  exact sound_body0 V qa qb c t

/-- What the region is handed at entry is the invariant before the first point. -/
theorem hin0 (c : Dev nD) : Pipeline.ΦA spec0 c ⊢ (dat0 V qa qb c).Φ 0 := by
  rw [show (dat0 V qa qb c).Φ 0 = PhiS0 V c 0 (Nat.zero_le _) from rfl, PhiS0_zero V c 0 _ rfl]
  try exact Idealize.SL.BI.Entails.refl _

/-- After any point but the first the invariant gives the scoped rest and the generator register back: the accumulators'
    named contents are forgotten. -/
theorem Phi_out0 (c : Dev nD) (t : Fin (cfg0.N + 1)) (ht : t.val ≠ 0) : (dat0 V qa qb c).Φ t ⊢ Pipeline.ΦA spec0 c := by
  rw [show (dat0 V qa qb c).Φ t = PhiS0 V c t.val (Nat.le_of_lt_succ t.isLt) from rfl, PhiS0_pos V c _ _ ht, PhiA0_eq]
  iintro ⟨⟨HS0, HS1, HR⟩, Hg⟩
  isplitr [Hg]
  · isplitl [HS0]
    · iexists _; iexact HS0
    isplitl [HS1]
    · iexists _; iexact HS1
    iexact HR
  iexact Hg

/-- After the last point the invariant gives the scoped rest and the generator register back. -/
theorem hout0 (c : Dev nD) : (dat0 V qa qb c).Φ (Fin.last cfg0.N) ⊢ Pipeline.ΦA spec0 c :=
  Phi_out0 V qa qb c _ (by rw [Fin.val_last]; have : cfg0.N = 128 := N_0; omega)

end Cert.KernelIdeal.Hand

end
-- ==== Proof.KI.R1Defs.lean ====
/-
  Region 1 (the second matrix product): what the body reads and what it leaves, as plain functions of the buffer
  contents `V` the region is entered with.

  A grid point t = (e, tm, tn, ik) reads the block (e, tm, ik) of the gated activations [8,1024,5632] and the block
  (e, ik, tn) of the second weight array [8,5632,2048]. The accumulator [512,1024] is zeroed at ik = 0 and each point
  adds its block product; at ik = 3 the output block (e, tm, tn) of [8,1024,2048] is the accumulator.
-/
import proofs.«103436_j9328668967830_1_alg».proof.Proof.Gen.KernelIdeal.Skeleton
import proofs.«103436_j9328668967830_1_alg».proof.Proof.Gen.KernelIdeal.Launch
import proofs.«103436_j9328668967830_1_alg».proof.Proof.Gen.KernelIdeal.Points

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (V : (c : Dev nD) → (b : Ref sig .tc) → Buf (Elt F) ((c : Thread nD τ).loc b))

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the body at position `n`: restarted from zero where `n % 4 = 0`, else the previous
    position's plus this position's block product. -/
def acc1 (c : Dev nD) : (n : ℕ) → n < cfg1.N → Vec F S512x1024 .f32
  | 0, hn => k1_pay2 (iblk1 V c 0 ⟨0, hn⟩) (iblk1 V c 1 ⟨0, hn⟩) k1_pay1
  | n + 1, hn =>
    if (n + 1) % 4 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (acc1 c n (Nat.lt_of_succ_lt hn))

/-- What the body leaves in the output window's staging buffer at a point that stores it (ik = 3): the accumulator
    as it stands after that point, with a leading unit axis. -/
def outv1 (c : Dev nD) (t : Fin cfg1.N) : Vec F S1x512x1024 .f32 :=
  k1_pay3 (acc1 V c t.val t.isLt)

theorem acc1_first (c : Dev nD) (t : Fin cfg1.N) (h : t.val % 4 = 0) :
    acc1 V c t.val t.isLt = k1_pay2 (iblk1 V c 0 t) (iblk1 V c 1 t) k1_pay1 := by
  obtain ⟨n, hn⟩ := t
  cases n with
  | zero => rfl
  | succ n => exact (if_pos h).trans rfl

theorem acc1_step (c : Dev nD) (t : Fin cfg1.N) (h : ¬ t.val % 4 = 0) :
    acc1 V c t.val t.isLt
      = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact (if_neg h).trans rfl

end Cert.KernelIdeal.Hand

end
-- ==== Proof.KI.R1Runs.lean ====
/-
  Region 1 (the second matrix product): what the three control cases of its body share. The body branches twice on
  the innermost grid coordinate ik: it zeroes the accumulator where ik = 0 and stores the output block where ik = 3.
  Here: the two conditions in closed form over the 128 grid points, where the output window is idle, the memrefs the
  body is called with, the region's scoped buffers enumerated, and the input windows' staging contents.
-/
import proofs.«103436_j9328668967830_1_alg».proof.Proof.KI.R1Defs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions -/

/-- The first branch's condition (zero the accumulator): the innermost coordinate is 0. -/
abbrev cond1_0 (i : grid1.Coords) : Prop := (Scalar.cmpi .ne (Scalar.extui (Scalar.cmpi .eq (BitVec.ofNat 32 (i 3).val) 0#32)) 0#32) = 1#1
/-- It holds exactly at the positions ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second branch's condition (store the output block): the innermost coordinate is 3. -/
abbrev cond1_1 (i : grid1.Coords) : Prop := k1_cond2 i = 1#1
/-- It holds exactly at the positions ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the body zeroes the accumulator and does not store the output, the output window is idle and not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- The same where it does neither. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- Where it stores the output the window is live. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S1x512x1024 .f32 := (Memref.whole cc1_stg2_0 : Memref sig .tc .vmem S1x512x1024 .f32).view
/-- Each window's current staging memref at position `t`, and its wholeness. -/
abbrev ms1_0 (t : Fin cfg1.N) : Memref sig .tc .vmem S1x512x1408 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1408x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S512x1024 .f32 := Memref.whole cc1_scratch0
abbrev VS1_0 : View sig .tc .vmem S512x1024 .f32 := scM1_0.view

/-! ## The region's scoped buffers -/

/-- The scoped buffers that are not the accumulator (the first region's staging buffers and accumulators), each at
    some contents: the body of this region never touches them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- What the region is handed besides its windows: those buffers, the accumulator at some contents, and the
    generator register at some state. -/
theorem PhiA1_eq (c : Dev nD) :
    (Pipeline.ΦA spec1 c : sProp 𝕄)
      = iprop(iprop(rest1 (F := F) c ∗ (∃ d, owns (c : Thread nD τ) scM1_0 fullShare d)) ∗ (∃ r, prngReg c r)) := by
  unfold Pipeline.ΦA; rw [scopedRest1_eq]; unfold rest1; simp only [scM1_0, owns_whole]
  refine BI.equiv_iff.mp ⟨?_, ?_⟩
  · show (_ : sProp 𝕄) ⊢ _
    iintro ⟨⟨H1, H2, H3, H4, H5, H6, H7, H8, H9, H10, HS⟩, Hg⟩
    isplitr [Hg]
    · isplitr [HS]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      · iexact HS
    · iexact Hg
  · show (_ : sProp 𝕄) ⊢ _
    iintro ⟨⟨⟨H1, H2, H3, H4, H5, H6, H7, H8, H9, H10⟩, HS⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact HS
    · iexact Hg

/-! ## The input windows' staging contents -/

variable (V : (c : Dev nD) → (b : Ref sig .tc) → Buf (Elt F) ((c : Thread nD τ).loc b))

/-- An input window's current staging buffer holds its block at every position: the window is fetched at every
    position, never idle, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Cert.KernelIdeal.Hand

end
-- ==== Proof.KI.R1RunA.lean ====
/-
  Region 1, case A of its body: the body's triple on any whole memrefs, with the pieces its stores leave.
-/
import proofs.«103436_j9328668967830_1_alg».proof.Proof.KI.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body where it zeroes the accumulator and does not store the output (ik = 0). On whole memrefs — the two
    inputs at their contents, the output's at contents handed back untouched, the accumulator at anything — it runs
    to a continuation holding the inputs and the output as they were and the accumulator with the pieces its two
    stores wrote (the zero fill, then the fill plus the block product). The pieces are the first two components. -/
noncomputable def kernelRun1_A (c : Dev nD) (i : grid1.Coords) (arg4 : Memref sig .tc .vmem S1x512x1408 .bf16) (harg4 : arg4.IsWhole) (arg5 : Memref sig .tc .vmem S1x1408x1024 .f32) (harg5 : arg5.IsWhole) (arg6 : Memref sig .tc .vmem S1x512x1024 .f32) (harg6 : arg6.IsWhole) (arg7 : Memref sig .tc .vmem S512x1024 .f32) (harg7 : arg7.IsWhole) (hc0 : cond1_0 i) (hc1 : ¬cond1_1 i)
    (x0 : Vec F S1x512x1408 .bf16) (x1 : Vec F S1x1408x1024 .f32) :
    Σ' (L2 : List (View.Piece (Elt F) S1x512x1024 .f32)), { LS0 : List (View.Piece (Elt F) S512x1024 .f32) //
      ∀ (xi2 : Vec F S1x512x1024 .f32) (E : Set ℕ) (K : PUnit → sProp 𝕄),
        iprop(owns (c : Thread nD τ) arg4 fullShare x0 ∗ owns (c : Thread nD τ) arg5 fullShare x1 ∗ owns (c : Thread nD τ) arg6 fullShare xi2 ∗ (∃ d, owns (c : Thread nD τ) arg7 fullShare d)
            ∗ (iprop(owns (c : Thread nD τ) arg4 fullShare x0 ∗ owns (c : Thread nD τ) arg5 fullShare x1 ∗ owns (c : Thread nD τ) arg6 fullShare xi2 ∗ (∃ f, arg7.view.loc (c : Thread nD τ) ↦[arg7.view.set]{fullShare} arg7.view.writes (Elt F) f LS0)) -∗ K ⟨⟩))
          ⊢ wp frame (wpE (defs₀ (F := F)) Variants.none c none) E (cc1__fc2_kernel i arg4 harg4 arg5 harg5 arg6 harg6 arg7 harg7) K } := by
  refine ⟨[], ?_, fun xi2 E K => ?run⟩
  case run =>
    simp only [cc1__fc2_kernel_eq_skeleton]; unfold cc1__fc2_kernel_skel
    unfold owns
    iintro ⟨⟨%f0, %hf0, H0⟩, ⟨%f1, %hf1, H1⟩, ⟨%f2, %hf2, H2⟩, ⟨%ds0, %fs0, -, HS0⟩, Hk⟩
    obtain rfl := harg4.eq_unread hf0; obtain rfl := harg5.eq_unread hf1; obtain rfl := harg6.eq_unread hf2
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    iexists _; iexact HS0

end Cert.KernelIdeal.Hand

end
-- ==== Proof.KI.R1RunB.lean ====
/-
  Region 1, case B of its body: the body's triple on any whole memrefs, with the pieces its stores leave.
-/
import proofs.«103436_j9328668967830_1_alg».proof.Proof.KI.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body where it takes neither branch (ik = 1, 2). On whole memrefs — the two inputs at their contents, the
    output's at contents handed back untouched, the accumulator at what the position before left — it runs to a
    continuation holding the inputs and the output as they were and the accumulator with the piece its one store
    wrote (the previous contents plus the block product). The piece is the second component. -/
noncomputable def kernelRun1_B (c : Dev nD) (i : grid1.Coords) (arg4 : Memref sig .tc .vmem S1x512x1408 .bf16) (harg4 : arg4.IsWhole) (arg5 : Memref sig .tc .vmem S1x1408x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond1_0 i) (hc1 : ¬cond1_1 i)
    (x0 : Vec F S1x512x1408 .bf16) (x1 : Vec F S1x1408x1024 .f32) (xs0 : Vec F S512x1024 .f32) :
    Σ' (L2 : List (View.Piece (Elt F) S1x512x1024 .f32)), { LS0 : List (View.Piece (Elt F) S512x1024 .f32) //
      ∀ (xi2 : Vec F S1x512x1024 .f32) (E : Set ℕ) (K : PUnit → sProp 𝕄),
        iprop(owns (c : Thread nD τ) arg4 fullShare x0 ∗ owns (c : Thread nD τ) arg5 fullShare x1 ∗ owns (c : Thread nD τ) arg6 fullShare xi2 ∗ owns (c : Thread nD τ) arg7 fullShare xs0
            ∗ (iprop(owns (c : Thread nD τ) arg4 fullShare x0 ∗ owns (c : Thread nD τ) arg5 fullShare x1 ∗ owns (c : Thread nD τ) arg6 fullShare xi2 ∗ (∃ f, arg7.view.loc (c : Thread nD τ) ↦[arg7.view.set]{fullShare} arg7.view.writes (Elt F) f LS0)) -∗ K ⟨⟩))
          ⊢ wp frame (wpE (defs₀ (F := F)) Variants.none c none) E (cc1__fc2_kernel i arg4 harg4 arg5 harg5 arg6 harg6 arg7 harg7) K } := by
  refine ⟨[], ?_, fun xi2 E K => ?run⟩
  case run =>
    simp only [cc1__fc2_kernel_eq_skeleton]; unfold cc1__fc2_kernel_skel
    unfold owns
    iintro ⟨⟨%f0, %hf0, H0⟩, ⟨%f1, %hf1, H1⟩, ⟨%f2, %hf2, H2⟩, ⟨%fs0, %hfs0, HS0⟩, Hk⟩
    obtain rfl := harg4.eq_unread hf0; obtain rfl := harg5.eq_unread hf1; obtain rfl := harg6.eq_unread hf2; obtain rfl := harg7.eq_unread hfs0
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    iexists _; iexact HS0

end Cert.KernelIdeal.Hand

end
-- ==== Proof.KI.R1RunC.lean ====
/-
  Region 1, case C of its body: the body's triple on any whole memrefs, with the pieces its stores leave.
-/
import proofs.«103436_j9328668967830_1_alg».proof.Proof.KI.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body where it stores the output and does not zero the accumulator (ik = 3). On whole memrefs — the two
    inputs at their contents, the output's at anything, the accumulator at what the position before left — it runs
    to a continuation holding the inputs as they were, the accumulator with the piece its store wrote and the
    output's buffer with the piece the last branch wrote (the accumulator's new contents). The pieces are the first two
    components. -/
noncomputable def kernelRun1_C (c : Dev nD) (i : grid1.Coords) (arg4 : Memref sig .tc .vmem S1x512x1408 .bf16) (harg4 : arg4.IsWhole) (arg5 : Memref sig .tc .vmem S1x1408x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond1_0 i) (hc1 : cond1_1 i)
    (x0 : Vec F S1x512x1408 .bf16) (x1 : Vec F S1x1408x1024 .f32) (xs0 : Vec F S512x1024 .f32) :
    Σ' (L2 : List (View.Piece (Elt F) S1x512x1024 .f32)), { LS0 : List (View.Piece (Elt F) S512x1024 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d) ∗ owns (c : Thread nD τ) arg7 fullShare xs0
            ∗ (iprop(owns (c : Thread nD τ) arg4 fullShare x0 ∗ owns (c : Thread nD τ) arg5 fullShare x1 ∗ (∃ f, arg6.view.loc (c : Thread nD τ) ↦[arg6.view.set]{fullShare} arg6.view.writes (Elt F) f L2) ∗ (∃ f, arg7.view.loc (c : Thread nD τ) ↦[arg7.view.set]{fullShare} arg7.view.writes (Elt F) f LS0)) -∗ K ⟨⟩))
          ⊢ wp frame (wpE (defs₀ (F := F)) Variants.none c none) E (cc1__fc2_kernel i arg4 harg4 arg5 harg5 arg6 harg6 arg7 harg7) K } := by
  refine ⟨?_, ?_, fun E K => ?run⟩
  case run =>
    simp only [cc1__fc2_kernel_eq_skeleton]; unfold cc1__fc2_kernel_skel
    unfold owns
    iintro ⟨⟨%f0, %hf0, H0⟩, ⟨%f1, %hf1, H1⟩, ⟨%d2, %f2, -, H2⟩, ⟨%fs0, %hfs0, HS0⟩, Hk⟩
    obtain rfl := harg4.eq_unread hf0; obtain rfl := harg5.eq_unread hf1; obtain rfl := harg7.eq_unread hfs0
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexists _; iexact H2
    iexists _; iexact HS0

end Cert.KernelIdeal.Hand

end
-- ==== Proof.KI.R1Read.lean ====
/-
  Region 1: what each case of the body leaves in the accumulator and in the output's staging buffer, read back as
  the payload functions. Every store of the body is of a whole buffer, so the pieces a case leaves cover the buffer
  and the contents are the last piece's payload; the loads inside that payload read whole buffers too.
-/
import proofs.«103436_j9328668967830_1_alg».proof.Proof.KI.R1RunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Case A's pieces for the accumulator cover it. -/
theorem scover1_A (c : Dev nD) (i : grid1.Coords) (arg4 : Memref sig .tc .vmem S1x512x1408 .bf16) (harg4 : arg4.IsWhole) (arg5 : Memref sig .tc .vmem S1x1408x1024 .f32) (harg5 : arg5.IsWhole) (arg6 : Memref sig .tc .vmem S1x512x1024 .f32) (harg6 : arg6.IsWhole) (arg7 : Memref sig .tc .vmem S512x1024 .f32) (harg7 : arg7.IsWhole) (hc0 : cond1_0 i) (hc1 : ¬cond1_1 i)
    (x0 : Vec F S1x512x1408 .bf16) (x1 : Vec F S1x1408x1024 .f32) (y : S512x1024.Idx) :
    ∃ pc ∈ (kernelRun1_A c i arg4 harg4 arg5 harg5 arg6 harg6 arg7 harg7 hc0 hc1 x0 x1).2.1, y ∈ pc.1.set :=
  View.cover_of_tiledL (kernelRun1_A c i arg4 harg4 arg5 harg5 arg6 harg6 arg7 harg7 hc0 hc1 x0 x1).2.1 S512x1024.size (by sl_kernel_rfl) y

set_option maxHeartbeats 1000000 in
/-- What case A leaves in the accumulator: the block product added to the zero fill. -/
theorem scanon1_A (c : Dev nD) (i : grid1.Coords) (arg4 : Memref sig .tc .vmem S1x512x1408 .bf16) (harg4 : arg4.IsWhole) (arg5 : Memref sig .tc .vmem S1x1408x1024 .f32) (harg5 : arg5.IsWhole) (arg6 : Memref sig .tc .vmem S1x512x1024 .f32) (harg6 : arg6.IsWhole) (arg7 : Memref sig .tc .vmem S512x1024 .f32) (harg7 : arg7.IsWhole) (hc0 : cond1_0 i) (hc1 : ¬cond1_1 i)
    (x0 : Vec F S1x512x1408 .bf16) (x1 : Vec F S1x1408x1024 .f32) :
    View.canon (kernelRun1_A c i arg4 harg4 arg5 harg5 arg6 harg6 arg7 harg7 hc0 hc1 x0 x1).2.1 = k1_pay2 x0 x1 (k1_pay1 (F := F)) := by
  unfold kernelRun1_A; dsimp only; sl_unfold_words
  have hz2 : (![0, 0] : Fin S512x1024.rank → ℕ) = fun _ => 0 := by funext a; fin_cases a <;> rfl
  have hz3a : (![0, 0, 0] : Fin S1x512x1408.rank → ℕ) = fun _ => 0 := by funext a; fin_cases a <;> rfl
  have hz3b : (![0, 0, 0] : Fin S1x1408x1024.rank → ℕ) = fun _ => 0 := by funext a; fin_cases a <;> rfl
  rw [View.canon_cons_unit_zero hz2, View.readCov_unit_zero _ hz2]
  simp only [View.readAt_eq_ld, harg4.read_unread, harg5.read_unread, harg7.read_unread, View.ld_unit_zero (S := S1x512x1408) hz3a, View.ld_unit_zero (S := S1x1408x1024) hz3b, View.ld_unit_zero (S := S512x1024) hz2]

/-- Case B's pieces for the accumulator cover it. -/
theorem scover1_B (c : Dev nD) (i : grid1.Coords) (arg4 : Memref sig .tc .vmem S1x512x1408 .bf16) (harg4 : arg4.IsWhole) (arg5 : Memref sig .tc .vmem S1x1408x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond1_0 i) (hc1 : ¬cond1_1 i)
    (x0 : Vec F S1x512x1408 .bf16) (x1 : Vec F S1x1408x1024 .f32) (xs0 : Vec F S512x1024 .f32) (y : S512x1024.Idx) :
    ∃ pc ∈ (kernelRun1_B c i arg4 harg4 arg5 harg5 arg6 harg6 arg7 harg7 hc0 hc1 x0 x1 xs0).2.1, y ∈ pc.1.set :=
  View.cover_of_tiledL (kernelRun1_B c i arg4 harg4 arg5 harg5 arg6 harg6 arg7 harg7 hc0 hc1 x0 x1 xs0).2.1 S512x1024.size (by sl_kernel_rfl) y

set_option maxHeartbeats 1000000 in
/-- What case B leaves in the accumulator: the block product added to what it held. -/
theorem scanon1_B (c : Dev nD) (i : grid1.Coords) (arg4 : Memref sig .tc .vmem S1x512x1408 .bf16) (harg4 : arg4.IsWhole) (arg5 : Memref sig .tc .vmem S1x1408x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond1_0 i) (hc1 : ¬cond1_1 i)
    (x0 : Vec F S1x512x1408 .bf16) (x1 : Vec F S1x1408x1024 .f32) (xs0 : Vec F S512x1024 .f32) :
    View.canon (kernelRun1_B c i arg4 harg4 arg5 harg5 arg6 harg6 arg7 harg7 hc0 hc1 x0 x1 xs0).2.1 = k1_pay2 x0 x1 xs0 := by
  unfold kernelRun1_B; dsimp only; sl_unfold_words
  have hz2 : (![0, 0] : Fin S512x1024.rank → ℕ) = fun _ => 0 := by funext a; fin_cases a <;> rfl
  have hz3a : (![0, 0, 0] : Fin S1x512x1408.rank → ℕ) = fun _ => 0 := by funext a; fin_cases a <;> rfl
  have hz3b : (![0, 0, 0] : Fin S1x1408x1024.rank → ℕ) = fun _ => 0 := by funext a; fin_cases a <;> rfl
  rw [View.canon_unit_zero hz2]
  simp only [View.readAt_eq_ld, harg4.read_unread, harg5.read_unread, harg7.read_unread, View.ld_unit_zero (S := S1x512x1408) hz3a, View.ld_unit_zero (S := S1x1408x1024) hz3b, View.ld_unit_zero (S := S512x1024) hz2]

/-- Case C's pieces for the accumulator cover it. -/
theorem scover1_C (c : Dev nD) (i : grid1.Coords) (arg4 : Memref sig .tc .vmem S1x512x1408 .bf16) (harg4 : arg4.IsWhole) (arg5 : Memref sig .tc .vmem S1x1408x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond1_0 i) (hc1 : cond1_1 i)
    (x0 : Vec F S1x512x1408 .bf16) (x1 : Vec F S1x1408x1024 .f32) (xs0 : Vec F S512x1024 .f32) (y : S512x1024.Idx) :
    ∃ pc ∈ (kernelRun1_C c i arg4 harg4 arg5 harg5 arg6 harg6 arg7 harg7 hc0 hc1 x0 x1 xs0).2.1, y ∈ pc.1.set :=
  View.cover_of_tiledL (kernelRun1_C c i arg4 harg4 arg5 harg5 arg6 harg6 arg7 harg7 hc0 hc1 x0 x1 xs0).2.1 S512x1024.size (by sl_kernel_rfl) y

set_option maxHeartbeats 1000000 in
/-- What case C leaves in the accumulator: the block product added to what it held. -/
theorem scanon1_C (c : Dev nD) (i : grid1.Coords) (arg4 : Memref sig .tc .vmem S1x512x1408 .bf16) (harg4 : arg4.IsWhole) (arg5 : Memref sig .tc .vmem S1x1408x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond1_0 i) (hc1 : cond1_1 i)
    (x0 : Vec F S1x512x1408 .bf16) (x1 : Vec F S1x1408x1024 .f32) (xs0 : Vec F S512x1024 .f32) :
    View.canon (kernelRun1_C c i arg4 harg4 arg5 harg5 arg6 harg6 arg7 harg7 hc0 hc1 x0 x1 xs0).2.1 = k1_pay2 x0 x1 xs0 := by
  unfold kernelRun1_C; dsimp only; sl_unfold_words
  have hz2 : (![0, 0] : Fin S512x1024.rank → ℕ) = fun _ => 0 := by funext a; fin_cases a <;> rfl
  have hz3a : (![0, 0, 0] : Fin S1x512x1408.rank → ℕ) = fun _ => 0 := by funext a; fin_cases a <;> rfl
  have hz3b : (![0, 0, 0] : Fin S1x1408x1024.rank → ℕ) = fun _ => 0 := by funext a; fin_cases a <;> rfl
  rw [View.canon_unit_zero hz2]
  simp only [View.readAt_eq_ld, harg4.read_unread, harg5.read_unread, harg7.read_unread, View.ld_unit_zero (S := S1x512x1408) hz3a, View.ld_unit_zero (S := S1x1408x1024) hz3b, View.ld_unit_zero (S := S512x1024) hz2]

/-- Case C's piece for the output's staging buffer covers it. -/
theorem cover1_C (c : Dev nD) (i : grid1.Coords) (arg4 : Memref sig .tc .vmem S1x512x1408 .bf16) (harg4 : arg4.IsWhole) (arg5 : Memref sig .tc .vmem S1x1408x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond1_0 i) (hc1 : cond1_1 i)
    (x0 : Vec F S1x512x1408 .bf16) (x1 : Vec F S1x1408x1024 .f32) (xs0 : Vec F S512x1024 .f32) (y : S1x512x1024.Idx) :
    ∃ pc ∈ (kernelRun1_C c i arg4 harg4 arg5 harg5 arg6 harg6 arg7 harg7 hc0 hc1 x0 x1 xs0).1, y ∈ pc.1.set :=
  View.cover_of_tiledL (kernelRun1_C c i arg4 harg4 arg5 harg5 arg6 harg6 arg7 harg7 hc0 hc1 x0 x1 xs0).1 S1x512x1024.size (by sl_kernel_rfl) y

set_option maxHeartbeats 1000000 in
/-- What case C leaves in the output's staging buffer: the accumulator's new contents under a leading unit axis. -/
theorem canon1_C (c : Dev nD) (i : grid1.Coords) (arg4 : Memref sig .tc .vmem S1x512x1408 .bf16) (harg4 : arg4.IsWhole) (arg5 : Memref sig .tc .vmem S1x1408x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond1_0 i) (hc1 : cond1_1 i)
    (x0 : Vec F S1x512x1408 .bf16) (x1 : Vec F S1x1408x1024 .f32) (xs0 : Vec F S512x1024 .f32) :
    View.canon (kernelRun1_C c i arg4 harg4 arg5 harg5 arg6 harg6 arg7 harg7 hc0 hc1 x0 x1 xs0).1 = k1_pay3 (k1_pay2 x0 x1 xs0) := by
  unfold kernelRun1_C; dsimp only; sl_unfold_words
  have hz2 : (![0, 0] : Fin S512x1024.rank → ℕ) = fun _ => 0 := by funext a; fin_cases a <;> rfl
  have hz3a : (![0, 0, 0] : Fin S1x512x1408.rank → ℕ) = fun _ => 0 := by funext a; fin_cases a <;> rfl
  have hz3b : (![0, 0, 0] : Fin S1x1408x1024.rank → ℕ) = fun _ => 0 := by funext a; fin_cases a <;> rfl
  have hz3c : (![0, 0, 0] : Fin S1x512x1024.rank → ℕ) = fun _ => 0 := by funext a; fin_cases a <;> rfl
  rw [View.canon_unit_zero hz3c, View.readCov_unit_zero _ hz2]
  simp only [View.readAt_eq_ld, harg4.read_unread, harg5.read_unread, harg7.read_unread, View.ld_unit_zero (S := S1x512x1408) hz3a, View.ld_unit_zero (S := S1x1408x1024) hz3b, View.ld_unit_zero (S := S512x1024) hz2]

end Cert.KernelIdeal.Hand

end
-- ==== Proof.KI.R1Frame.lean ====
/- Region 1: the proof data of its pipeline and the body obligation. -/
import proofs.«103436_j9328668967830_1_alg».proof.Proof.KI.R1Read

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The invariant before position `n`: before the first position what the region is handed; afterwards the
    accumulator at what the position before left, the other scoped buffers at anything, the generator register at
    some state. -/
def PhiS1 (c : Dev nD) : (n : ℕ) → n ≤ cfg1.N → sProp 𝕄
  | 0, _ => Pipeline.ΦA spec1 c
  | n + 1, hn => iprop(iprop(rest1 (F := F) c ∗ owns (c : Thread nD τ) scM1_0 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rest1 (F := F) c ∗ owns (c : Thread nD τ) scM1_0 fullShare (acc1 V c n hn)) ∗ (∃ r, prngReg c r)) := rfl

theorem PhiS1_pos (c : Dev nD) (n : ℕ) (h : n ≤ cfg1.N) (hz : n ≠ 0) :
    PhiS1 V c n h = iprop(iprop(rest1 (F := F) c ∗ owns (c : Thread nD τ) scM1_0 fullShare (acc1 V c (n - 1) (by omega))) ∗ (∃ r, prngReg c r)) := by
  cases n with
  | zero => exact absurd rfl hz
  | succ n => rfl

/-- The proof data of pipeline 1 on core `c`, entered at contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outv1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outv1 V c t := by dsimp only [dat1]

/-- The invariant at a position's start, restated at its number. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every position. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at position `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any position. The inputs' memrefs hold their blocks; the position's residue mod 4 says which case
    it is in; the invariant hands the body the accumulator at what the position before left (at anything at the
    first position) and takes it back at this position's contents; where the body does not store the output its
    buffer goes back untouched, and where it does the buffer holds the accumulator's new contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [acc1_first V c t h0]
      by_cases hz : t.val = 0
      · rw [PhiS1_castSucc V c t, PhiS1_zero V c _ _ hz, PhiA1_eq]
        iintro ⟨⟨⟨HR, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HR HS0 Hg]
        · isplitl [HR HS0]
          · isplitl [HR]; · iexact HR
            unfold owns; iexists _; isplitr
            swap; · iexact HS0
            ipureintro; exact (View.read_writes_eq_canon _ _ _ (scover1_A c _ _ _ _ _ _ _ _ _ _ _ _ _)).trans (scanon1_A c _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HR, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HR HS0 Hg]
        · isplitl [HR HS0]
          · isplitl [HR]; · iexact HR
            unfold owns; iexists _; isplitr
            swap; · iexact HS0
            ipureintro; exact (View.read_writes_eq_canon _ _ _ (scover1_A c _ _ _ _ _ _ _ _ _ _ _ _ _)).trans (scanon1_A c _ _ _ _ _ _ _ _ _ _ _ _ _)
          iexact Hg
        isplitl [Ho]; · iexact Ho
        isplitl [H0]; · iexact H0
        isplitl [H1]; · iexact H1
        iexists _; iexact H2
  · have hz : t.val ≠ 0 := fun hz => h0 (by rw [hz])
    by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      unfold outv1
      rw [acc1_step V c t h0]
      · rw [PhiS1_castSucc V c t, PhiS1_pos V c _ _ hz]
        iintro ⟨⟨⟨HR, HS0⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HR HS0 Hg]
        · isplitl [HR HS0]
          · isplitl [HR]; · iexact HR
            unfold owns; iexists _; isplitr
            swap; · iexact HS0
            ipureintro; exact (View.read_writes_eq_canon _ _ _ (scover1_C c _ _ _ _ _ _ _ _ _ _ _ _ _ _)).trans (scanon1_C c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact (View.read_writes_eq_canon _ _ _ (cover1_C c _ _ _ _ _ _ _ _ _ _ _ _ _ _)).trans (canon1_C c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [acc1_step V c t h0]
      · rw [PhiS1_castSucc V c t, PhiS1_pos V c _ _ hz]
        iintro ⟨⟨⟨HR, HS0⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HR HS0 Hg]
        · isplitl [HR HS0]
          · isplitl [HR]; · iexact HR
            unfold owns; iexists _; isplitr
            swap; · iexact HS0
            ipureintro; exact (View.read_writes_eq_canon _ _ _ (scover1_B c _ _ _ _ _ _ _ _ _ _ _ _ _ _)).trans (scanon1_B c _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed at entry is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any position but the first the invariant gives back what the region was handed: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0⟩, Hg⟩
  isplitl [HR HS0]
  · isplitl [HR]; · iexact HR
    iexists _; iexact HS0
  iexact Hg

/-- After the last point the invariant gives the scoped rest and the generator register back. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KI.Regions.lean ====
/-
  The two regions assembled: the buffer contents at every boundary of @main, the proof data of both pipelines, each
  region as a segment between those boundaries, and the run of @main that ends with every unscoped buffer at the
  last boundary's contents.

  Between the items of @main a core holds every unscoped buffer at a valuation: the launch contents; after the first
  reshape; after region 0, which changes only its output array (the gated activations); after region 1, which changes
  only its output array; after the last reshape. Region 0 reads the first weight array through two windows (the two
  halves of its last axis): the array's full share is split in two at entry, one half per window, and joined again at
  exit — neither window writes it.
-/
import proofs.«103436_j9328668967830_1_alg».proof.Proof.KI.R0Frame
import proofs.«103436_j9328668967830_1_alg».proof.Proof.KI.R1Frame
import proofs.«103436_j9328668967830_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- The two halves of the full share: what each of region 0's two windows on the first weight array holds it at. -/
abbrev qa : PosShare TreeShare := fullShare.left
abbrev qb : PosShare TreeShare := fullShare.right

/-- Core `c`'s buffers at launch. -/
abbrev W0 : Dev nD → Valuation τ sig (Elt F) := fun c b => (s₀ m ρ).mem ((c : Dev nD), b)
/-- After the first reshape (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- What region 0 leaves in its output array. -/
def o1 (c : Dev nD) : Buf (Elt F) ((c : Thread nD τ).loc main_v1) := (dat0 (V1 m ρ) qa qb c).arrAt 3 cfg0.N
/-- After region 0: only its output array changed. -/
def W2 (c : Dev nD) : Valuation τ sig (Elt F) := Function.update (W1 m ρ c) (Proc.devRef .tc main_v1) (o1 m ρ c)
abbrev V2 : (c : Dev nD) → (b : Ref sig .tc) → Buf (Elt F) ((c : Thread nD τ).loc b) := fun c b => W2 m ρ c b
/-- What region 1 leaves in its output array. -/
def o2 (c : Dev nD) : Buf (Elt F) ((c : Thread nD τ).loc main_v2) := (dat1 (V2 m ρ) c).arrAt 2 cfg1.N
/-- After region 1: only its output array changed. -/
def W3 (c : Dev nD) : Valuation τ sig (Elt F) := Function.update (W2 m ρ c) (Proc.devRef .tc main_v2) (o2 m ρ c)
abbrev V3 : (c : Dev nD) → (b : Ref sig .tc) → Buf (Elt F) ((c : Thread nD τ).loc b) := fun c b => W3 m ρ c b
/-- After the last reshape. -/
abbrev W4 : Dev nD → Valuation τ sig (Elt F) := fun c => StableHlo.after hostOps2 (W3 m ρ c)

theorem W2_out (c : Dev nD) : W2 m ρ c (Proc.devRef .tc main_v1) = o1 m ρ c := by
  unfold W2; exact Function.update_self _ _ _
theorem W2_of_ne (c : Dev nD) (b : Ref sig .tc) (hb : b ≠ main_v1) : W2 m ρ c (Proc.devRef .tc b) = W1 m ρ c (Proc.devRef .tc b) := by
  unfold W2; exact Function.update_of_ne (StableHlo.devRef_ne_of_ne hb) _ _
theorem W3_out (c : Dev nD) : W3 m ρ c (Proc.devRef .tc main_v2) = o2 m ρ c := by
  unfold W3; exact Function.update_self _ _ _
theorem W3_of_ne (c : Dev nD) (b : Ref sig .tc) (hb : b ≠ main_v2) : W3 m ρ c (Proc.devRef .tc b) = W2 m ρ c (Proc.devRef .tc b) := by
  unfold W3; exact Function.update_of_ne (StableHlo.devRef_ne_of_ne hb) _ _

/-! ## The proof data of both pipelines -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) qa qb c
  | ⟨1, _⟩ => fun c => dat1 (V2 m ρ) c

abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## Region 0's arrays at entry and exit: one array behind two windows -/

section Shared
variable (V : (c : Dev nD) → (b : Ref sig .tc) → Buf (Elt F) ((c : Thread nD τ).loc b))

/-- The three distinct buffers behind region 0's four windows. -/
theorem arrBufs0_eq (c : Dev nD) :
    (Pipeline.arrBufs (Ix := Unit) (Name := ℕ) (U := UR sig nD τ) (Lvl := ℕ) spec0 c (V c) : sProp 𝕄)
      = iprop((((c : Thread nD τ).loc main_v0) ↦{fullShare} V c main_v0) ∗ (((c : Thread nD τ).loc main_arg1) ↦{fullShare} V c main_arg1)
          ∗ (((c : Thread nD τ).loc main_v1) ↦{fullShare} V c main_v1)) := by
  unfold Pipeline.arrBufs
  exact bigSep_eq_bigSepL_of_eq [main_v0, main_arg1, main_v1] (by decide) (by decide) _

end Shared

section Shared2
variable (V : (c : Dev nD) → (b : Ref sig .tc) → Buf (Elt F) ((c : Thread nD τ).loc b))

/-- ENTRY. The three buffers, each whole at the full share, are region 0's four arrays at its proof data's shares: the
    first weight array's full share split into the two halves its two windows hold. -/
theorem hsplit0 (c : Dev nD) :
    (Pipeline.arrBufs (Ix := Unit) (Name := ℕ) (U := UR sig nD τ) (Lvl := ℕ) spec0 c (V c) : sProp 𝕄)
      ⊢ (dat0 V qa qb c).arrays (fun w => (dat0 V qa qb c).arrAt w 0) := by
  rw [arrBufs0_eq]
  unfold Dat.arrays
  rw [bigSep_W0]
  iintro ⟨H0, H1, H3⟩
  ihave H1' := (pointsTo_share (PosShare.mem_left_op_right fullShare)).1 $$ H1
  icases H1' with ⟨H1a, H1b⟩
  isplitl [H0]
  · rw [(arr_whole0 0).set_eq_univ]; iexact H0
  isplitl [H1a]
  · rw [(arr_whole0 1).set_eq_univ]; iexact H1a
  isplitl [H1b]
  · rw [(arr_whole0 2).set_eq_univ]; iexact H1b
  rw [(arr_whole0 3).set_eq_univ]; iexact H3

end Shared2

section Shared3
variable (V : (c : Dev nD) → (b : Ref sig .tc) → Buf (Elt F) ((c : Thread nD τ).loc b))

/-- The same three buffers at any contents. -/
theorem arrBufs0_eq' (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v0) ↦{fullShare} V' main_v0) ∗ (((c : Thread nD τ).loc main_arg1) ↦{fullShare} V' main_arg1)
          ∗ (((c : Thread nD τ).loc main_v1) ↦{fullShare} V' main_v1)) := by
  unfold Pipeline.arrBufs
  exact bigSep_eq_bigSepL_of_eq [main_v0, main_arg1, main_v1] (by decide) (by decide) _

/-- EXIT. Region 0's four arrays at their final contents are the three buffers whole at the full share: the two halves
    of the first weight array's share, both at the same contents, joined. -/
theorem hjoin0 (c : Dev nD) (V' : (b : Ref sig .tc) → Buf (Elt F) ((c : Thread nD τ).loc b))
    (h0 : (dat0 V qa qb c).arrAt 0 cfg0.N = V' main_v0) (h1 : (dat0 V qa qb c).arrAt 1 cfg0.N = V' main_arg1)
    (h2 : (dat0 V qa qb c).arrAt 2 cfg0.N = V' main_arg1) (h3 : (dat0 V qa qb c).arrAt 3 cfg0.N = V' main_v1) :
    (dat0 V qa qb c).arrays (fun w => (dat0 V qa qb c).arrAt w cfg0.N)
      ⊢ (Pipeline.arrBufs (Ix := Unit) (Name := ℕ) (U := UR sig nD τ) (Lvl := ℕ) spec0 c V' : sProp 𝕄) := by
  rw [arrBufs0_eq']
  unfold Dat.arrays
  rw [bigSep_W0, (arr_whole0 0).set_eq_univ, (arr_whole0 1).set_eq_univ, (arr_whole0 3).set_eq_univ]
  dsimp only
  rw [h0, h1, h2, h3]
  iintro ⟨H0, H1a, H1b, H3⟩
  isplitl [H0]; · iexact H0
  isplitl [H1a H1b]
  · iapply (pointsTo_share (PosShare.mem_left_op_right fullShare)).2
    isplitl [H1a]; · iexact H1a
    iexact H1b
  iexact H3

end Shared3

/-! ## The arrays' final contents at each region's exit -/

theorem o1_def (c : Dev nD) : (dat0 (V1 m ρ) qa qb c).arrAt 3 cfg0.N = V2 m ρ c main_v1 := (W2_out m ρ c).symm
theorem arr0_in0 (c : Dev nD) : (dat0 (V1 m ρ) qa qb c).arrAt 0 cfg0.N = V2 m ρ c main_v0 :=
  ((dat0 (V1 m ρ) qa qb c).arrAt_in 0 rfl _).trans ((A_eq0 (V1 m ρ) qa qb c 0).trans (W2_of_ne m ρ c main_v0 (by decide)).symm)
theorem arr0_in1 (c : Dev nD) : (dat0 (V1 m ρ) qa qb c).arrAt 1 cfg0.N = V2 m ρ c main_arg1 :=
  ((dat0 (V1 m ρ) qa qb c).arrAt_in 1 rfl _).trans ((A_eq0 (V1 m ρ) qa qb c 1).trans (W2_of_ne m ρ c main_arg1 (by decide)).symm)
theorem arr0_in2 (c : Dev nD) : (dat0 (V1 m ρ) qa qb c).arrAt 2 cfg0.N = V2 m ρ c main_arg1 :=
  ((dat0 (V1 m ρ) qa qb c).arrAt_in 2 rfl _).trans ((A_eq0 (V1 m ρ) qa qb c 2).trans (W2_of_ne m ρ c main_arg1 (by decide)).symm)

/-- Off region 0's output array nothing changed. -/
theorem rest0_eq (c : Dev nD) :
    (Pipeline.unscopedRest (Ix := Unit) (Name := ℕ) (U := UR sig nD τ) (Lvl := ℕ) spec0 c (V2 m ρ c) : sProp 𝕄)
      = Pipeline.unscopedRest (Ix := Unit) (Name := ℕ) (U := UR sig nD τ) (Lvl := ℕ) spec0 c (V1 m ρ c) := by
  rw [unscopedRest0_eq, unscopedRest0_eq]
  dsimp only [V2, V1]
  rw [W2_of_ne m ρ c main_arg0 (by decide), W2_of_ne m ρ c main_arg2 (by decide), W2_of_ne m ρ c main_arg3 (by decide),
    W2_of_ne m ρ c main_v2 (by decide), W2_of_ne m ρ c main_v3 (by decide)]

theorem hF1 (c : Dev nD) (w : Fin cfg1.W) : (dat1 (V2 m ρ) c).arrAt w cfg1.N = V3 m ρ c (Pipeline.arrRef spec1 w) := by
  match w with
  | ⟨0, _⟩ => exact ((dat1 (V2 m ρ) c).arrAt_in 0 rfl _).trans ((A_eq1 (V2 m ρ) c 0).trans (W3_of_ne m ρ c main_v1 (by decide)).symm)
  | ⟨1, _⟩ => exact ((dat1 (V2 m ρ) c).arrAt_in 1 rfl _).trans ((A_eq1 (V2 m ρ) c 1).trans (W3_of_ne m ρ c main_arg2 (by decide)).symm)
  | ⟨2, _⟩ => exact (W3_out m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨2, Finset.mem_univ _, e.symm⟩)

/-! ## The regions as segments -/

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The unscoped buffers at region 0's entry: the three buffers behind its windows and the rest. -/
theorem held1_eq (c : Dev nD) :
    (StableHlo.held (c : Thread nD τ) (Pipeline.ucRefs τ sig) (W1 m ρ c) : sProp 𝕄)
      = iprop(Pipeline.arrBufs (Ix := Unit) (Name := ℕ) (U := UR sig nD τ) (Lvl := ℕ) spec0 c (V1 m ρ c)
          ∗ Pipeline.unscopedRest (Ix := Unit) (Name := ℕ) (U := UR sig nD τ) (Lvl := ℕ) spec0 c (V1 m ρ c)) := by
  rw [← Pipeline.unscopedBufs_held c (W1 m ρ c)]
  exact Pipeline.unscopedBufs_split₀ cfgs 0 winFacts₀0.arr_unscoped c (V1 m ρ c)
/-- The same at its exit, the rest as at entry. -/
theorem held2_eq (c : Dev nD) :
    (StableHlo.held (c : Thread nD τ) (Pipeline.ucRefs τ sig) (W2 m ρ c) : sProp 𝕄)
      = iprop(Pipeline.arrBufs (Ix := Unit) (Name := ℕ) (U := UR sig nD τ) (Lvl := ℕ) spec0 c (V2 m ρ c)
          ∗ Pipeline.unscopedRest (Ix := Unit) (Name := ℕ) (U := UR sig nD τ) (Lvl := ℕ) spec0 c (V1 m ρ c)) := by
  rw [← Pipeline.unscopedBufs_held c (W2 m ρ c), ← rest0_eq m ρ c]
  exact Pipeline.unscopedBufs_split₀ cfgs 0 winFacts₀0.arr_unscoped c (V2 m ρ c)

set_option backward.isDefEq.respectTransparency.types false in
/-- REGION 0 between its two boundaries: its arrays sorted out of the unscoped buffers (the shared one split) and put
    back at the exit contents (joined); the generator register into the invariant and out; nothing owed. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) qa qb c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none, held1_eq]
    iintro ⟨⟨⟨Hab, Hrest⟩, Hp, HO⟩, -, -⟩
    ihave Ha := hsplit0 (V1 m ρ) c $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) qa qb c)
    unfold Pipeline.ΦA
    iintro ⟨Hp, -, Hr⟩
    isplitl [Hr]; · iexact Hr
    iexact Hp
  hout c := by
    rw [Pipeline.ownSems0_none]
    refine BIBase.Entails.trans (hout0 (V1 m ρ) qa qb c) ?_
    unfold Pipeline.ΦA
    iintro ⟨Hr, Hp⟩
    isplitl [Hp]; · iexact Hp
    isplitr; · iempintro
    iexact Hr
  hexit c := by
    rw [held2_eq]
    iintro ⟨Ha, HO, HY, Hrest⟩
    imodintro
    isplitl [Ha Hrest]
    · isplitl [Ha]
      · iapply (hjoin0 (V1 m ρ) c (V2 m ρ c) (arr0_in0 m ρ c) (arr0_in1 m ρ c) (arr0_in2 m ρ c) (o1_def m ρ c))
        iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 1 between its two boundaries: its arrays (distinct buffers) sorted out of the unscoped buffers and put back
    at the exit contents; the generator register into the invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's four items in order: the first reshape, region 0, region 1, the last reshape. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W4 m ρ c) ∗ ∃ r, prngReg c r))
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## What the last boundary holds -/

/-- An argument array reaches the end as launched: neither reshape writes it, neither region changes it. -/
theorem W4_arg (c : Dev nD) (b : Ref sig .tc) (h0 : b ∉ hostOps0_W) (h1 : b ≠ main_v1) (h2 : b ≠ main_v2) (h3 : b ∉ hostOps2_W) :
    W4 m ρ c (Proc.devRef .tc b) = m ((c : Thread nD τ).loc b) :=
  (StableHlo.after_of_writes_sub hostOps2 _ hostOps2_writes h3).trans <| (W3_of_ne m ρ c b h2).trans <|
    (W2_of_ne m ρ c b h1).trans <| (StableHlo.after_of_writes_sub hostOps0 _ hostOps0_writes h0).trans rfl

/-- THE FRAME of the program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_arg m ρ c main_arg0 (by decide) (by decide) (by decide) (by decide)),
     (h c _ (mem_uc main_arg1 (by decide))).trans (W4_arg m ρ c main_arg1 (by decide) (by decide) (by decide) (by decide)),
     (h c _ (mem_uc main_arg2 (by decide))).trans (W4_arg m ρ c main_arg2 (by decide) (by decide) (by decide) (by decide)),
     (h c _ (mem_uc main_arg3 (by decide))).trans (W4_arg m ρ c main_arg3 (by decide) (by decide) (by decide) (by decide))⟩)
    (run_all m ρ)

end Cert.KernelIdeal.Hand

end
-- ==== Proof.KI.Acc.lean ====
/-
  The four arrays the two regions read, as arrays of extended reals: the buffer contents a region is entered with, taken
  at the activations, the first weight array, the gated activations and the second weight array.
-/
import proofs.«103436_j9328668967830_1_alg».proof.Proof.Gen.KernelIdeal
import Idealize.ShloMosaic.PureOps.Ideal

noncomputable section
namespace Cert.KernelIdeal.Hand
open Idealize.ShloMosaic Idealize.ShloMosaic.TcCoe
open Idealize.SL Idealize.SL.Sem
open Cert.KernelIdeal

variable (V : (c : Dev nD) → (b : Ref sig .tc) → Buf (Elt Ideal) ((c : Thread nD τ).loc b))

/-- The activations, three-axis: [8, 1024, 2048]. -/
abbrev arrX (c : Dev nD) : FVec Ideal S8x1024x2048 .f32 := V c main_v0
/-- The first weight array: [8, 2048, 11264]. -/
abbrev arrW1 (c : Dev nD) : FVec Ideal S8x2048x11264 .f32 := V c main_arg1
/-- The gated activations: [8, 1024, 5632]. -/
abbrev arrI (c : Dev nD) : FVec Ideal S8x1024x5632 .bf16 := V c main_v1
/-- The second weight array: [8, 5632, 2048]. -/
abbrev arrW2 (c : Dev nD) : FVec Ideal S8x5632x2048 .f32 := V c main_arg2

end Cert.KernelIdeal.Hand
end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«103436_j9328668967830_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.KI.PayIdx.lean ====
/-
  The two kernel bodies' arithmetic read at one entry, at the ideal values.

  Over the extended reals a format change is the identity, a matrix product into the zero accumulator is the exact sum
  of the products over the contracted axis, and the blocks' leading unit axis only relabels an entry: (0, r, q) of a
  [1, a, b] block is (r, q) of the [a, b] matrix. So each value a body stores is, entry by entry, the plain formula
  below: zero; accumulator plus a row-times-column sum; a · logistic a · b; the accumulator itself.
-/
import proofs.«103436_j9328668967830_1_alg».proof.Proof.Gen.KernelIdeal.Skeleton
import proofs.«103436_j9328668967830_1_alg».proof.Proof.LibPlainDotFormats
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx Cert.KernelIdeal Cert.KernelIdeal.Gen

/-- The first stage's dimension numbers are those of a plain product [1024, 512] × [512, 1408]. -/
theorem payIdx_plain0 : Cert.LibPlainDot.Plain dot_S1024x512_S512x1408_S1024x1408_1_0_0_1_n_n := ⟨rfl, rfl, rfl, rfl, rfl, rfl⟩

/-- The second stage's dimension numbers are those of a plain product [512, 1408] × [1408, 1024]. -/
theorem payIdx_plain1 : Cert.LibPlainDot.Plain dot_S512x1408_S1408x1024_S512x1024_1_0_0_1_n_n := ⟨rfl, rfl, rfl, rfl, rfl, rfl⟩

/-- The first accumulator's initial value is zero at every entry. -/
theorem k0_pay1_apply (j : S1024x1408.Idx) : (k0_pay1 (F := Ideal)) j = 0 := by
  unfold k0_pay1
  refine (congrFun (shapeCast_self _ _) j).trans ?_
  exact Ideal.ofBits_zero_f32

/-- The gated output block at (0, r, q): a · logistic a · b of the two accumulators' entries (r, q). -/
theorem k0_pay6_apply (a b : Vec Ideal S1024x1408 .f32) (r : Fin 1024) (q : Fin 1408) :
    k0_pay6 a b (ix3 (0 : Fin 1) r q) = a (ix2 r q) * Ideal.logistic (a (ix2 r q)) * b (ix2 r q) := by
  unfold k0_pay6
  refine (shapeCast_ab_1ab_apply _ _ (0 : Fin 1) r q).trans ?_
  rfl

/-- The first accumulator's update at (r, q): its entry plus row r of the activation block times column q of the
    weight block. -/
theorem k0_pay4_apply (x0 : Vec Ideal S1x1024x512 .f32) (x1 : Vec Ideal S1x512x1408 .f32) (a : Vec Ideal S1024x1408 .f32)
    (r : Fin 1024) (q : Fin 1408) :
    k0_pay4 x0 x1 a (ix2 r q) = a (ix2 r q) + ∑ k : Fin 512, x0 (ix3 (0 : Fin 1) r k) * x1 (ix3 (0 : Fin 1) k q) := by
  unfold k0_pay4 k0_pay3
  refine (congrFun (shapeCast_self _ _) (ix2 r q)).trans ?_
  refine (addf_apply _ _ _).trans ?_
  refine congrArg (a (ix2 r q) + ·) ?_
  refine (payIdx_plain0.matmul_zero_apply_formats none _ _ r q).trans ?_
  refine Finset.sum_congr rfl fun k _ => ?_
  exact congrArg₂ (· * ·) (shapeCast_1ab_ab_apply x0 _ r k) (shapeCast_1ab_ab_apply x1 _ k q)

/-- The second accumulator's initial value is zero at every entry. -/
theorem k0_pay2_apply (j : S1024x1408.Idx) : (k0_pay2 (F := Ideal)) j = 0 := by
  unfold k0_pay2
  refine (congrFun (shapeCast_self _ _) j).trans ?_
  exact Ideal.ofBits_zero_f32

/-- The second accumulator's update at (r, q): its entry plus row r of the activation block times column q of the
    second weight block. -/
theorem k0_pay5_apply (x0 : Vec Ideal S1x1024x512 .f32) (x2 : Vec Ideal S1x512x1408 .f32) (b : Vec Ideal S1024x1408 .f32)
    (r : Fin 1024) (q : Fin 1408) :
    k0_pay5 x0 x2 b (ix2 r q) = b (ix2 r q) + ∑ k : Fin 512, x0 (ix3 (0 : Fin 1) r k) * x2 (ix3 (0 : Fin 1) k q) := by
  unfold k0_pay5 k0_pay3
  refine (congrFun (shapeCast_self _ _) (ix2 r q)).trans ?_
  refine (addf_apply _ _ _).trans ?_
  refine congrArg (b (ix2 r q) + ·) ?_
  refine (payIdx_plain0.matmul_zero_apply_formats none _ _ r q).trans ?_
  refine Finset.sum_congr rfl fun k _ => ?_
  exact congrArg₂ (· * ·) (shapeCast_1ab_ab_apply x0 _ r k) (shapeCast_1ab_ab_apply x2 _ k q)

/-- The second stage's accumulator starts at zero at every entry. -/
theorem k1_pay1_apply (j : S512x1024.Idx) : (k1_pay1 (F := Ideal)) j = 0 := by
  unfold k1_pay1
  refine (congrFun (shapeCast_self _ _) j).trans ?_
  exact Ideal.ofBits_zero_f32

/-- The second stage's accumulator update at (r, q): its entry plus row r of the intermediate block times column q of
    the weight block. -/
theorem k1_pay2_apply (x0 : Vec Ideal S1x512x1408 .bf16) (x1 : Vec Ideal S1x1408x1024 .f32) (a : Vec Ideal S512x1024 .f32)
    (r : Fin 512) (q : Fin 1024) :
    k1_pay2 x0 x1 a (ix2 r q) = a (ix2 r q) + ∑ k : Fin 1408, x0 (ix3 (0 : Fin 1) r k) * x1 (ix3 (0 : Fin 1) k q) := by
  unfold k1_pay2
  refine (congrFun (shapeCast_self _ _) (ix2 r q)).trans ?_
  refine (addf_apply _ _ _).trans ?_
  refine congrArg (a (ix2 r q) + ·) ?_
  refine (payIdx_plain1.matmul_zero_apply_formats none _ _ r q).trans ?_
  refine Finset.sum_congr rfl fun k _ => ?_
  exact congrArg₂ (· * ·) (shapeCast_1ab_ab_apply x0 _ r k) (shapeCast_1ab_ab_apply x1 _ k q)

/-- The second stage's output block at (0, r, q) is the accumulator's entry (r, q). -/
theorem k1_pay3_apply (a : Vec Ideal S512x1024 .f32) (r : Fin 512) (q : Fin 1024) :
    k1_pay3 a (ix3 (0 : Fin 1) r q) = a (ix2 r q) := by
  unfold k1_pay3
  exact shapeCast_ab_1ab_apply _ _ (0 : Fin 1) r q

end Cert.KernelIdeal.Hand

end
-- ==== Proof.LibTileSum.lean ====
/-
  A sum over J consecutive tiles of R entries each is the sum over all J * R entries.

  For `f : ℕ → M` into any additive commutative monoid (the extended reals among them), any tile length `R` and any
  number of tiles `J`:

    `tile_sum` :  Σ_{j < J} Σ_{r : Fin R} f (j * R + r) = Σ_{s : Fin (J * R)} f s.

  This is pure reindexing (the position `s` is `j * R + r` with `j = s / R`, `r = s % R`); no property of the
  summands is used.  `tile_sum_range` is the same with both sides as sums over ranges of naturals, and
  `tile_sum_fin` has the outer sum over `Fin J`.
-/
import Mathlib.Algebra.BigOperators.Fin
import Mathlib.Algebra.BigOperators.Intervals

open scoped BigOperators

namespace Cert.LibTileSum

variable {M : Type*} [AddCommMonoid M]

/-- Both sides over ranges of naturals: Σ_{j < J} Σ_{r < R} f (j * R + r) = Σ_{s < J * R} f s. -/
theorem tile_sum_range (R : ℕ) (f : ℕ → M) (J : ℕ) :
    ∑ j ∈ Finset.range J, ∑ r ∈ Finset.range R, f (j * R + r) = ∑ s ∈ Finset.range (J * R), f s := by
  induction J with
  | zero => simp
  | succ J ih =>
    rw [Finset.sum_range_succ, ih, Nat.succ_mul, Finset.sum_range_add]

/-- A sum over J consecutive tiles of R entries each is the sum over all J * R entries. -/
theorem tile_sum (R : ℕ) (f : ℕ → M) (J : ℕ) :
    (Finset.range J).sum (fun j => ∑ r : Fin R, f (j * R + r.val)) = ∑ s : Fin (J * R), f s.val := by
  rw [Fin.sum_univ_eq_sum_range (fun s => f s) (J * R), ← tile_sum_range R f J]
  refine Finset.sum_congr rfl fun j _ => ?_
  exact Fin.sum_univ_eq_sum_range (fun r => f (j * R + r)) R

/-- The same with the outer sum over `Fin J`. -/
theorem tile_sum_fin (R : ℕ) (f : ℕ → M) (J : ℕ) :
    ∑ j : Fin J, ∑ r : Fin R, f (j.val * R + r.val) = ∑ s : Fin (J * R), f s.val := by
  rw [← tile_sum R f J]
  exact Fin.sum_univ_eq_sum_range (fun j => ∑ r : Fin R, f (j * R + r.val)) J

end Cert.LibTileSum
-- ==== Proof.Spec.lean ====
/-
  The specification: the grouped two-layer perceptron as one function of the three float argument arrays, entry by
  entry, over the extended reals.

  Rows of the activations x : [8192, 2048] come in 8 groups of 1024 consecutive rows; group e uses its own weights
  w1[e] : [2048, 11264] and w2[e] : [5632, 2048]. For row p = e·1024 + r:
      fc1(e, r, f)  = Σ_{h < 2048} x(p, h) · w1(e, h, f)                       f < 11264
      inter(e, r, i) = (a · logistic a) · b,   a = fc1(e, r, i),  b = fc1(e, r, i + 5632)      i < 5632
      out(p, q)     = Σ_{i < 5632} inter(e, r, i) · w2(e, i, q)                q < 2048
  where logistic a = 1 / (1 + exp (−a)) with the extended reals' conventions at the infinities.
-/
import Idealize.ShloMosaic.PureOps.Ideal
import Idealize.ShloMosaic.Lib.ValueIdx

noncomputable section

namespace Cert.Spec

open Idealize.ShloMosaic Idealize.ShloMosaic.ValueIdx

abbrev SX : Shape := ⟨2, ![8192, 2048]⟩
abbrev SW1 : Shape := ⟨3, ![8, 2048, 11264]⟩
abbrev SW2 : Shape := ⟨3, ![8, 5632, 2048]⟩

/-- Row `r` of group `e` among the 8192 rows. -/
def rowOf (e : Fin 8) (r : Fin 1024) : Fin 8192 := ⟨e.val * 1024 + r.val, by have := e.isLt; have := r.isLt; omega⟩
/-- The group of a row, and its position in the group. -/
def grpOf (p : Fin 8192) : Fin 8 := ⟨p.val / 1024, by have := p.isLt; omega⟩
def posOf (p : Fin 8192) : Fin 1024 := ⟨p.val % 1024, Nat.mod_lt _ (by decide)⟩

theorem rowOf_grp_pos (p : Fin 8192) : rowOf (grpOf p) (posOf p) = p :=
  Fin.ext (by simp only [rowOf, grpOf, posOf]; exact Nat.div_add_mod' p.val 1024)
theorem grpOf_rowOf (e : Fin 8) (r : Fin 1024) : grpOf (rowOf e r) = e :=
  Fin.ext (by simp only [rowOf, grpOf]; have := r.isLt; omega)
theorem posOf_rowOf (e : Fin 8) (r : Fin 1024) : posOf (rowOf e r) = r :=
  Fin.ext (by simp only [rowOf, posOf]; have := r.isLt; omega)

/-- The first half and the second half of the first layer's 11264 output columns. -/
def lo (i : Fin 5632) : Fin 11264 := ⟨i.val, by have := i.isLt; omega⟩
def hi (i : Fin 5632) : Fin 11264 := ⟨i.val + 5632, by have := i.isLt; omega⟩

variable (x : FVec Ideal SX .f32) (w1 : FVec Ideal SW1 .f32) (w2 : FVec Ideal SW2 .f32)

/-- The first layer at row `r` of group `e`, column `f`. -/
def fc1 (e : Fin 8) (r : Fin 1024) (f : Fin 11264) : EReal :=
  ∑ h : Fin 2048, x (ix2 (rowOf e r) h) * w1 (ix3 e h f)

/-- The gate: `(a · logistic a) · b`. -/
def gate (a b : EReal) : EReal := a * Ideal.logistic a * b

/-- The gated activations. -/
def inter (e : Fin 8) (r : Fin 1024) (i : Fin 5632) : EReal :=
  gate (fc1 x w1 e r (lo i)) (fc1 x w1 e r (hi i))

/-- The second layer. -/
def outE (e : Fin 8) (r : Fin 1024) (q : Fin 2048) : EReal :=
  ∑ i : Fin 5632, inter x w1 e r i * w2 (ix3 e i q)

/-- The whole result array. -/
def G : FVec Ideal SX .f32 := fun j =>
  outE x w1 w2 (grpOf ⟨(j 0).val, idx2_lt0 j⟩) (posOf ⟨(j 0).val, idx2_lt0 j⟩) ⟨(j 1).val, idx2_lt1 j⟩

theorem G_apply (p : Fin 8192) (q : Fin 2048) : G x w1 w2 (ix2 p q) = outE x w1 w2 (grpOf p) (posOf p) q := rfl

end Cert.Spec

end
-- ==== Proof.KI.Val0.lean ====
/-
  The first stage's output array as one function of the arrays the stage is entered with.

  A grid point t = 16 e + 4 ti + hk reads the block (e, 0, hk) of the activations x : [8, 1024, 2048] and the blocks
  (e, hk, ti) and (e, hk, ti + 4) of the weights w : [8, 2048, 11264]. Entry (0, r, k) of the activation block is
  x(e, r, 512 hk + k), entry (0, k, q) of the two weight blocks is w(e, 512 hk + k, 1408 ti + q) and
  w(e, 512 hk + k, 1408 ti + q + 5632). Over hk = 0, 1, 2, 3 the two accumulators therefore collect, at (r, q), the
  products at the contracted positions 0 … 2047 in four tiles of 512, which is the whole sum over the axis. At hk = 3 the
  block (e, 0, ti) of the output [8, 1024, 5632] is the gate of the two sums; these blocks cover the output, entry
  (e, r, i) lying in the block of the point 16 e + 4 (i / 1408) + 3.
-/
import proofs.«103436_j9328668967830_1_alg».proof.Proof.KI.R0Frame
import proofs.«103436_j9328668967830_1_alg».proof.Proof.KI.Acc
import proofs.«103436_j9328668967830_1_alg».proof.Proof.KI.PayIdx
import proofs.«103436_j9328668967830_1_alg».proof.Proof.LibTileSum
import proofs.«103436_j9328668967830_1_alg».proof.Proof.Spec
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.SL Idealize.SL.RA Idealize.SL.Sem
open Cert.KernelIdeal Cert.KernelIdeal.Gen

variable (V : (c : Dev nD) → (b : Ref sig .tc) → Buf (Elt Ideal) ((c : Thread nD τ).loc b)) (qa qb : PosShare TreeShare)

/-- The block index of every window of the first stage at point t = 16 e + 4 ti + hk. -/
theorem v0_idx : ∀ t : Fin cfg0.N,
    win0_0.index t (0 : Fin 3) = t.val / 16 ∧ win0_0.index t (1 : Fin 3) = 0 ∧ win0_0.index t (2 : Fin 3) = t.val % 4
    ∧ win0_1.index t (0 : Fin 3) = t.val / 16 ∧ win0_1.index t (1 : Fin 3) = t.val % 4 ∧ win0_1.index t (2 : Fin 3) = t.val / 4 % 4
    ∧ win0_2.index t (0 : Fin 3) = t.val / 16 ∧ win0_2.index t (1 : Fin 3) = t.val % 4 ∧ win0_2.index t (2 : Fin 3) = t.val / 4 % 4 + 4
    ∧ win0_3.index t (0 : Fin 3) = t.val / 16 ∧ win0_3.index t (1 : Fin 3) = 0 ∧ win0_3.index t (2 : Fin 3) = t.val / 4 % 4 :=
  (by decide +kernel : ∀ t : Fin grid0.N, _)

/-- The activation block at point t, entry (0, a, b), is the activations' entry (t / 16, a, (t % 4) * 512 + b). -/
theorem v0_blkX (c : Dev nD) (t : Fin cfg0.N) (a : Fin 1024) (b : Fin 512) (e : Fin 8) (h : Fin 2048)
    (he : e.val = t.val / 16) (hh : h.val = t.val % 4 * 512 + b.val) :
    iblk0 V c 0 t (ix3 (0 : Fin 1) a b) = arrX V c (ix3 e a h) := by
  obtain ⟨f0, f1, f2, -⟩ := v0_idx t
  unfold iblk0
  rw [View.read_apply]
  show V c main_v0 _ = V c main_v0 _
  refine congrArg (V c main_v0) ?_
  funext x
  apply Fin.ext
  match x with
  | ⟨0, _⟩ => show win0_0.index t (0 : Fin 3) * 1 + 1 * 0 = e.val; omega
  | ⟨1, _⟩ => show win0_0.index t (1 : Fin 3) * 1024 + 1 * a.val = a.val; omega
  | ⟨2, _⟩ => show win0_0.index t (2 : Fin 3) * 512 + 1 * b.val = h.val; omega

/-- The first weight block at point t, entry (0, a, b), is the weights' entry (t / 16, (t % 4) * 512 + a, (t / 4 % 4) * 1408 + b). -/
theorem v0_blkWa (c : Dev nD) (t : Fin cfg0.N) (a : Fin 512) (b : Fin 1408) (e : Fin 8) (h : Fin 2048) (f : Fin 11264)
    (he : e.val = t.val / 16) (hh : h.val = t.val % 4 * 512 + a.val) (hf : f.val = t.val / 4 % 4 * 1408 + b.val) :
    iblk0 V c 1 t (ix3 (0 : Fin 1) a b) = arrW1 V c (ix3 e h f) := by
  obtain ⟨-, -, -, f0, f1, f2, -⟩ := v0_idx t
  unfold iblk0
  rw [View.read_apply]
  show V c main_arg1 _ = V c main_arg1 _
  refine congrArg (V c main_arg1) ?_
  funext x
  apply Fin.ext
  match x with
  | ⟨0, _⟩ => show win0_1.index t (0 : Fin 3) * 1 + 1 * 0 = e.val; omega
  | ⟨1, _⟩ => show win0_1.index t (1 : Fin 3) * 512 + 1 * a.val = h.val; omega
  | ⟨2, _⟩ => show win0_1.index t (2 : Fin 3) * 1408 + 1 * b.val = f.val; omega

/-- The second weight block at point t, entry (0, a, b), is the weights' entry
    (t / 16, (t % 4) * 512 + a, (t / 4 % 4 + 4) * 1408 + b). -/
theorem v0_blkWb (c : Dev nD) (t : Fin cfg0.N) (a : Fin 512) (b : Fin 1408) (e : Fin 8) (h : Fin 2048) (f : Fin 11264)
    (he : e.val = t.val / 16) (hh : h.val = t.val % 4 * 512 + a.val) (hf : f.val = (t.val / 4 % 4 + 4) * 1408 + b.val) :
    iblk0 V c 2 t (ix3 (0 : Fin 1) a b) = arrW1 V c (ix3 e h f) := by
  obtain ⟨-, -, -, -, -, -, f0, f1, f2, -⟩ := v0_idx t
  unfold iblk0
  rw [View.read_apply]
  show V c main_arg1 _ = V c main_arg1 _
  refine congrArg (V c main_arg1) ?_
  funext x
  apply Fin.ext
  match x with
  | ⟨0, _⟩ => show win0_2.index t (0 : Fin 3) * 1 + 1 * 0 = e.val; omega
  | ⟨1, _⟩ => show win0_2.index t (1 : Fin 3) * 512 + 1 * a.val = h.val; omega
  | ⟨2, _⟩ => show win0_2.index t (2 : Fin 3) * 1408 + 1 * b.val = f.val; omega

/-- One product x(e, r, h) · w(e, h, f) as a function of the contracted position h taken as a natural number
    (zero past the end of the axis). -/
def v0_term (c : Dev nD) (e : Fin 8) (r : Fin 1024) (f : Fin 11264) (h : ℕ) : EReal :=
  if hh : h < 2048 then arrX V c (ix3 e r ⟨h, hh⟩) * arrW1 V c (ix3 e ⟨h, hh⟩ f) else 0

/-- Row r of the activation block times column q of the first weight block at point t: the products at the
    contracted positions (t % 4) * 512 + k, k < 512. -/
theorem v0_prodA (c : Dev nD) (t : Fin cfg0.N) (r : Fin 1024) (q : Fin 1408) (e : Fin 8) (f : Fin 11264)
    (he : e.val = t.val / 16) (hf : f.val = t.val / 4 % 4 * 1408 + q.val)
    (x0 : Vec Ideal S1x1024x512 .f32) (x1 : Vec Ideal S1x512x1408 .f32) (h0 : x0 = iblk0 V c 0 t) (h1 : x1 = iblk0 V c 1 t) :
    ∑ k : Fin 512, x0 (ix3 (0 : Fin 1) r k) * x1 (ix3 (0 : Fin 1) k q)
      = ∑ k : Fin 512, v0_term V c e r f (t.val % 4 * 512 + k.val) := by
  subst h0 h1
  refine Finset.sum_congr rfl fun k _ => ?_
  have hk : t.val % 4 * 512 + k.val < 2048 := by have := k.isLt; omega
  unfold v0_term
  rw [dif_pos hk]
  exact congrArg₂ (· * ·) (v0_blkX V c t r k e ⟨_, hk⟩ he rfl) (v0_blkWa V c t k q e ⟨_, hk⟩ f he rfl hf)

/-- The same for the second weight block, whose columns are 4 blocks further along the weights' last axis. -/
theorem v0_prodB (c : Dev nD) (t : Fin cfg0.N) (r : Fin 1024) (q : Fin 1408) (e : Fin 8) (f : Fin 11264)
    (he : e.val = t.val / 16) (hf : f.val = (t.val / 4 % 4 + 4) * 1408 + q.val)
    (x0 : Vec Ideal S1x1024x512 .f32) (x2 : Vec Ideal S1x512x1408 .f32) (h0 : x0 = iblk0 V c 0 t) (h2 : x2 = iblk0 V c 2 t) :
    ∑ k : Fin 512, x0 (ix3 (0 : Fin 1) r k) * x2 (ix3 (0 : Fin 1) k q)
      = ∑ k : Fin 512, v0_term V c e r f (t.val % 4 * 512 + k.val) := by
  subst h0 h2
  refine Finset.sum_congr rfl fun k _ => ?_
  have hk : t.val % 4 * 512 + k.val < 2048 := by have := k.isLt; omega
  unfold v0_term
  rw [dif_pos hk]
  exact congrArg₂ (· * ·) (v0_blkX V c t r k e ⟨_, hk⟩ he rfl) (v0_blkWb V c t k q e ⟨_, hk⟩ f he rfl hf)

/-- The first accumulator after the point t with t % 4 = j, at (r, q): the products over the first j + 1 tiles of 512
    contracted positions. -/
theorem v0_accA (c : Dev nD) (r : Fin 1024) (q : Fin 1408) : ∀ (j : ℕ), j < 4 → ∀ (t : Fin cfg0.N), t.val % 4 = j →
    ∀ (e : Fin 8) (f : Fin 11264), e.val = t.val / 16 → f.val = t.val / 4 % 4 * 1408 + q.val →
    (accs0 V c t.val t.isLt).1 (ix2 r q) = ∑ s ∈ Finset.range (j + 1), ∑ k : Fin 512, v0_term V c e r f (s * 512 + k.val)
  | 0, _, t, ht, e, f, he, hf => by
    rw [accs0_first V c t ht]
    refine (k0_pay4_apply (iblk0 V c 0 t) (iblk0 V c 1 t) (k0_pay1 (F := Ideal)) r q).trans ?_
    rw [k0_pay1_apply, zero_add, Finset.sum_range_one, v0_prodA V c t r q e f he hf (iblk0 V c 0 t) (iblk0 V c 1 t) rfl rfl, ht]
  | j + 1, hj, t, ht, e, f, he, hf => by
    have hne : ¬ t.val % 4 = 0 := by omega
    have hN : cfg0.N = 128 := N_0
    have hlt : t.val - 1 < cfg0.N := by have := t.isLt; omega
    have ih := v0_accA c r q j (by omega) ⟨t.val - 1, hlt⟩ (by show (t.val - 1) % 4 = j; omega) e f
      (by show e.val = (t.val - 1) / 16; omega) (by show f.val = (t.val - 1) / 4 % 4 * 1408 + q.val; omega)
    rw [accs0_step V c t hne]
    refine (k0_pay4_apply (iblk0 V c 0 t) (iblk0 V c 1 t) (accs0 V c (t.val - 1) _).1 r q).trans ?_
    rw [Finset.sum_range_succ, v0_prodA V c t r q e f he hf (iblk0 V c 0 t) (iblk0 V c 1 t) rfl rfl, ht]
    exact congrArg (· + _) ih

/-- The second accumulator likewise, over the second weight block's columns. -/
theorem v0_accB (c : Dev nD) (r : Fin 1024) (q : Fin 1408) : ∀ (j : ℕ), j < 4 → ∀ (t : Fin cfg0.N), t.val % 4 = j →
    ∀ (e : Fin 8) (f : Fin 11264), e.val = t.val / 16 → f.val = (t.val / 4 % 4 + 4) * 1408 + q.val →
    (accs0 V c t.val t.isLt).2 (ix2 r q) = ∑ s ∈ Finset.range (j + 1), ∑ k : Fin 512, v0_term V c e r f (s * 512 + k.val)
  | 0, _, t, ht, e, f, he, hf => by
    rw [accs0_first V c t ht]
    refine (k0_pay5_apply (iblk0 V c 0 t) (iblk0 V c 2 t) (k0_pay2 (F := Ideal)) r q).trans ?_
    rw [k0_pay2_apply, zero_add, Finset.sum_range_one, v0_prodB V c t r q e f he hf (iblk0 V c 0 t) (iblk0 V c 2 t) rfl rfl, ht]
  | j + 1, hj, t, ht, e, f, he, hf => by
    have hne : ¬ t.val % 4 = 0 := by omega
    have hN : cfg0.N = 128 := N_0
    have hlt : t.val - 1 < cfg0.N := by have := t.isLt; omega
    have ih := v0_accB c r q j (by omega) ⟨t.val - 1, hlt⟩ (by show (t.val - 1) % 4 = j; omega) e f
      (by show e.val = (t.val - 1) / 16; omega) (by show f.val = ((t.val - 1) / 4 % 4 + 4) * 1408 + q.val; omega)
    rw [accs0_step V c t hne]
    refine (k0_pay5_apply (iblk0 V c 0 t) (iblk0 V c 2 t) (accs0 V c (t.val - 1) _).2 r q).trans ?_
    rw [Finset.sum_range_succ, v0_prodB V c t r q e f he hf (iblk0 V c 0 t) (iblk0 V c 2 t) rfl rfl, ht]
    exact congrArg (· + _) ih

/-- Four tiles of 512 contracted positions are the whole axis of 2048. -/
theorem v0_tiles (c : Dev nD) (e : Fin 8) (r : Fin 1024) (f : Fin 11264) :
    ∑ s ∈ Finset.range (3 + 1), ∑ k : Fin 512, v0_term V c e r f (s * 512 + k.val)
      = ∑ h : Fin 2048, arrX V c (ix3 e r h) * arrW1 V c (ix3 e h f) := by
  refine (Cert.LibTileSum.tile_sum 512 (v0_term V c e r f) 4).trans ?_
  show ∑ h : Fin 2048, v0_term V c e r f h.val = _
  refine Finset.sum_congr rfl fun h _ => ?_
  unfold v0_term
  rw [dif_pos h.isLt]

/-- The gated output block at a point t with t % 4 = 3, entry (0, r, q): the gate of the two whole row-times-column
    sums, at the columns i and i + 5632 of the weights with i = (t / 4 % 4) * 1408 + q. -/
theorem v0_out_apply (c : Dev nD) (t : Fin cfg0.N) (ht : t.val % 4 = 3) (r : Fin 1024) (q : Fin 1408) (e : Fin 8) (i : Fin 5632)
    (he : e.val = t.val / 16) (hi : i.val = t.val / 4 % 4 * 1408 + q.val) :
    outv0 V c t (ix3 (0 : Fin 1) r q)
      = Cert.Spec.gate (∑ h : Fin 2048, arrX V c (ix3 e r h) * arrW1 V c (ix3 e h (Cert.Spec.lo i)))
                       (∑ h : Fin 2048, arrX V c (ix3 e r h) * arrW1 V c (ix3 e h (Cert.Spec.hi i))) := by
  unfold outv0
  refine (k0_pay6_apply (accs0 V c t.val t.isLt).1 (accs0 V c t.val t.isLt).2 r q).trans ?_
  rw [v0_accA V c r q 3 (by omega) t ht e (Cert.Spec.lo i) he (by show i.val = _; exact hi),
    v0_accB V c r q 3 (by omega) t ht e (Cert.Spec.hi i) he (by show i.val + 5632 = _; omega),
    v0_tiles, v0_tiles]
  rfl

theorem v0_lt0 {n0 n1 n2 : Nat} (j : (⟨3, ![n0, n1, n2]⟩ : Shape).Idx) : (j 0).val < n0 := (j 0).isLt
theorem v0_lt1 {n0 n1 n2 : Nat} (j : (⟨3, ![n0, n1, n2]⟩ : Shape).Idx) : (j 1).val < n1 := (j 1).isLt
theorem v0_lt2 {n0 n1 n2 : Nat} (j : (⟨3, ![n0, n1, n2]⟩ : Shape).Idx) : (j 2).val < n2 := (j 2).isLt

/-- The gated activations as one function of the arrays the region is entered with. -/
def v0_G (c : Dev nD) : FVec Ideal S8x1024x5632 .bf16 := fun k =>
  Cert.Spec.gate
    (∑ h : Fin 2048, arrX V c (ix3 (⟨(k 0).val, v0_lt0 k⟩ : Fin 8) (⟨(k 1).val, v0_lt1 k⟩ : Fin 1024) h)
      * arrW1 V c (ix3 (⟨(k 0).val, v0_lt0 k⟩ : Fin 8) h (Cert.Spec.lo ⟨(k 2).val, v0_lt2 k⟩)))
    (∑ h : Fin 2048, arrX V c (ix3 (⟨(k 0).val, v0_lt0 k⟩ : Fin 8) (⟨(k 1).val, v0_lt1 k⟩ : Fin 1024) h)
      * arrW1 V c (ix3 (⟨(k 0).val, v0_lt0 k⟩ : Fin 8) h (Cert.Spec.hi ⟨(k 2).val, v0_lt2 k⟩)))

/-- The output block's entry (0, r, q) at a storing point t is that function at the array position the block's entry
    sits at: (t / 16, r, (t / 4 % 4) * 1408 + q). -/
theorem v0_out_eq_G (c : Dev nD) (t : Fin cfg0.N) (ht : t.val % 4 = 3) (r : Fin 1024) (q : Fin 1408) (k : S8x1024x5632.Idx)
    (h0 : (k 0).val = t.val / 16) (h1 : (k 1).val = r.val) (h2 : (k 2).val = t.val / 4 % 4 * 1408 + q.val) :
    outv0 V c t (ix3 (0 : Fin 1) r q) = v0_G V c k := by
  obtain rfl : r = ⟨(k 1).val, v0_lt1 k⟩ := Fin.ext h1.symm
  exact v0_out_apply V c t ht _ q ⟨(k 0).val, v0_lt0 k⟩ ⟨(k 2).val, v0_lt2 k⟩ h0 h2

/-- What a storing point writes back is its block of the one function `v0_G`. -/
theorem v0_flushed_eq (c : Dev nD) (t : Fin cfg0.N) (hf : (cfg0.win 3).flush t = true) :
    (dat0 V qa qb c).flushed 3 t = ((cfg0.win 3).blk t).view.read (Elt Ideal) (v0_G V c) := by
  have ht : t.val % 4 = 3 := (flush0_3 t).mp hf
  obtain ⟨-, -, -, -, -, -, -, -, -, f0, f1, f2⟩ := v0_idx t
  show (cfg0.win 3).cut (grid0.coords t) ((dat0 V qa qb c).after 3 t) = _
  rw [after0_3]
  funext y
  rw [View.read_apply]
  obtain ⟨u, r, q, rfl⟩ : ∃ (u : Fin 1) (r : Fin 1024) (q : Fin 1408), y = ix3 u r q := ⟨y 0, y 1, y 2, eq_ix3 y⟩
  obtain rfl : u = 0 := Subsingleton.elim _ _
  show outv0 V c t (ix3 (0 : Fin 1) r q) = v0_G V c (((cfg0.win 3).blk t).view.emb (ix3 (0 : Fin 1) r q))
  refine v0_out_eq_G V c t ht r q _ ?_ ?_ ?_
  · show win0_3.index t (0 : Fin 3) * 1 + 1 * 0 = t.val / 16; omega
  · show win0_3.index t (1 : Fin 3) * 1024 + 1 * r.val = r.val; omega
  · show win0_3.index t (2 : Fin 3) * 1408 + 1 * q.val = t.val / 4 % 4 * 1408 + q.val; omega

/-- The first stage's output array after the run, at (e, r, i): the gate of row r of group e of the activations
    times columns i and i + 5632 of that group's first weight matrix. -/
theorem arrAt0_out_apply (c : Dev nD) (e : Fin 8) (r : Fin 1024) (i : Fin 5632) :
    (dat0 V qa qb c).arrAt 3 cfg0.N (ix3 e r i)
      = Cert.Spec.gate (∑ h : Fin 2048, arrX V c (ix3 e r h) * arrW1 V c (ix3 e h (Cert.Spec.lo i)))
                       (∑ h : Fin 2048, arrX V c (ix3 e r h) * arrW1 V c (ix3 e h (Cert.Spec.hi i))) := by
  have hN : cfg0.N = 128 := N_0
  have he : e.val < 8 := e.isLt
  have hr : r.val < 1024 := r.isLt
  have hi : i.val < 5632 := i.isLt
  obtain ⟨t, htv⟩ : ∃ t : Fin cfg0.N, t.val = 16 * e.val + 4 * (i.val / 1408) + 3 := ⟨⟨_, by omega⟩, rfl⟩
  obtain ⟨-, -, -, -, -, -, -, -, -, f0, f1, f2⟩ := v0_idx t
  refine ((dat0 V qa qb c).arrAt_apply_of_mem 3 (v0_G V c) (v0_flushed_eq V qa qb c) cfg0.N t (ix3 e r i) t.isLt
    ((flush0_3 t).mpr (by omega)) ?_).trans rfl
  show ix3 e r i ∈ ((View.whole main_v1).slice (win0_3.rect t)).set
  rw [View.set_slice_whole, Rect.mem_set_unit]
  intro a
  match a with
  | ⟨0, _⟩ => show win0_3.index t (0 : Fin 3) * 1 ≤ e.val ∧ e.val < win0_3.index t (0 : Fin 3) * 1 + 1; omega
  | ⟨1, _⟩ => show win0_3.index t (1 : Fin 3) * 1024 ≤ r.val ∧ r.val < win0_3.index t (1 : Fin 3) * 1024 + 1024; omega
  | ⟨2, _⟩ => show win0_3.index t (2 : Fin 3) * 1408 ≤ i.val ∧ i.val < win0_3.index t (2 : Fin 3) * 1408 + 1408; omega

end Cert.KernelIdeal.Hand
end
-- ==== Proof.KI.Val1.lean ====
/-
  Region 1's output array, entry by entry, as a function of the contents the region is entered with.

  A grid point t = 16·e + 8·tm + 4·tn + ik reads rows tm·512 … tm·512 + 511 and columns ik·1408 … ik·1408 + 1407 of
  group e of the gated activations, and rows ik·1408 … and columns tn·1024 … of group e of the second weight array. Over
  the four points ik = 0, 1, 2, 3 of a run the accumulator collects, at (a, q), the four consecutive tiles of the
  products over the contracted axis, that is the whole sum Σ_{i < 5632}; the point ik = 3 writes it back to rows
  tm·512 …, columns tn·1024 … of group e of the result. Every entry (e, r, q) of the result lies in the block written
  by the point 16·e + 8·(r / 512) + 4·(q / 1024) + 3.
-/
import proofs.«103436_j9328668967830_1_alg».proof.Proof.KI.R1Frame
import proofs.«103436_j9328668967830_1_alg».proof.Proof.KI.Acc
import proofs.«103436_j9328668967830_1_alg».proof.Proof.KI.PayIdx
import proofs.«103436_j9328668967830_1_alg».proof.Proof.LibTileSum
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.SL Idealize.SL.RA Idealize.SL.Sem
open Cert.KernelIdeal Cert.KernelIdeal.Gen

variable (V : (c : Dev nD) → (b : Ref sig .tc) → Buf (Elt Ideal) ((c : Thread nD τ).loc b))

/-! ## The windows' block indices, and the input blocks read at an entry -/

/-- The block index of each of the region's three windows at grid point `t`, on each axis. -/
theorem v1_idx : ∀ t : Fin cfg1.N,
    win1_0.index t (0 : Fin 3) = t.val / 16 ∧ win1_0.index t (1 : Fin 3) = t.val / 8 % 2 ∧ win1_0.index t (2 : Fin 3) = t.val % 4
    ∧ win1_1.index t (0 : Fin 3) = t.val / 16 ∧ win1_1.index t (1 : Fin 3) = t.val % 4 ∧ win1_1.index t (2 : Fin 3) = t.val / 4 % 2
    ∧ win1_2.index t (0 : Fin 3) = t.val / 16 ∧ win1_2.index t (1 : Fin 3) = t.val / 8 % 2 ∧ win1_2.index t (2 : Fin 3) = t.val / 4 % 2 :=
  (by decide +kernel : ∀ t : Fin grid1.N, _)

/-- The gated activations' block at point `t`, as an array of extended reals. -/
abbrev v1_blkI (c : Dev nD) (t : Fin cfg1.N) : FVec Ideal S1x512x1408 .bf16 := iblk1 V c 0 t
/-- The second weight array's block at point `t`. -/
abbrev v1_blkW (c : Dev nD) (t : Fin cfg1.N) : FVec Ideal S1x1408x1024 .f32 := iblk1 V c 1 t

/-- Entry `(0, a, k)` of the activations' block at `t` is the array's entry in group `t / 16`, row
    `(t / 8 % 2) · 512 + a`, column `(t % 4) · 1408 + k`. -/
theorem v1_blkI_apply (c : Dev nD) (t : Fin cfg1.N) (a : Fin 512) (k : Fin 1408)
    (e : Fin 8) (r : Fin 1024) (i : Fin 5632)
    (he : e.val = t.val / 16) (hr : r.val = t.val / 8 % 2 * 512 + a.val) (hi : i.val = t.val % 4 * 1408 + k.val) :
    v1_blkI V c t (ix3 (0 : Fin 1) a k) = arrI V c (ix3 e r i) := by
  obtain ⟨h0, h1, h2, -⟩ := v1_idx t
  unfold v1_blkI iblk1
  rw [View.read_apply]
  show V c main_v1 _ = V c main_v1 _
  congr 1
  funext ax
  apply Fin.ext
  match ax with
  | ⟨0, _⟩ => show win1_0.index t (0 : Fin 3) * 1 + 1 * 0 = e.val; omega
  | ⟨1, _⟩ => show win1_0.index t (1 : Fin 3) * 512 + 1 * a.val = r.val; omega
  | ⟨2, _⟩ => show win1_0.index t (2 : Fin 3) * 1408 + 1 * k.val = i.val; omega

/-- Entry `(0, k, q)` of the weights' block at `t` is the array's entry in group `t / 16`, row `(t % 4) · 1408 + k`,
    column `(t / 4 % 2) · 1024 + q`. -/
theorem v1_blkW_apply (c : Dev nD) (t : Fin cfg1.N) (k : Fin 1408) (q : Fin 1024)
    (e : Fin 8) (i : Fin 5632) (q' : Fin 2048)
    (he : e.val = t.val / 16) (hi : i.val = t.val % 4 * 1408 + k.val) (hq : q'.val = t.val / 4 % 2 * 1024 + q.val) :
    v1_blkW V c t (ix3 (0 : Fin 1) k q) = arrW2 V c (ix3 e i q') := by
  obtain ⟨-, -, -, h0, h1, h2, -⟩ := v1_idx t
  unfold v1_blkW iblk1
  rw [View.read_apply]
  show V c main_arg2 _ = V c main_arg2 _
  congr 1
  funext ax
  apply Fin.ext
  match ax with
  | ⟨0, _⟩ => show win1_1.index t (0 : Fin 3) * 1 + 1 * 0 = e.val; omega
  | ⟨1, _⟩ => show win1_1.index t (1 : Fin 3) * 1408 + 1 * k.val = i.val; omega
  | ⟨2, _⟩ => show win1_1.index t (2 : Fin 3) * 1024 + 1 * q.val = q'.val; omega

/-! ## The accumulator over a run of four points -/

/-- The product's summand at contracted position `i`, as a function of every natural number (zero past the extent). -/
def v1_term (A : FVec Ideal S8x1024x5632 .bf16) (B : FVec Ideal S8x5632x2048 .f32) (e : Fin 8) (r : Fin 1024) (q : Fin 2048)
    (i : ℕ) : EReal :=
  if h : i < 5632 then A (ix3 e r ⟨i, h⟩) * B (ix3 e ⟨i, h⟩ q) else 0

/-- The sum of the summands over the naturals below 4 · 1408 is the whole sum over the contracted axis. -/
theorem v1_sum_term (A : FVec Ideal S8x1024x5632 .bf16) (B : FVec Ideal S8x5632x2048 .f32) (e : Fin 8) (r : Fin 1024) (q : Fin 2048) :
    ∑ i : Fin (4 * 1408), v1_term A B e r q i.val = ∑ i : Fin 5632, A (ix3 e r i) * B (ix3 e i q) := by
  show ∑ i : Fin 5632, v1_term A B e r q i.val = _
  refine Finset.sum_congr rfl fun i _ => ?_
  unfold v1_term
  rw [dif_pos i.isLt]

/-- One grid point's block product at `(a, q)` is the tile of the summands that the point's position on the last
    grid axis selects. -/
theorem v1_blockprod (c : Dev nD) (t : Fin cfg1.N) (a : Fin 512) (q : Fin 1024)
    (e : Fin 8) (r : Fin 1024) (q' : Fin 2048)
    (he : e.val = t.val / 16) (hr : r.val = t.val / 8 % 2 * 512 + a.val) (hq : q'.val = t.val / 4 % 2 * 1024 + q.val) :
    ∑ k : Fin 1408, v1_blkI V c t (ix3 (0 : Fin 1) a k) * v1_blkW V c t (ix3 (0 : Fin 1) k q)
      = ∑ k : Fin 1408, v1_term (arrI V c) (arrW2 V c) e r q' (t.val % 4 * 1408 + k.val) := by
  refine Finset.sum_congr rfl fun k _ => ?_
  have hk := k.isLt
  have hlt : t.val % 4 * 1408 + k.val < 5632 := by omega
  unfold v1_term
  rw [dif_pos hlt]
  exact congrArg₂ (· * ·) (v1_blkI_apply V c t a k e r ⟨_, hlt⟩ he hr rfl) (v1_blkW_apply V c t k q e ⟨_, hlt⟩ q' he rfl hq)

/-- The accumulator after the point at offset `j` of a run of four points starting at `b`: the first `j + 1` tiles of
    the summands. -/
theorem v1_acc_apply (c : Dev nD) (b : ℕ) (hb : b % 4 = 0) (a : Fin 512) (q : Fin 1024)
    (e : Fin 8) (r : Fin 1024) (q' : Fin 2048)
    (he : e.val = b / 16) (hr : r.val = b / 8 % 2 * 512 + a.val) (hq : q'.val = b / 4 % 2 * 1024 + q.val) :
    ∀ (j : ℕ) (hj : j < 4) (h : b + j < cfg1.N),
      acc1 V c (b + j) h (ix2 a q)
        = ∑ s ∈ Finset.range (j + 1), ∑ k : Fin 1408, v1_term (arrI V c) (arrW2 V c) e r q' (s * 1408 + k.val)
  | 0, _, h => by
    have h0 : (⟨b + 0, h⟩ : Fin cfg1.N).val % 4 = 0 := hb
    refine (congrFun (acc1_first V c ⟨b + 0, h⟩ h0) (ix2 a q)).trans ?_
    refine (k1_pay2_apply (v1_blkI V c ⟨b + 0, h⟩) (v1_blkW V c ⟨b + 0, h⟩) (k1_pay1 (F := Ideal)) a q).trans ?_
    rw [k1_pay1_apply, zero_add, Finset.sum_range_one,
      v1_blockprod V c ⟨b + 0, h⟩ a q e r q' (by show e.val = (b + 0) / 16; omega) (by show r.val = (b + 0) / 8 % 2 * 512 + a.val; omega)
        (by show q'.val = (b + 0) / 4 % 2 * 1024 + q.val; omega)]
    refine Finset.sum_congr rfl fun k _ => ?_
    refine congrArg (v1_term (arrI V c) (arrW2 V c) e r q') ?_
    show (b + 0) % 4 * 1408 + k.val = 0 * 1408 + k.val
    omega
  | j + 1, hj, h => by
    have hne : ¬ (⟨b + (j + 1), h⟩ : Fin cfg1.N).val % 4 = 0 := by show ¬ (b + (j + 1)) % 4 = 0; omega
    refine (congrFun (acc1_step V c ⟨b + (j + 1), h⟩ hne) (ix2 a q)).trans ?_
    refine (k1_pay2_apply (v1_blkI V c ⟨b + (j + 1), h⟩) (v1_blkW V c ⟨b + (j + 1), h⟩) _ a q).trans ?_
    rw [Finset.sum_range_succ _ (j + 1), ← v1_acc_apply c b hb a q e r q' he hr hq j (by omega) (Nat.lt_of_succ_lt h),
      v1_blockprod V c ⟨b + (j + 1), h⟩ a q e r q' (by show e.val = (b + (j + 1)) / 16; omega)
        (by show r.val = (b + (j + 1)) / 8 % 2 * 512 + a.val; omega) (by show q'.val = (b + (j + 1)) / 4 % 2 * 1024 + q.val; omega)]
    refine congrArg₂ (· + ·) rfl ?_
    refine Finset.sum_congr rfl fun k _ => ?_
    refine congrArg (v1_term (arrI V c) (arrW2 V c) e r q') ?_
    show (b + (j + 1)) % 4 * 1408 + k.val = (j + 1) * 1408 + k.val
    have : (b + (j + 1)) % 4 = j + 1 := by omega
    rw [this]

/-! ## The block a point writes back, and the array after the run -/

/-- What the array ends holding: at `(e, r, q)` the sum over the contracted axis of the products. -/
def v1_G (c : Dev nD) : FVec Ideal S8x1024x2048 .f32 := fun j =>
  ∑ i : Fin 5632, arrI V c (ix3 (⟨(j 0).val, (j 0).isLt⟩ : Fin 8) (⟨(j 1).val, (j 1).isLt⟩ : Fin 1024) i)
    * arrW2 V c (ix3 (⟨(j 0).val, (j 0).isLt⟩ : Fin 8) i (⟨(j 2).val, (j 2).isLt⟩ : Fin 2048))

theorem v1_G_apply (c : Dev nD) (e : Fin 8) (r : Fin 1024) (q : Fin 2048) :
    v1_G V c (ix3 e r q) = ∑ i : Fin 5632, arrI V c (ix3 e r i) * arrW2 V c (ix3 e i q) := rfl

/-- The output block at the last point `t` of a run, entry `(0, a, q)`: the whole sum at the entry of the result that
    the block's position names. -/
theorem v1_outv_apply (c : Dev nD) (t : Fin cfg1.N) (h3 : t.val % 4 = 3) (a : Fin 512) (q : Fin 1024)
    (e : Fin 8) (r : Fin 1024) (q' : Fin 2048)
    (he : e.val = t.val / 16) (hr : r.val = t.val / 8 % 2 * 512 + a.val) (hq : q'.val = t.val / 4 % 2 * 1024 + q.val) :
    outv1 V c t (ix3 (0 : Fin 1) a q) = ∑ i : Fin 5632, arrI V c (ix3 e r i) * arrW2 V c (ix3 e i q') := by
  unfold outv1
  refine (k1_pay3_apply (acc1 V c t.val t.isLt) a q).trans ?_
  have hN : cfg1.N = 128 := N_1
  have ht := t.isLt
  have hb : (t.val - 3) % 4 = 0 := by omega
  have hsum : t.val - 3 + 3 = t.val := by omega
  have hlt : t.val - 3 + 3 < cfg1.N := by omega
  have key := v1_acc_apply V c (t.val - 3) hb a q e r q' (by omega) (by omega) (by omega) 3 (by omega) hlt
  have same : ∀ (n : ℕ) (hn : n < cfg1.N), n = t.val → acc1 V c n hn = acc1 V c t.val t.isLt := fun n hn en => by subst en; rfl
  refine (congrFun (same _ hlt hsum).symm (ix2 a q)).trans (key.trans ?_)
  refine (Cert.LibTileSum.tile_sum 1408 (v1_term (arrI V c) (arrW2 V c) e r q') 4).trans ?_
  exact v1_sum_term (arrI V c) (arrW2 V c) e r q'

/-- The same with the entry of the result given as an index whose coordinates are the block's position plus the
    entry's position in the block. -/
theorem v1_outv_eq_G (c : Dev nD) (t : Fin cfg1.N) (h3 : t.val % 4 = 3) (a : Fin 512) (q : Fin 1024) (j : S8x1024x2048.Idx)
    (he : (j 0).val = t.val / 16) (hr : (j 1).val = t.val / 8 % 2 * 512 + a.val) (hq : (j 2).val = t.val / 4 % 2 * 1024 + q.val) :
    outv1 V c t (ix3 (0 : Fin 1) a q) = v1_G V c j :=
  v1_outv_apply V c t h3 a q ⟨(j 0).val, (j 0).isLt⟩ ⟨(j 1).val, (j 1).isLt⟩ ⟨(j 2).val, (j 2).isLt⟩ he hr hq

/-- What a point that writes its block back writes is its block of `v1_G`. -/
theorem v1_flushed_eq (c : Dev nD) (t : Fin cfg1.N) (hf : (cfg1.win 2).flush t = true) :
    (dat1 V c).flushed 2 t = ((cfg1.win 2).blk t).view.read (Elt Ideal) (v1_G V c) := by
  have h3 : t.val % 4 = 3 := (flush1_2 t).mp hf
  obtain ⟨-, -, -, -, -, -, h0, h1, h2⟩ := v1_idx t
  show (cfg1.win 2).cut (grid1.coords t) ((dat1 V c).after 2 t) = _
  rw [after1_2]
  funext y
  rw [View.read_apply]
  have hy0 : (y 0).val < 1 := (y 0).isLt
  have hy1 : (y 1).val < 512 := (y 1).isLt
  have hy2 : (y 2).val < 1024 := (y 2).isLt
  show outv1 V c t ((cfg1.win 2).xinj (grid1.coords t) y) = v1_G V c (((cfg1.win 2).blk t).view.emb y)
  have hx : (cfg1.win 2).xinj (grid1.coords t) y = ix3 (0 : Fin 1) (⟨(y 1).val, hy1⟩ : Fin 512) (⟨(y 2).val, hy2⟩ : Fin 1024) := by
    funext ax
    apply Fin.ext
    match ax with
    | ⟨0, _⟩ => show (y 0).val = 0; omega
    | ⟨1, _⟩ => rfl
    | ⟨2, _⟩ => rfl
  have he : (((cfg1.win 2).blk t).view.emb y (0 : Fin 3)).val = t.val / 16 := by
    show win1_2.index t (0 : Fin 3) * 1 + 1 * (y 0).val = _; omega
  have hr : (((cfg1.win 2).blk t).view.emb y (1 : Fin 3)).val = t.val / 8 % 2 * 512 + (y 1).val := by
    show win1_2.index t (1 : Fin 3) * 512 + 1 * (y 1).val = _; omega
  have hq : (((cfg1.win 2).blk t).view.emb y (2 : Fin 3)).val = t.val / 4 % 2 * 1024 + (y 2).val := by
    show win1_2.index t (2 : Fin 3) * 1024 + 1 * (y 2).val = _; omega
  refine (congrArg (outv1 V c t) hx).trans ?_
  exact v1_outv_eq_G V c t h3 ⟨(y 1).val, hy1⟩ ⟨(y 2).val, hy2⟩ (((cfg1.win 2).blk t).view.emb y) he hr hq

/-- An entry of the result is in point `t`'s block iff each coordinate is in the block's range on its axis. -/
theorem v1_mem_blk (t : Fin cfg1.N) (i : S8x1024x2048.Idx) :
    i ∈ ((cfg1.win 2).blk t).view.set ↔ ∀ a : Fin 3, win1_2.index t a * S1x512x1024.size a ≤ (i a).val ∧ (i a).val < win1_2.index t a * S1x512x1024.size a + S1x512x1024.size a := by
  show i ∈ ((View.whole main_v2).slice (win1_2.rect t)).set ↔ _
  rw [View.set_slice_whole, Rect.mem_set_unit]
  exact Iff.rfl

/-- REGION 1'S RESULT at `(e, r, q)`: the sum over the contracted axis of the gated activations' row `r` of group `e`
    times the second weight array's column `q` of group `e`, both as the region finds them. -/
theorem arrAt1_out_apply (c : Dev nD) (e : Fin 8) (r : Fin 1024) (q : Fin 2048) :
    (dat1 V c).arrAt 2 cfg1.N (ix3 e r q) = ∑ i : Fin 5632, arrI V c (ix3 e r i) * arrW2 V c (ix3 e i q) := by
  have hN : cfg1.N = 128 := N_1
  have he := e.isLt
  have hr := r.isLt
  have hq := q.isLt
  obtain ⟨t, ht⟩ : ∃ t : Fin cfg1.N, t.val = 16 * e.val + 8 * (r.val / 512) + 4 * (q.val / 1024) + 3 :=
    ⟨⟨16 * e.val + 8 * (r.val / 512) + 4 * (q.val / 1024) + 3, by omega⟩, rfl⟩
  have hfl : (cfg1.win 2).flush t = true := (flush1_2 t).mpr (by omega)
  obtain ⟨-, -, -, -, -, -, h0, h1, h2⟩ := v1_idx t
  have hmem : (ix3 e r q : S8x1024x2048.Idx) ∈ ((cfg1.win 2).blk t).view.set := by
    rw [v1_mem_blk]
    intro ax
    match ax with
    | ⟨0, _⟩ => show win1_2.index t (0 : Fin 3) * 1 ≤ e.val ∧ e.val < win1_2.index t (0 : Fin 3) * 1 + 1; omega
    | ⟨1, _⟩ => show win1_2.index t (1 : Fin 3) * 512 ≤ r.val ∧ r.val < win1_2.index t (1 : Fin 3) * 512 + 512; omega
    | ⟨2, _⟩ => show win1_2.index t (2 : Fin 3) * 1024 ≤ q.val ∧ q.val < win1_2.index t (2 : Fin 3) * 1024 + 1024; omega
  exact ((dat1 V c).arrAt_apply_of_mem 2 (v1_G V c) (fun t hf => v1_flushed_eq V c t hf) cfg1.N t (ix3 e r q) t.isLt hfl hmem).trans
    (v1_G_apply V c e r q)

end Cert.KernelIdeal.Hand

end
-- ==== Proof.LibFlatten3.lean ====
/-
  Layout facts met when a three-axis array `[a, b, c]` is handled as a matrix of `a · b` rows: the cast that
  flattens its two leading axes into one (row `i · b + j` is the old `(i, j)`) and the cast back; one `[b, c]` slab
  `[1, b, c]` spread along a new leading axis to `[a, b, c]`; and one vector `[c]` viewed as `[1, 1, c]` and spread
  over both leading axes to `[a, b, c]`. Each is read at an entry given by its coordinates. They hold for any extents
  and for entries of any type.
-/
import Idealize.ShloMosaic.Lib.Pipeline.Value
import Idealize.ShloMosaic.Lib.ValueIdx

noncomputable section

namespace Cert.LibFlatten3

open Idealize.ShloMosaic Idealize.ShloMosaic.ValueIdx

variable {α : Type}

/-- An `[a, b, c]` array cast to `[m, c]` (with `m = a · b`) reads, at `(ρ, k)` with `ρ = i · b + j`, the operand at
    `(i, j, k)`: the same row-major position. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (ρ : Fin m)
    (hρ : ρ.val = i.val * b + j.val) :
    shapeCast ⟨2, ![m, c]⟩ x h (ix2 ρ k) = x (ix3 i j k) :=
  shapeCast_apply x h _ _ (by
    rw [Shape.rowMajor_val_two, Shape.rowMajor_val_three]
    show (i.val * b + j.val) * c + k.val = ρ.val * c + k.val
    rw [hρ])

/-- An `[m, c]` array (with `m = a · b`) cast to `[a, b, c]` reads, at `(i, j, k)`, the operand at row `ρ = i · b + j`,
    column `k`. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (ρ : Fin m)
    (hρ : ρ.val = i.val * b + j.val) :
    shapeCast ⟨3, ![a, b, c]⟩ x h (ix3 i j k) = x (ix2 ρ k) :=
  shapeCast_apply x h _ _ (by
    rw [Shape.rowMajor_val_two, Shape.rowMajor_val_three]
    show ρ.val * c + k.val = (i.val * b + j.val) * c + k.val
    rw [hρ])

/-- A `[1, b, c]` array spread to `[a, b, c]` reads, at `(i, j, k)`, the operand at `(0, j, k)`: the same for every `i`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[c]` vector cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    rw [hu, hv]
    omega)

/-- A `[1, 1, c]` array spread to `[a, b, c]` reads, at `(i, j, k)`, the operand's entry `k`: the same for every `(i, j)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibFlatten3

end
-- ==== Proof.KI.Final.lean ====
/-
  The kernel program's result array is the specification of its three float arguments.

  The last reshape flattens region 1's output [8, 1024, 2048] to [8192, 2048]: row p = e·1024 + r is the old (e, r).
  Region 1's output at (e, r, q) is Σ_i inter(e, r, i) · w2(e, i, q) over the gated activations region 0 left; region
  0's output at (e, r, i) is the gate of the two first-layer sums over the activations as the first reshape laid them
  out, [8192, 2048] as [8, 1024, 2048]: (e, r, h) is the old row e·1024 + r, column h.
-/
import proofs.«103436_j9328668967830_1_alg».proof.Proof.KI.Regions
import proofs.«103436_j9328668967830_1_alg».proof.Proof.KI.Val0
import proofs.«103436_j9328668967830_1_alg».proof.Proof.KI.Val1
import proofs.«103436_j9328668967830_1_alg».proof.Proof.LibFlatten3
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.RA Idealize.SL.Sem
open Cert.KernelIdeal Cert.KernelIdeal.Gen

variable (m : (ℓ : Loc nD τ sig) → Buf (Elt Ideal) ℓ) (ρ : Dev nD → PrngReg)

/-- The three float arguments as arrays of extended reals. -/
abbrev argX (c : Dev nD) : FVec Ideal S8192x2048 .f32 := m ((c : Thread nD τ).loc main_arg0)
abbrev argW1 (c : Dev nD) : FVec Ideal S8x2048x11264 .f32 := m ((c : Thread nD τ).loc main_arg1)
abbrev argW2 (c : Dev nD) : FVec Ideal S8x5632x2048 .f32 := m ((c : Thread nD τ).loc main_arg2)

/-! ## What each region is entered with -/

theorem arrX_V1 (c : Dev nD) : arrX (V1 m ρ) c = shapeCast S8x1024x2048 (argX m c) shapeCasts_S8192x2048_S8x1024x2048 := by
  show StableHlo.after hostOps0 (W0 m ρ c) (Proc.devRef .tc main_v0) = _
  after_results
  rfl

theorem arrW1_V1 (c : Dev nD) : arrW1 (V1 m ρ) c = argW1 m c :=
  (StableHlo.after_of_writes_sub hostOps0 _ hostOps0_writes (by decide : main_arg1 ∉ hostOps0_W)).trans rfl

theorem arrI_V2 (c : Dev nD) : arrI (V2 m ρ) c = o1 m ρ c := W2_out m ρ c

theorem arrW2_V2 (c : Dev nD) : arrW2 (V2 m ρ) c = argW2 m c :=
  (W2_of_ne m ρ c main_arg2 (by decide)).trans
    ((StableHlo.after_of_writes_sub hostOps0 _ hostOps0_writes (by decide : main_arg2 ∉ hostOps0_W)).trans rfl)

/-- The result buffer at the end: region 1's output array, flattened. -/
theorem W4_out (c : Dev nD) :
    W4 m ρ c (Proc.devRef .tc main_v3) = shapeCast S8192x2048 (o2 m ρ c) shapeCasts_S8x1024x2048_S8192x2048 := by
  show StableHlo.after hostOps2 (W3 m ρ c) (Proc.devRef .tc main_v3) = _
  after_results
  rw [W3_out]
  rfl

/-! ## The result array -/

/-- Row `p` of the flat activations is row `posOf p` of group `grpOf p`. -/
theorem row_split (p : Fin 8192) : p.val = (Cert.Spec.grpOf p).val * 1024 + (Cert.Spec.posOf p).val := by
  simp only [Cert.Spec.grpOf, Cert.Spec.posOf]; omega

theorem rowOf_val (e : Fin 8) (r : Fin 1024) : (Cert.Spec.rowOf e r).val = e.val * 1024 + r.val := rfl

/-- The activations as region 0 reads them: entry (e, r, h) of the three-axis layout is row e·1024 + r, column h. -/
theorem x_read (c : Dev nD) (e : Fin 8) (r : Fin 1024) (h : Fin 2048) :
    shapeCast S8x1024x2048 (argX m c) shapeCasts_S8192x2048_S8x1024x2048 (ix3 e r h) = argX m c (ix2 (Cert.Spec.rowOf e r) h) :=
  Cert.LibFlatten3.shapeCast_mc_abc_apply (argX m c) shapeCasts_S8192x2048_S8x1024x2048 e r h (Cert.Spec.rowOf e r) (rowOf_val e r)

/-- Region 0 leaves the gated activations of the specification. -/
theorem o1_apply (c : Dev nD) (e : Fin 8) (r : Fin 1024) (i : Fin 5632) :
    o1 m ρ c (ix3 e r i) = Cert.Spec.inter (argX m c) (argW1 m c) e r i := by
  unfold o1
  rw [arrAt0_out_apply (V1 m ρ) qa qb c e r i, arrX_V1, arrW1_V1]
  unfold Cert.Spec.inter Cert.Spec.fc1
  simp only [x_read]

/-- THE KERNEL'S VALUE: at the end the result buffer holds the specification of the three float arguments. -/
theorem out_is_G (c : Dev nD) :
    W4 m ρ c (Proc.devRef .tc main_v3) = Cert.Spec.G (argX m c) (argW1 m c) (argW2 m c) := by
  rw [W4_out]
  funext j
  obtain ⟨p, q, rfl⟩ : ∃ (p : Fin 8192) (q : Fin 2048), j = ix2 p q := ⟨j 0, j 1, eq_ix2 j⟩
  rw [Cert.LibFlatten3.shapeCast_abc_mc_apply (o2 m ρ c) shapeCasts_S8x1024x2048_S8192x2048 (Cert.Spec.grpOf p) (Cert.Spec.posOf p) q p (row_split p),
    Cert.Spec.G_apply]
  unfold o2
  rw [arrAt1_out_apply (V2 m ρ) c (Cert.Spec.grpOf p) (Cert.Spec.posOf p) q, arrI_V2, arrW2_V2]
  unfold Cert.Spec.outE
  simp only [o1_apply]

end Cert.KernelIdeal.Hand

end
-- ==== Proof.RefIsG.lean ====
/-
  The reference program computes the specification. Read entry by entry over the extended reals, the reference's
  result at row p, column q is
      Σ_{i < 5632} ((a_i · (1 / (1 + exp (−a_i)))) · b_i) · w2(e, i, q),
  with e = p / 1024, r = p % 1024, a_i = Σ_h x(e·1024 + r, h) · w1(e, h, i) and b_i the same sum at column i + 5632:
  the first reshape sends row e·1024 + r of the activations to entry (e, r) of the grouped array, the two slices pick
  the lower and the upper half of the first layer's columns, and the last reshape sends entry (e, r) back to row
  e·1024 + r. This is the specification's G, whose logistic a is by definition 1 / (1 + exp (−a)) and whose 1 is what
  the word 0x3F800000 denotes; no algebraic law is used, only the reading of each operation at an index.
-/
import proofs.«103436_j9328668967830_1_alg».proof.Proof.Gen.ReferenceIdeal.Read
import proofs.«103436_j9328668967830_1_alg».proof.Proof.Spec

noncomputable section

namespace Cert.ReferenceIdeal.RefValue

open Cert.ReferenceIdeal Cert.ReferenceIdeal.Read Idealize.ShloMosaic Idealize.ShloMosaic.ValueIdx Cert.Spec

/-! ## Where each layout operation reads, at an index given by its coordinates -/

/-- The last reshape: row `p`, column `q` of the result is entry `(p / 1024, p % 1024, q)` of the grouped array. -/
theorem idx_v7 (p : Fin 8192) (q : Fin 2048) : idx_main_v7 (ix2 p q) = ix3 (grpOf p) (posOf p) q :=
  funext fun a => Fin.ext (by
    have hp := p.isLt
    have hq := q.isLt
    match a with
    | ⟨0, _⟩ => show (p.val * 2048 + q.val) / 2097152 = p.val / 1024; omega
    | ⟨1, _⟩ => show (p.val * 2048 + q.val) / 2048 % 1024 = p.val % 1024; omega
    | ⟨2, _⟩ => show (p.val * 2048 + q.val) % 2048 = q.val; omega)

/-- The second contraction's left operand at `(e, r, q)`, summand `k`, is read at `(e, r, k)` … -/
theorem lidx_v6 (e : Fin 8) (r : Fin 1024) (q : Fin 2048) (k : Fin 5632) : lidx_main_v6 (ix3 e r q) k = ix3 e r k :=
  funext fun a => Fin.ext (by match a with | ⟨0, _⟩ => rfl | ⟨1, _⟩ => rfl | ⟨2, _⟩ => rfl)
/-- … and its right operand at `(e, k, q)`. -/
theorem ridx_v6 (e : Fin 8) (r : Fin 1024) (q : Fin 2048) (k : Fin 5632) : ridx_main_v6 (ix3 e r q) k = ix3 e k q :=
  funext fun a => Fin.ext (by match a with | ⟨0, _⟩ => rfl | ⟨1, _⟩ => rfl | ⟨2, _⟩ => rfl)

/-- The first slice keeps column `k` as the lower half's column `k` … -/
theorem idx_v2 (e : Fin 8) (r : Fin 1024) (k : Fin 5632) : idx_main_v2 (ix3 e r k) = ix3 e r (lo k) :=
  funext fun a => Fin.ext (by match a with | ⟨0, _⟩ => rfl | ⟨1, _⟩ => rfl | ⟨2, _⟩ => rfl)
/-- … and the second slice reads column `k + 5632`, the upper half's. -/
theorem idx_v3 (e : Fin 8) (r : Fin 1024) (k : Fin 5632) : idx_main_v3 (ix3 e r k) = ix3 e r (hi k) :=
  funext fun a => Fin.ext (by
    match a with
    | ⟨0, _⟩ => rfl
    | ⟨1, _⟩ => rfl
    | ⟨2, _⟩ => show 5632 + k.val = k.val + 5632; omega)

/-- The first contraction's left operand at `(e, r, f)`, summand `h`, is read at `(e, r, h)` … -/
theorem lidx_v1 (e : Fin 8) (r : Fin 1024) (f : Fin 11264) (h : Fin 2048) : lidx_main_v1 (ix3 e r f) h = ix3 e r h :=
  funext fun a => Fin.ext (by match a with | ⟨0, _⟩ => rfl | ⟨1, _⟩ => rfl | ⟨2, _⟩ => rfl)
/-- … and its right operand at `(e, h, f)`. -/
theorem ridx_v1 (e : Fin 8) (r : Fin 1024) (f : Fin 11264) (h : Fin 2048) : ridx_main_v1 (ix3 e r f) h = ix3 e h f :=
  funext fun a => Fin.ext (by match a with | ⟨0, _⟩ => rfl | ⟨1, _⟩ => rfl | ⟨2, _⟩ => rfl)

/-- The first reshape: entry `(e, r, h)` of the grouped activations is row `e · 1024 + r`, column `h`. -/
theorem idx_v0 (e : Fin 8) (r : Fin 1024) (h : Fin 2048) : idx_main_v0 (ix3 e r h) = ix2 (rowOf e r) h :=
  funext fun a => Fin.ext (by
    have he := e.isLt
    have hr := r.isLt
    have hh := h.isLt
    match a with
    | ⟨0, _⟩ => show ((e.val * 1024 + r.val) * 2048 + h.val) / 2048 = e.val * 1024 + r.val; omega
    | ⟨1, _⟩ => show ((e.val * 1024 + r.val) * 2048 + h.val) % 2048 = h.val; omega)

/-- The word `0x3F800000` denotes one. -/
theorem one_f32 : Ideal.ofBits .f32 0x3F800000#32 = 1 := IdealRules.sign_bit.ideal_onePat .f32

/-! ## The stages -/

variable (x0 : (⟨S8192x2048, .f32⟩ : BufTy).Contents (Elt Ideal))
  (x1 : (⟨S8x2048x11264, .f32⟩ : BufTy).Contents (Elt Ideal))
  (x2 : (⟨S8x5632x2048, .f32⟩ : BufTy).Contents (Elt Ideal))

/-- The first contraction is the specification's first layer. -/
theorem v1_eq (e : Fin 8) (r : Fin 1024) (f : Fin 11264) :
    val_main_v1 (F := Ideal) x0 x1 (ix3 e r f) = fc1 x0 x1 e r f := by
  rw [val_main_v1_apply]
  unfold fc1
  refine Finset.sum_congr rfl fun h _ => ?_
  rw [lidx_v1, ridx_v1, val_main_v0_apply, idx_v0]

/-- The gated product of the two halves is the specification's gated activation. -/
theorem v5_eq (e : Fin 8) (r : Fin 1024) (k : Fin 5632) :
    val_main_v5 (F := Ideal) x0 x1 (ix3 e r k) = inter x0 x1 e r k := by
  rw [val_main_v5_apply, val_main_v4_apply, val_main_call0_v5_apply, val_main_call0_v4_apply, val_main_call0_cst_0_apply,
    val_main_call0_v3_apply, val_main_call0_v2_apply, val_main_call0_cst_apply, val_main_call0_v1_apply,
    val_main_call0_v0_apply, val_main_v2_apply, val_main_v3_apply, idx_v2, idx_v3, v1_eq, v1_eq]
  simp only [Ideal.mulf_def, Ideal.hostDivf_def, Ideal.addf_def, Ideal.hostUnary_exp_def, Ideal.hostNegf_def,
    Ideal.negf_def, Ideal.ofBits_def, one_f32]
  rfl

/-- THE REFERENCE IS THE SPECIFICATION: the reference program's result array is `G` of its three float arguments. -/
theorem ref_is_G : Cert.ReferenceIdeal.Read.val_main_v7 x0 x1 x2 = Cert.Spec.G x0 x1 x2 := by
  funext i
  obtain ⟨p, q, rfl⟩ : ∃ (p : Fin 8192) (q : Fin 2048), i = ix2 p q := ⟨i 0, i 1, eq_ix2 i⟩
  rw [val_main_v7_apply, idx_v7, val_main_v6_apply, G_apply]
  unfold outE
  refine Finset.sum_congr rfl fun k _ => ?_
  rw [lidx_v6, ridx_v6, v5_eq]

end Cert.ReferenceIdeal.RefValue

end
-- ==== Proof.lean ====
/-
  The certificate of the grouped two-layer perceptron kernel against its reference.

  Both programs compute, for each of 8 groups of 1024 rows, out = ((x·w1a) · logistic(x·w1a) · (x·w1b)) · w2 with the
  group's own weights, w1a and w1b the two halves of the first weight array's columns. The kernel does it in two tiled
  regions: the first accumulates the two first-layer products over four tiles of the contracted axis and applies the
  gate at the last tile; the second accumulates the second product over four tiles. The reference does it with two
  whole contractions. Over the extended reals a float format change is the identity, a product into a zero accumulator
  is the exact sum of products, `logistic a` is `1 / (1 + exp (−a))` on both sides, and a sum taken tile by tile is
  the whole sum (addition of extended reals is commutative and associative): the two results are one function of the
  arguments, the specification `Cert.Spec.G`, with no use of the inputs' finiteness.

  Frames: each kernel program runs to the end, faults nowhere and leaves its arguments as launched, by the regions' body
  obligations (the accumulators carried from one grid point to the next in the region invariant) composed along @main;
  the reference's frame is its run with the result dropped. The idealization rewrote nothing.
-/
import proofs.«103436_j9328668967830_1_alg».proof.Defs
import proofs.«103436_j9328668967830_1_alg».proof.Proof.Gen.Kernel
import proofs.«103436_j9328668967830_1_alg».proof.Proof.Gen.KernelIdeal
import proofs.«103436_j9328668967830_1_alg».proof.Proof.Gen.ReferenceIdeal
import proofs.«103436_j9328668967830_1_alg».proof.Proof.Gen.ReferenceIdeal.Run
import proofs.«103436_j9328668967830_1_alg».proof.Proof.Gen.ReferenceIdeal.Read
import proofs.«103436_j9328668967830_1_alg».proof.Proof.Gen.Pre_finite_inputs
import proofs.«103436_j9328668967830_1_alg».proof.Proof.K.Regions
import proofs.«103436_j9328668967830_1_alg».proof.Proof.KI.Final
import proofs.«103436_j9328668967830_1_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Hand.frame m ρ

/-- The idealized kernel program runs and keeps its arguments. -/
theorem frame_ki : Cert.frame_KernelIdeal := fun m ρ _ => Cert.KernelIdeal.Hand.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

open Cert.KernelIdeal Cert.KernelIdeal.Hand in
/-- From memories that agree on the arguments both idealized programs end with the specification of the three float
    arguments in their result buffers, and with their arguments as launched. -/
theorem algebraic : Cert.algebraic_KernelIdeal_ReferenceIdeal := by
  intro m ρ m' ρ' _ hagree
  refine ⟨fun c => Cert.Spec.G (argX m c) (argW1 m c) (argW2 m c), ?_, ?_⟩
  · refine (θ_run Cert.KernelIdeal.defs _ _).mono (fun r h c => ?_) (Cert.KernelIdeal.Hand.run_all m ρ)
    exact ⟨(h c _ (mem_uc main_v3 (by decide))).trans (out_is_G m ρ c),
      (h c _ (mem_uc main_arg0 (by decide))).trans (W4_arg m ρ c main_arg0 (by decide) (by decide) (by decide) (by decide)),
      (h c _ (mem_uc main_arg1 (by decide))).trans (W4_arg m ρ c main_arg1 (by decide) (by decide) (by decide) (by decide)),
      (h c _ (mem_uc main_arg2 (by decide))).trans (W4_arg m ρ c main_arg2 (by decide) (by decide) (by decide) (by decide)),
      (h c _ (mem_uc main_arg3 (by decide))).trans (W4_arg m ρ c main_arg3 (by decide) (by decide) (by decide) (by decide))⟩
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1]
    exact (Cert.ReferenceIdeal.Read.val_main_v7_eq _ _ _).trans (Cert.ReferenceIdeal.RefValue.ref_is_G _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
